-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S16x1024x3 : Shape := ⟨3, ![16, 1024, 3]⟩
abbrev S16x64x4096 : Shape := ⟨3, ![16, 64, 4096]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel
  bcast_S_S16x1024x3 : S_.BroadcastsInDim S16x1024x3 (![] : Fin 0 → Fin S16x1024x3.rank)
  reducesTo_S16x1024x3_S_d0_1_2 : S16x1024x3.ReducesTo [0, 1, 2] S_
  bcast_S_S16x64x4096 : S_.BroadcastsInDim S16x64x4096 (![] : Fin 0 → Fin S16x64x4096.rank)
  reducesTo_S16x64x4096_S_d0_1_2 : S16x64x4096.ReducesTo [0, 1, 2] S_

variable [Facts]

def fn {F : FTy → Type} [FloatOps F] (main_arg0 : FVec F S16x4096x3 .f32) (main_arg1 : FVec F S16x1024x3 .f32) (main_arg2 : FVec F S16x64x4096 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x1024x3 .f32 := Host.absf main_arg1
  let main_cst_0 : FVec F S_ .f32 := constant S_ .f32 0x7F800000#32
  let main_v5 : FVec F S16x1024x3 .f32 := broadcastInDim S16x1024x3 ![] bcast_S_S16x1024x3 main_cst_0
  let main_v6 : IVec S16x1024x3 1 := cmpf .olt main_v4 main_v5
  let main_c_1 : IVec S_ 1 := constantI S_ 1 1#1
  let main_v7 : IVec S_ 1 := (fun x v => Host.reduce IntOp.andi x v reducesTo_S16x1024x3_S_d0_1_2 h_S_) main_v6 main_c_1
  let main_v8 : IVec S_ 1 := andi main_v3 main_v7
  let main_v9 : FVec F S16x64x4096 .f32 := Host.absf main_arg2
  let main_cst_2 : FVec F S_ .f32 := constant S_ .f32 0x7F800000#32
  let main_v10 : FVec F S16x64x4096 .f32 := broadcastInDim S16x64x4096 ![] bcast_S_S16x64x4096 main_cst_2
  let main_v11 : IVec S16x64x4096 1 := cmpf .olt main_v9 main_v10
  let main_c_3 : IVec S_ 1 := constantI S_ 1 1#1
  let main_v12 : IVec S_ 1 := (fun x v => Host.reduce IntOp.andi x v reducesTo_S16x64x4096_S_d0_1_2 h_S_) main_v11 main_c_3
  let main_v13 : IVec S_ 1 := andi main_v8 main_v12
  main_v13
-- ==== Kernel.lean ====
abbrev S16x4096x3 : Shape := ⟨3, ![16, 4096, 3]⟩
abbrev S16x1024x3 : Shape := ⟨3, ![16, 1024, 3]⟩
abbrev S16x64x4096 : Shape := ⟨3, ![16, 64, 4096]⟩
abbrev S16x1024x1x3 : Shape := ⟨4, ![16, 1024, 1, 3]⟩
abbrev S16x1x4096x3 : Shape := ⟨4, ![16, 1, 4096, 3]⟩
abbrev S16x1024x4096x3 : Shape := ⟨4, ![16, 1024, 4096, 3]⟩
abbrev S_ : Shape := ⟨0, ![]⟩
abbrev S16x1024x4096 : Shape := ⟨3, ![16, 1024, 4096]⟩
abbrev S16x1024x1 : Shape := ⟨3, ![16, 1024, 1]⟩
abbrev S16x1024 : Shape := ⟨2, ![16, 1024]⟩
abbrev S16 : Shape := ⟨1, ![16]⟩
abbrev S16x1x1 : Shape := ⟨3, ![16, 1, 1]⟩
abbrev S1024 : Shape := ⟨1, ![1024]⟩
abbrev S1x1024x1 : Shape := ⟨3, ![1, 1024, 1]⟩
abbrev S4096 : Shape := ⟨1, ![4096]⟩
abbrev S1x1x4096 : Shape := ⟨3, ![1, 1, 4096]⟩
abbrev S16x1024x33 : Shape := ⟨3, ![16, 1024, 33]⟩
abbrev S16x1024x4096x1 : Shape := ⟨4, ![16, 1024, 4096, 1]⟩
abbrev S16x1024x32 : Shape := ⟨3, ![16, 1024, 32]⟩
abbrev S32 : Shape := ⟨1, ![32]⟩
abbrev S1x1x32 : Shape := ⟨3, ![1, 1, 32]⟩
abbrev S16x32768 : Shape := ⟨2, ![16, 32768]⟩
abbrev S16x3x4096 : Shape := ⟨3, ![16, 3, 4096]⟩
abbrev S16x3x1024 : Shape := ⟨3, ![16, 3, 1024]⟩
abbrev S16x67x4096 : Shape := ⟨3, ![16, 67, 4096]⟩
abbrev S16x5x1024 : Shape := ⟨3, ![16, 5, 1024]⟩
abbrev S16x8x1024 : Shape := ⟨3, ![16, 8, 1024]⟩
abbrev S16x8x1024x32 : Shape := ⟨4, ![16, 8, 1024, 32]⟩
abbrev S16x8x32768 : Shape := ⟨3, ![16, 8, 32768]⟩
abbrev S16x67x32768 : Shape := ⟨3, ![16, 67, 32768]⟩
abbrev S1x67x4096 : Shape := ⟨3, ![1, 67, 4096]⟩
abbrev S1x8x4096 : Shape := ⟨3, ![1, 8, 4096]⟩
abbrev S67x4096 : Shape := ⟨2, ![67, 4096]⟩
abbrev S4096x256 : Shape := ⟨2, ![4096, 256]⟩
abbrev S1x256 : Shape := ⟨2, ![1, 256]⟩
abbrev S256 : Shape := ⟨1, ![256]⟩
abbrev S67x256 : Shape := ⟨2, ![67, 256]⟩
abbrev S1x8x256 : Shape := ⟨3, ![1, 8, 256]⟩
abbrev S8x256 : Shape := ⟨2, ![8, 256]⟩
abbrev S59x256 : Shape := ⟨2, ![59, 256]⟩
abbrev S1x59x256 : Shape := ⟨3, ![1, 59, 256]⟩
abbrev S16x67x1024x32 : Shape := ⟨4, ![16, 67, 1024, 32]⟩

abbrev nBuf : Space → Nat
  | .hbm => 96
  | .vmem => 9
  | .smem => 0
  | _ => 0

abbrev bufTy : (tb : Table) → Fin (tcTables nBuf tb) → BufTy
  | .hbm, ⟨0, _⟩ => ⟨S16x4096x3, .f32⟩
  | .hbm, ⟨1, _⟩ => ⟨S16x1024x3, .f32⟩
  | .hbm, ⟨2, _⟩ => ⟨S16x64x4096, .f32⟩
  | .hbm, ⟨3, _⟩ => ⟨S16x1024x1x3, .f32⟩
  | .hbm, ⟨4, _⟩ => ⟨S16x1x4096x3, .f32⟩
  | .hbm, ⟨5, _⟩ => ⟨S16x1024x4096x3, .f32⟩
  | .hbm, ⟨6, _⟩ => ⟨S16x1024x4096x3, .f32⟩
  | .hbm, ⟨7, _⟩ => ⟨S16x1024x4096x3, .f32⟩
  | .hbm, ⟨8, _⟩ => ⟨S16x1024x4096x3, .f32⟩
  | .hbm, ⟨9, _⟩ => ⟨S_, .f32⟩
  | .hbm, ⟨10, _⟩ => ⟨S16x1024x4096, .f32⟩
  | .hbm, ⟨11, _⟩ => ⟨S_, .f32⟩
  | .hbm, ⟨12, _⟩ => ⟨S16x1024x4096, .f32⟩
  | .hbm, ⟨13, _⟩ => ⟨S16x1024x4096, .i1⟩
  | .hbm, ⟨14, _⟩ => ⟨S16x1024x4096, .i32⟩
  | .hbm, ⟨15, _⟩ => ⟨S_, .i32⟩
  | .hbm, ⟨16, _⟩ => ⟨S_, .i32⟩
  | .hbm, ⟨17, _⟩ => ⟨S16x1024x4096, .i32⟩
  | .hbm, ⟨18, _⟩ => ⟨S16x1024x1, .i32⟩
  | .hbm, ⟨19, _⟩ => ⟨S16x1024, .i32⟩
  | .hbm, ⟨20, _⟩ => ⟨S_, .i32⟩
  | .hbm, ⟨21, _⟩ => ⟨S16x1024x4096, .i32⟩
  | .hbm, ⟨22, _⟩ => ⟨S16x1024x4096, .i1⟩
  | .hbm, ⟨23, _⟩ => ⟨S16x1024x4096, .i1⟩
  | .hbm, ⟨24, _⟩ => ⟨S_, .i32⟩
  | .hbm, ⟨25, _⟩ => ⟨S16x1024x4096, .i32⟩
  | .hbm, ⟨26, _⟩ => ⟨S16x1024x4096, .i32⟩
  | .hbm, ⟨27, _⟩ => ⟨S_, .i32⟩
  | .hbm, ⟨28, _⟩ => ⟨S_, .i32⟩
  | .hbm, ⟨29, _⟩ => ⟨S16x1024x4096, .i32⟩
  | .hbm, ⟨30, _⟩ => ⟨S16x1024x4096, .i32⟩
  | .hbm, ⟨31, _⟩ => ⟨S16, .i32⟩
  | .hbm, ⟨32, _⟩ => ⟨S16x1x1, .i32⟩
  | .hbm, ⟨33, _⟩ => ⟨S1024, .i32⟩
  | .hbm, ⟨34, _⟩ => ⟨S1x1024x1, .i32⟩
  | .hbm, ⟨35, _⟩ => ⟨S4096, .i32⟩
  | .hbm, ⟨36, _⟩ => ⟨S1x1x4096, .i32⟩
  | .hbm, ⟨37, _⟩ => ⟨S16x1024x4096, .i32⟩
  | .hbm, ⟨38, _⟩ => ⟨S_, .i32⟩
  | .hbm, ⟨39, _⟩ => ⟨S16x1024x33, .i32⟩
  | .hbm, ⟨40, _⟩ => ⟨S_, .i32⟩
  | .hbm, ⟨41, _⟩ => ⟨S16x1x1, .i32⟩
  | .hbm, ⟨42, _⟩ => ⟨S16x1x1, .i1⟩
  | .hbm, ⟨43, _⟩ => ⟨S_, .i32⟩
  | .hbm, ⟨44, _⟩ => ⟨S16x1x1, .i32⟩
  | .hbm, ⟨45, _⟩ => ⟨S16x1x1, .i32⟩
  | .hbm, ⟨46, _⟩ => ⟨S16x1x1, .i32⟩
  | .hbm, ⟨47, _⟩ => ⟨S_, .i32⟩
  | .hbm, ⟨48, _⟩ => ⟨S1x1024x1, .i32⟩
  | .hbm, ⟨49, _⟩ => ⟨S1x1024x1, .i1⟩
  | .hbm, ⟨50, _⟩ => ⟨S_, .i32⟩
  | .hbm, ⟨51, _⟩ => ⟨S1x1024x1, .i32⟩
  | .hbm, ⟨52, _⟩ => ⟨S1x1024x1, .i32⟩
  | .hbm, ⟨53, _⟩ => ⟨S1x1024x1, .i32⟩
  | .hbm, ⟨54, _⟩ => ⟨S_, .i32⟩
  | .hbm, ⟨55, _⟩ => ⟨S16x1024x4096, .i32⟩
  | .hbm, ⟨56, _⟩ => ⟨S16x1024x4096, .i1⟩
  | .hbm, ⟨57, _⟩ => ⟨S_, .i32⟩
  | .hbm, ⟨58, _⟩ => ⟨S16x1024x4096, .i32⟩
  | .hbm, ⟨59, _⟩ => ⟨S16x1024x4096, .i32⟩
  | .hbm, ⟨60, _⟩ => ⟨S16x1024x4096, .i32⟩
  | .hbm, ⟨61, _⟩ => ⟨S16x1024x4096, .i32⟩
  | .hbm, ⟨62, _⟩ => ⟨S16x1024x4096, .i32⟩
  | .hbm, ⟨63, _⟩ => ⟨S16x1024x4096x1, .i32⟩
  | .hbm, ⟨64, _⟩ => ⟨S16x1024x4096x1, .i32⟩
  | .hbm, ⟨65, _⟩ => ⟨S16x1024x4096x1, .i32⟩
  | .hbm, ⟨66, _⟩ => ⟨S16x1024x4096x3, .i32⟩
  | .hbm, ⟨67, _⟩ => ⟨S16x1024x33, .i32⟩
  | .hbm, ⟨68, _⟩ => ⟨S16x1024x32, .i32⟩
  | .hbm, ⟨69, _⟩ => ⟨S32, .i32⟩
  | .hbm, ⟨70, _⟩ => ⟨S1x1x32, .i32⟩
  | .hbm, ⟨71, _⟩ => ⟨S_, .i32⟩
  | .hbm, ⟨72, _⟩ => ⟨S16x1024, .i32⟩
  | .hbm, ⟨73, _⟩ => ⟨S16x1024, .i32⟩
  | .hbm, ⟨74, _⟩ => ⟨S16x1024x1, .i32⟩
  | .hbm, ⟨75, _⟩ => ⟨S16x1024x32, .i32⟩
  | .hbm, ⟨76, _⟩ => ⟨S16x1024x32, .i32⟩
  | .hbm, ⟨77, _⟩ => ⟨S16x1024x32, .i1⟩
  | .hbm, ⟨78, _⟩ => ⟨S16x1024x1, .i32⟩
  | .hbm, ⟨79, _⟩ => ⟨S16x1024x32, .i32⟩
  | .hbm, ⟨80, _⟩ => ⟨S16x1024x32, .i32⟩
  | .hbm, ⟨81, _⟩ => ⟨S16x32768, .i32⟩
  | .hbm, ⟨82, _⟩ => ⟨S16x3x4096, .f32⟩
  | .hbm, ⟨83, _⟩ => ⟨S16x3x1024, .f32⟩
  | .hbm, ⟨84, _⟩ => ⟨S16x67x4096, .f32⟩
  | .hbm, ⟨85, _⟩ => ⟨S16x67x4096, .bf16⟩
  | .hbm, ⟨86, _⟩ => ⟨S16x67x4096, .f32⟩
  | .hbm, ⟨87, _⟩ => ⟨S16x67x4096, .f32⟩
  | .hbm, ⟨88, _⟩ => ⟨S16x67x4096, .bf16⟩
  | .hbm, ⟨89, _⟩ => ⟨S_, .f32⟩
  | .hbm, ⟨90, _⟩ => ⟨S16x5x1024, .f32⟩
  | .hbm, ⟨91, _⟩ => ⟨S16x8x1024, .f32⟩
  | .hbm, ⟨92, _⟩ => ⟨S16x8x1024x32, .f32⟩
  | .hbm, ⟨93, _⟩ => ⟨S16x8x32768, .f32⟩
  | .hbm, ⟨94, _⟩ => ⟨S16x67x32768, .f32⟩
  | .hbm, ⟨95, _⟩ => ⟨S16x67x1024x32, .f32⟩
  | .local _ .vmem, ⟨0, _⟩ => ⟨S16x32768, .i32⟩
  | .local _ .vmem, ⟨1, _⟩ => ⟨S1x67x4096, .bf16⟩
  | .local _ .vmem, ⟨2, _⟩ => ⟨S1x67x4096, .bf16⟩
  | .local _ .vmem, ⟨3, _⟩ => ⟨S1x67x4096, .bf16⟩
  | .local _ .vmem, ⟨4, _⟩ => ⟨S1x67x4096, .bf16⟩
  | .local _ .vmem, ⟨5, _⟩ => ⟨S1x8x4096, .f32⟩
  | .local _ .vmem, ⟨6, _⟩ => ⟨S1x8x4096, .f32⟩
  | .local _ .vmem, ⟨7, _⟩ => ⟨S1x67x4096, .f32⟩
  | .local _ .vmem, ⟨8, _⟩ => ⟨S1x67x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_call0_c : Ref sig .tc := ⟨.hbm, 15, rfl⟩
abbrev main_call0_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_call2_v0 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v6 : BitVec 32 := Scalar.muli arg7 c256_i32
  v6
def k0_mult2 (i : grid0.Coords) (k0_t1 : Fin k0_t1_loop.trips) : BitVec 32 :=
  let arg1 : BitVec 32 := BitVec.ofNat 32 (i 1).val
  let c4096_i32 : BitVec 32 := 4096#32
  let v8 : BitVec 32 := Scalar.muli arg1 c4096_i32
  let c0_i32 : BitVec 32 := 0#32
  let c1_i32 : BitVec 32 := 1#32
  let arg7 : BitVec 32 := Scf.iv c0_i32 c1_i32 k0_t1
  let c256_i32_6 : BitVec 32 := 256#32
  let v9 : BitVec 32 := Scalar.muli arg7 c256_i32_6
  let v10 : BitVec 32 := Scalar.addi v8 v9
  v10
def k0_off1 (i : grid0.Coords) (k0_t1 : Fin k0_t1_loop.trips) : Fin 2 → Nat :=
  let arg0 : BitVec 32 := BitVec.ofNat 32 (i 0).val
  let v12 : Index := Scalar.indexCast arg0
  let arg1 : BitVec 32 := BitVec.ofNat 32 (i 1).val
  let c4096_i32 : BitVec 32 := 4096#32
  let v8 : BitVec 32 := Scalar.muli arg1 c4096_i32
  let c0_i32 : BitVec 32 := 0#32
  let c1_i32 : BitVec 32 := 1#32
  let arg7 : BitVec 32 := Scf.iv c0_i32 c1_i32 k0_t1
  let c256_i32_6 : BitVec 32 := 256#32
  let v9 : BitVec 32 := Scalar.muli arg7 c256_i32_6
  let v10 : BitVec 32 := Scalar.addi v8 v9
  let v11 : BitVec 32 := v10
  let v13 : Index := Scalar.indexCast v11
  ![v12.toNat, v13.toNat]
def k0_off2 (k0_t1 : Fin k0_t1_loop.trips) : Fin 3 → Nat :=
  let c0_8 : Index := 0#32
  let c0_9 : Index := 0#32
  let c0_i32 : BitVec 32 := 0#32
  let c1_i32 : BitVec 32 := 1#32
  let arg7 : BitVec 32 := Scf.iv c0_i32 c1_i32 k0_t1
  let c256_i32 : BitVec 32 := 256#32
  let v6 : BitVec 32 := Scalar.muli arg7 c256_i32
  let v7 : BitVec 32 := v6
  let v25 : Index := Scalar.indexCast v7
  ![0, 0, v25.toNat]
def k0_off3 (k0_t1 : Fin k0_t1_loop.trips) : Fin 3 → Nat :=
  let c0_10 : Index := 0#32
  let c0_11 : Index := 0#32
  let c0_i32 : BitVec 32 := 0#32
  let c1_i32 : BitVec 32 := 1#32
  let arg7 : BitVec 32 := Scf.iv c0_i32 c1_i32 k0_t1
  let c256_i32 : BitVec 32 := 256#32
  let v6 : BitVec 32 := Scalar.muli arg7 c256_i32
  let v7 : BitVec 32 := v6
  let v30 : Index := Scalar.indexCast v7
  ![0, 0, v30.toNat]
def k0_off4 (k0_t1 : Fin k0_t1_loop.trips) : Fin 3 → Nat :=
  let c0_12 : Index := 0#32
  let c8 : Index := 8#32
  let c0_i32 : BitVec 32 := 0#32
  let c1_i32 : BitVec 32 := 1#32
  let arg7 : BitVec 32 := Scf.iv c0_i32 c1_i32 k0_t1
  let c256_i32 : BitVec 32 := 256#32
  let v6 : BitVec 32 := Scalar.muli arg7 c256_i32
  let v7 : BitVec 32 := v6
  let v35 : Index := Scalar.indexCast v7
  ![0, 8, v35.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x32768 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x67x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x67x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x67x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S16x1024x3_S16x1024x1x3_0_1_3 : S16x1024x3.BroadcastsInDim S16x1024x1x3 (![0, 1, 3] : Fin 3 → Fin S16x1024x1x3.rank)
  bcast_S16x4096x3_S16x1x4096x3_0_2_3 : S16x4096x3.BroadcastsInDim S16x1x4096x3 (![0, 2, 3] : Fin 3 → Fin S16x1x4096x3.rank)
  bcast_S16x1024x1x3_S16x1024x4096x3_0_1_2_3 : S16x1024x1x3.BroadcastsInDim S16x1024x4096x3 (![0, 1, 2, 3] : Fin 4 → Fin S16x1024x4096x3.rank)
  bcast_S16x1x4096x3_S16x1024x4096x3_0_1_2_3 : S16x1x4096x3.BroadcastsInDim S16x1024x4096x3 (![0, 1, 2, 3] : Fin 4 → Fin S16x1024x4096x3.rank)
  reducesTo_S16x1024x4096x3_S16x1024x4096_d3 : S16x1024x4096x3.ReducesTo [3] S16x1024x4096
  h_S_ : 0 < S_.numel
  bcast_S_S16x1024x4096 : S_.BroadcastsInDim S16x1024x4096 (![] : Fin 0 → Fin S16x1024x4096.rank)
  natLt_1_32 : 1 < 32
  bcast_S_S_ : S_.BroadcastsInDim S_ (![] : Fin 0 → Fin S_.rank)
  reduceWindows_S16x1024x4096_S16x1024x4096_w1s1p0_0_w1s1p0_0_w4096s1p4095_0 : S16x1024x4096.ReduceWindows (![1, 1, 4096] : Fin 3 → Nat) ![1, 1, 1] ![0, 0, 4095] ![0, 0, 0] S16x1024x4096
  slices_S16x1024x4096_S16x1024x1_0_0_4095 : S16x1024x4096.Slices ![0, 0, 4095] S16x1024x1
  shapeCasts_S16x1024x1_S16x1024 : S16x1024x1.ShapeCasts S16x1024
  bcast_S16_S16x1x1_0 : S16.BroadcastsInDim S16x1x1 (![0] : Fin 1 → Fin S16x1x1.rank)
  bcast_S1024_S1x1024x1_1 : S1024.BroadcastsInDim S1x1024x1 (![1] : Fin 1 → Fin S1x1024x1.rank)
  bcast_S4096_S1x1x4096_2 : S4096.BroadcastsInDim S1x1x4096 (![2] : Fin 1 → Fin S1x1x4096.rank)
  bcast_S1x1x4096_S16x1024x4096_0_1_2 : S1x1x4096.BroadcastsInDim S16x1024x4096 (![0, 1, 2] : Fin 3 → Fin S16x1024x4096.rank)
  bcast_S_S16x1024x33 : S_.BroadcastsInDim S16x1024x33 (![] : Fin 0 → Fin S16x1024x33.rank)
  bcast_S_S16x1x1 : S_.BroadcastsInDim S16x1x1 (![] : Fin 0 → Fin S16x1x1.rank)
  bcast_S_S1x1024x1 : S_.BroadcastsInDim S1x1024x1 (![] : Fin 0 → Fin S1x1024x1.rank)
  bcast_S16x1x1_S16x1024x4096_0_1_2 : S16x1x1.BroadcastsInDim S16x1024x4096 (![0, 1, 2] : Fin 3 → Fin S16x1024x4096.rank)
  bcast_S1x1024x1_S16x1024x4096_0_1_2 : S1x1024x1.BroadcastsInDim S16x1024x4096 (![0, 1, 2] : Fin 3 → Fin S16x1024x4096.rank)
  bcast_S16x1024x4096_S16x1024x4096x1_0_1_2 : S16x1024x4096.BroadcastsInDim S16x1024x4096x1 (![0, 1, 2] : Fin 3 → Fin S16x1024x4096x1.rank)
  concatenates_S16x1024x4096x1_S16x1024x4096x1_S16x1024x4096x1_S16x1024x4096x3_d3 : Shape.Concatenates [S16x1024x4096x1, S16x1024x4096x1, S16x1024x4096x1] S16x1024x4096x3 3
  slices_S16x1024x33_S16x1024x32_0_0_0 : S16x1024x33.Slices ![0, 0, 0] S16x1024x32
  bcast_S32_S1x1x32_2 : S32.BroadcastsInDim S1x1x32 (![2] : Fin 1 → Fin S1x1x32.rank)
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S1x1x32_S16x1024x32_0_1_2 : S1x1x32.BroadcastsInDim S16x1024x32 (![0, 1, 2] : Fin 3 → Fin S16x1024x32.rank)
  bcast_S16x1024x1_S16x1024x32_0_1_2 : S16x1024x1.BroadcastsInDim S16x1024x32 (![0, 1, 2] : Fin 3 → Fin S16x1024x32.rank)
  slices_S16x1024x32_S16x1024x1_0_0_0 : S16x1024x32.Slices ![0, 0, 0] S16x1024x1
  shapeCasts_S16x1024x32_S16x32768 : S16x1024x32.ShapeCasts S16x32768
  transposes_S16x4096x3_S16x3x4096_0_2_1 : S16x4096x3.Transposes [0, 2, 1] S16x3x4096
  transposes_S16x1024x3_S16x3x1024_0_2_1 : S16x1024x3.Transposes [0, 2, 1] S16x3x1024
  concatenates_S16x3x4096_S16x64x4096_S16x67x4096_d1 : Shape.Concatenates [S16x3x4096, S16x64x4096] S16x67x4096 1
  bitsLt_bf16_f32 : FTy.bits .bf16 < FTy.bits .f32
  bcast_S_S16x5x1024 : S_.BroadcastsInDim S16x5x1024 (![] : Fin 0 → Fin S16x5x1024.rank)
  concatenates_S16x3x1024_S16x5x1024_S16x8x1024_d1 : Shape.Concatenates [S16x3x1024, S16x5x1024] S16x8x1024 1
  bcast_S16x8x1024_S16x8x1024x32_0_1_2 : S16x8x1024.BroadcastsInDim S16x8x1024x32 (![0, 1, 2] : Fin 3 → Fin S16x8x1024x32.rank)
  shapeCasts_S16x8x1024x32_S16x8x32768 : S16x8x1024x32.ShapeCasts S16x8x32768
  inb_S1x67x4096_S1x67x4096_0_0_0 : ∀ a, (![0, 0, 0] : Fin 3 → Nat) a + S1x67x4096.size a ≤ S1x67x4096.size a
  h_S1x67x4096 : 0 < S1x67x4096.numel
  shapeCasts_S1x67x4096_S67x4096 : S1x67x4096.ShapeCasts S67x4096
  iota_S4096x256_d0_w32 : S4096x256.Iotas .tc 32 [0]
  h_S1x256 : 0 < S1x256.numel
  shapeCasts_S1x256_S256 : S1x256.ShapeCasts S256
  shapeCasts_S256_S1x256 : S256.ShapeCasts S1x256
  broadcasts_S1x256_S4096x256 : S1x256.Broadcasts S4096x256
  h_S1x8x256 : 0 < S1x8x256.numel
  shapeCasts_S1x8x256_S8x256 : S1x8x256.ShapeCasts S8x256
  slices_S67x256_o0_0_S8x256 : S67x256.Slices ![0, 0] S8x256
  shapeCasts_S8x256_S1x8x256 : S8x256.ShapeCasts S1x8x256
  slices_S67x256_o8_0_S59x256 : S67x256.Slices ![8, 0] S59x256
  h_S1x59x256 : 0 < S1x59x256.numel
  shapeCasts_S1x59x256_S59x256 : S1x59x256.ShapeCasts S59x256
  shapeCasts_S59x256_S1x59x256 : S59x256.ShapeCasts S1x59x256
  shapeCasts_S16x67x32768_S16x67x1024x32 : S16x67x32768.ShapeCasts S16x67x1024x32
  scatter_S16x1024x33_S16x1024x4096x3_S16x1024x4096_n_012_012_3_wf : ScatterDims.WF S16x1024x33 S16x1024x4096x3 S16x1024x4096 [] [0, 1, 2] [0, 1, 2] 3
  dot_S67x4096_S4096x256_S67x256_1_0_0_1_n_n_wf : DotDims.WF S67x4096 S4096x256 S67x256 [1] [0] [0] [1] [] []
  hrank0 : 0 < grid0.rank
  k0_t1_ok : k0_t1_loop.OK
  k0_mult1_dvd : ∀ k0_t1 : Fin k0_t1_loop.trips, 256 ∣ (k0_mult1 k0_t1).toNat
  k0_mult2_dvd : ∀ (i : grid0.Coords) (k0_t1 : Fin k0_t1_loop.trips), 256 ∣ (k0_mult2 i k0_t1).toNat
  k0_off1_inb : ∀ (i : grid0.Coords) (k0_t1 : Fin k0_t1_loop.trips), ∀ a, (k0_off1 i k0_t1) a + S1x256.size a ≤ S16x32768.size a
  k0_off2_inb : ∀ k0_t1 : Fin k0_t1_loop.trips, ∀ a, (k0_off2 k0_t1) a + S1x8x256.size a ≤ S1x8x4096.size a
  k0_off3_inb : ∀ k0_t1 : Fin k0_t1_loop.trips, ∀ a, (k0_off3 k0_t1) a + S1x8x256.size a ≤ S1x67x4096.size a
  k0_off4_inb : ∀ k0_t1 : Fin k0_t1_loop.trips, ∀ a, (k0_off4 k0_t1) a + S1x59x256.size a ≤ S1x67x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x32768.size a ≤ S16x32768.size a
  hwx0_0 : ∀ i : grid0.Coords, EltTy.bits .i32 = 32 ∨ (Rect.block (s := S16x32768) S16x32768.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x67x4096.size a ≤ S16x67x4096.size a
  hwx0_1 : ∀ i : grid0.Coords, EltTy.bits .bf16 = 32 ∨ (Rect.block (s := S16x67x4096) S1x67x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x67x4096.size a ≤ S16x67x4096.size a
  hwx0_2 : ∀ i : grid0.Coords, EltTy.bits .bf16 = 32 ∨ (Rect.block (s := S16x67x4096) S1x67x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x4096.size a ≤ S16x8x32768.size a
  hwx0_3 : ∀ i : grid0.Coords, EltTy.bits .f32 = 32 ∨ (Rect.block (s := S16x8x32768) S1x8x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x67x4096.size a ≤ S16x67x32768.size a
  hwx0_4 : ∀ i : grid0.Coords, EltTy.bits .f32 = 32 ∨ (Rect.block (s := S16x67x32768) S1x67x4096.size (cc0_transform_4 i) (hinb0_4 i)).WholeWords (EltTy.packing .f32)

variable [Facts₀]

def scatter_S16x1024x33_S16x1024x4096x3_S16x1024x4096_n_012_012_3 : ScatterDims S16x1024x33 S16x1024x4096x3 S16x1024x4096 where
  updateWindowDims := []
  insertedWindowDims := [0, 1, 2]
  scatterDimsToOperandDims := [0, 1, 2]
  indexVectorDim := 3
  wf := scatter_S16x1024x33_S16x1024x4096x3_S16x1024x4096_n_012_012_3_wf
def dot_S67x4096_S4096x256_S67x256_1_0_0_1_n_n : DotDims S67x4096 S4096x256 S67x256 where
  lhsContracting := [1]
  rhsContracting := [0]
  lhsNonContracting := [0]
  rhsNonContracting := [1]
  lhsBatch := []
  rhsBatch := []
  wf := dot_S67x4096_S4096x256_S67x256_1_0_0_1_n_n_wf

abbrev win0_0 : Pipeline.Window sig grid0 :=
  Pipeline.Window.ofSpec (Memref.whole main_v60) S16x32768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v64) S1x67x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v67) S1x67x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v71) S1x8x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v72) S1x67x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x3 : Shape := ⟨3, ![16, 4096, 3]⟩
abbrev S16x1024x3 : Shape := ⟨3, ![16, 1024, 3]⟩
abbrev S16x64x4096 : Shape := ⟨3, ![16, 64, 4096]⟩
abbrev S16x1024x1x3 : Shape := ⟨4, ![16, 1024, 1, 3]⟩
abbrev S16x1x4096x3 : Shape := ⟨4, ![16, 1, 4096, 3]⟩
abbrev S16x1024x4096x3 : Shape := ⟨4, ![16, 1024, 4096, 3]⟩
abbrev S_ : Shape := ⟨0, ![]⟩
abbrev S16x1024x4096 : Shape := ⟨3, ![16, 1024, 4096]⟩
abbrev S16x1024x1 : Shape := ⟨3, ![16, 1024, 1]⟩
abbrev S16x1024 : Shape := ⟨2, ![16, 1024]⟩
abbrev S16 : Shape := ⟨1, ![16]⟩
abbrev S16x1x1 : Shape := ⟨3, ![16, 1, 1]⟩
abbrev S1024 : Shape := ⟨1, ![1024]⟩
abbrev S1x1024x1 : Shape := ⟨3, ![1, 1024, 1]⟩
abbrev S4096 : Shape := ⟨1, ![4096]⟩
abbrev S1x1x4096 : Shape := ⟨3, ![1, 1, 4096]⟩
abbrev S16x1024x33 : Shape := ⟨3, ![16, 1024, 33]⟩
abbrev S16x1024x4096x1 : Shape := ⟨4, ![16, 1024, 4096, 1]⟩
abbrev S16x1024x32 : Shape := ⟨3, ![16, 1024, 32]⟩
abbrev S32 : Shape := ⟨1, ![32]⟩
abbrev S1x1x32 : Shape := ⟨3, ![1, 1, 32]⟩
abbrev S16x1024x32x1 : Shape := ⟨4, ![16, 1024, 32, 1]⟩
abbrev S16x1024x32x3 : Shape := ⟨4, ![16, 1024, 32, 3]⟩
abbrev S16x3x1024x32 : Shape := ⟨4, ![16, 3, 1024, 32]⟩
abbrev S16x3x1024 : Shape := ⟨3, ![16, 3, 1024]⟩
abbrev S16x3x1024x1 : Shape := ⟨4, ![16, 3, 1024, 1]⟩
abbrev S16x64x1024x32 : Shape := ⟨4, ![16, 64, 1024, 32]⟩
abbrev S16x67x1024x32 : Shape := ⟨4, ![16, 67, 1024, 32]⟩

abbrev nBuf : Space → Nat
  | .hbm => 105
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x1024x3, .f32⟩
  | .hbm, ⟨2, _⟩ => ⟨S16x64x4096, .f32⟩
  | .hbm, ⟨3, _⟩ => ⟨S16x1024x1x3, .f32⟩
  | .hbm, ⟨4, _⟩ => ⟨S16x1x4096x3, .f32⟩
  | .hbm, ⟨5, _⟩ => ⟨S16x1024x4096x3, .f32⟩
  | .hbm, ⟨6, _⟩ => ⟨S16x1024x4096x3, .f32⟩
  | .hbm, ⟨7, _⟩ => ⟨S16x1024x4096x3, .f32⟩
  | .hbm, ⟨8, _⟩ => ⟨S16x1024x4096x3, .f32⟩
  | .hbm, ⟨9, _⟩ => ⟨S_, .f32⟩
  | .hbm, ⟨10, _⟩ => ⟨S16x1024x4096, .f32⟩
  | .hbm, ⟨11, _⟩ => ⟨S_, .f32⟩
  | .hbm, ⟨12, _⟩ => ⟨S16x1024x4096, .f32⟩
  | .hbm, ⟨13, _⟩ => ⟨S16x1024x4096, .i1⟩
  | .hbm, ⟨14, _⟩ => ⟨S16x1024x4096, .i32⟩
  | .hbm, ⟨15, _⟩ => ⟨S_, .i32⟩
  | .hbm, ⟨16, _⟩ => ⟨S_, .i32⟩
  | .hbm, ⟨17, _⟩ => ⟨S16x1024x4096, .i32⟩
  | .hbm, ⟨18, _⟩ => ⟨S16x1024x1, .i32⟩
  | .hbm, ⟨19, _⟩ => ⟨S16x1024, .i32⟩
  | .hbm, ⟨20, _⟩ => ⟨S_, .i32⟩
  | .hbm, ⟨21, _⟩ => ⟨S16x1024x4096, .i32⟩
  | .hbm, ⟨22, _⟩ => ⟨S16x1024x4096, .i1⟩
  | .hbm, ⟨23, _⟩ => ⟨S16x1024x4096, .i1⟩
  | .hbm, ⟨24, _⟩ => ⟨S_, .i32⟩
  | .hbm, ⟨25, _⟩ => ⟨S16x1024x4096, .i32⟩
  | .hbm, ⟨26, _⟩ => ⟨S16x1024x4096, .i32⟩
  | .hbm, ⟨27, _⟩ => ⟨S_, .i32⟩
  | .hbm, ⟨28, _⟩ => ⟨S_, .i32⟩
  | .hbm, ⟨29, _⟩ => ⟨S16x1024x4096, .i32⟩
  | .hbm, ⟨30, _⟩ => ⟨S16x1024x4096, .i32⟩
  | .hbm, ⟨31, _⟩ => ⟨S16, .i32⟩
  | .hbm, ⟨32, _⟩ => ⟨S16x1x1, .i32⟩
  | .hbm, ⟨33, _⟩ => ⟨S1024, .i32⟩
  | .hbm, ⟨34, _⟩ => ⟨S1x1024x1, .i32⟩
  | .hbm, ⟨35, _⟩ => ⟨S4096, .i32⟩
  | .hbm, ⟨36, _⟩ => ⟨S1x1x4096, .i32⟩
  | .hbm, ⟨37, _⟩ => ⟨S16x1024x4096, .i32⟩
  | .hbm, ⟨38, _⟩ => ⟨S_, .i32⟩
  | .hbm, ⟨39, _⟩ => ⟨S16x1024x33, .i32⟩
  | .hbm, ⟨40, _⟩ => ⟨S_, .i32⟩
  | .hbm, ⟨41, _⟩ => ⟨S16x1x1, .i32⟩
  | .hbm, ⟨42, _⟩ => ⟨S16x1x1, .i1⟩
  | .hbm, ⟨43, _⟩ => ⟨S_, .i32⟩
  | .hbm, ⟨44, _⟩ => ⟨S16x1x1, .i32⟩
  | .hbm, ⟨45, _⟩ => ⟨S16x1x1, .i32⟩
  | .hbm, ⟨46, _⟩ => ⟨S16x1x1, .i32⟩
  | .hbm, ⟨47, _⟩ => ⟨S_, .i32⟩
  | .hbm, ⟨48, _⟩ => ⟨S1x1024x1, .i32⟩
  | .hbm, ⟨49, _⟩ => ⟨S1x1024x1, .i1⟩
  | .hbm, ⟨50, _⟩ => ⟨S_, .i32⟩
  | .hbm, ⟨51, _⟩ => ⟨S1x1024x1, .i32⟩
  | .hbm, ⟨52, _⟩ => ⟨S1x1024x1, .i32⟩
  | .hbm, ⟨53, _⟩ => ⟨S1x1024x1, .i32⟩
  | .hbm, ⟨54, _⟩ => ⟨S_, .i32⟩
  | .hbm, ⟨55, _⟩ => ⟨S16x1024x4096, .i32⟩
  | .hbm, ⟨56, _⟩ => ⟨S16x1024x4096, .i1⟩
  | .hbm, ⟨57, _⟩ => ⟨S_, .i32⟩
  | .hbm, ⟨58, _⟩ => ⟨S16x1024x4096, .i32⟩
  | .hbm, ⟨59, _⟩ => ⟨S16x1024x4096, .i32⟩
  | .hbm, ⟨60, _⟩ => ⟨S16x1024x4096, .i32⟩
  | .hbm, ⟨61, _⟩ => ⟨S16x1024x4096, .i32⟩
  | .hbm, ⟨62, _⟩ => ⟨S16x1024x4096, .i32⟩
  | .hbm, ⟨63, _⟩ => ⟨S16x1024x4096x1, .i32⟩
  | .hbm, ⟨64, _⟩ => ⟨S16x1024x4096x1, .i32⟩
  | .hbm, ⟨65, _⟩ => ⟨S16x1024x4096x1, .i32⟩
  | .hbm, ⟨66, _⟩ => ⟨S16x1024x4096x3, .i32⟩
  | .hbm, ⟨67, _⟩ => ⟨S16x1024x33, .i32⟩
  | .hbm, ⟨68, _⟩ => ⟨S16x1024x32, .i32⟩
  | .hbm, ⟨69, _⟩ => ⟨S32, .i32⟩
  | .hbm, ⟨70, _⟩ => ⟨S1x1x32, .i32⟩
  | .hbm, ⟨71, _⟩ => ⟨S_, .i32⟩
  | .hbm, ⟨72, _⟩ => ⟨S16x1024, .i32⟩
  | .hbm, ⟨73, _⟩ => ⟨S16x1024, .i32⟩
  | .hbm, ⟨74, _⟩ => ⟨S16x1024x1, .i32⟩
  | .hbm, ⟨75, _⟩ => ⟨S16x1024x32, .i32⟩
  | .hbm, ⟨76, _⟩ => ⟨S16x1024x32, .i32⟩
  | .hbm, ⟨77, _⟩ => ⟨S16x1024x32, .i1⟩
  | .hbm, ⟨78, _⟩ => ⟨S16x1024x1, .i32⟩
  | .hbm, ⟨79, _⟩ => ⟨S16x1024x32, .i32⟩
  | .hbm, ⟨80, _⟩ => ⟨S16x1024x32, .i32⟩
  | .hbm, ⟨81, _⟩ => ⟨S_, .i32⟩
  | .hbm, ⟨82, _⟩ => ⟨S16x1024x32, .i32⟩
  | .hbm, ⟨83, _⟩ => ⟨S16x1024x32, .i1⟩
  | .hbm, ⟨84, _⟩ => ⟨S_, .i32⟩
  | .hbm, ⟨85, _⟩ => ⟨S16x1024x32, .i32⟩
  | .hbm, ⟨86, _⟩ => ⟨S16x1024x32, .i32⟩
  | .hbm, ⟨87, _⟩ => ⟨S16x1024x32, .i32⟩
  | .hbm, ⟨88, _⟩ => ⟨S16x1024x32x1, .i32⟩
  | .hbm, ⟨89, _⟩ => ⟨S16x1024x32x3, .f32⟩
  | .hbm, ⟨90, _⟩ => ⟨S16x3x1024x32, .f32⟩
  | .hbm, ⟨91, _⟩ => ⟨S16x3x1024, .f32⟩
  | .hbm, ⟨92, _⟩ => ⟨S16x3x1024x1, .f32⟩
  | .hbm, ⟨93, _⟩ => ⟨S16x3x1024x32, .f32⟩
  | .hbm, ⟨94, _⟩ => ⟨S16x3x1024x32, .f32⟩
  | .hbm, ⟨95, _⟩ => ⟨S_, .i32⟩
  | .hbm, ⟨96, _⟩ => ⟨S16x1024x32, .i32⟩
  | .hbm, ⟨97, _⟩ => ⟨S16x1024x32, .i1⟩
  | .hbm, ⟨98, _⟩ => ⟨S_, .i32⟩
  | .hbm, ⟨99, _⟩ => ⟨S16x1024x32, .i32⟩
  | .hbm, ⟨100, _⟩ => ⟨S16x1024x32, .i32⟩
  | .hbm, ⟨101, _⟩ => ⟨S16x1024x32, .i32⟩
  | .hbm, ⟨102, _⟩ => ⟨S16x1024x32x1, .i32⟩
  | .hbm, ⟨103, _⟩ => ⟨S16x64x1024x32, .f32⟩
  | .hbm, ⟨104, _⟩ => ⟨S16x67x1024x32, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_call0_c : Ref sig .tc := ⟨.hbm, 15, rfl⟩
abbrev main_call0_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_call2_v0 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_13 : Ref sig .tc := ⟨.hbm, 95, rfl⟩
abbrev main_v72 : Ref sig .tc := ⟨.hbm, 96, rfl⟩
abbrev main_v73 : Ref sig .tc := ⟨.hbm, 97, rfl⟩
abbrev main_c_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]

class Facts₀ : Prop where
  bcast_S16x1024x3_S16x1024x1x3_0_1_3 : S16x1024x3.BroadcastsInDim S16x1024x1x3 (![0, 1, 3] : Fin 3 → Fin S16x1024x1x3.rank)
  bcast_S16x4096x3_S16x1x4096x3_0_2_3 : S16x4096x3.BroadcastsInDim S16x1x4096x3 (![0, 2, 3] : Fin 3 → Fin S16x1x4096x3.rank)
  bcast_S16x1024x1x3_S16x1024x4096x3_0_1_2_3 : S16x1024x1x3.BroadcastsInDim S16x1024x4096x3 (![0, 1, 2, 3] : Fin 4 → Fin S16x1024x4096x3.rank)
  bcast_S16x1x4096x3_S16x1024x4096x3_0_1_2_3 : S16x1x4096x3.BroadcastsInDim S16x1024x4096x3 (![0, 1, 2, 3] : Fin 4 → Fin S16x1024x4096x3.rank)
  reducesTo_S16x1024x4096x3_S16x1024x4096_d3 : S16x1024x4096x3.ReducesTo [3] S16x1024x4096
  h_S_ : 0 < S_.numel
  bcast_S_S16x1024x4096 : S_.BroadcastsInDim S16x1024x4096 (![] : Fin 0 → Fin S16x1024x4096.rank)
  natLt_1_32 : 1 < 32
  bcast_S_S_ : S_.BroadcastsInDim S_ (![] : Fin 0 → Fin S_.rank)
  reduceWindows_S16x1024x4096_S16x1024x4096_w1s1p0_0_w1s1p0_0_w4096s1p4095_0 : S16x1024x4096.ReduceWindows (![1, 1, 4096] : Fin 3 → Nat) ![1, 1, 1] ![0, 0, 4095] ![0, 0, 0] S16x1024x4096
  slices_S16x1024x4096_S16x1024x1_0_0_4095 : S16x1024x4096.Slices ![0, 0, 4095] S16x1024x1
  shapeCasts_S16x1024x1_S16x1024 : S16x1024x1.ShapeCasts S16x1024
  bcast_S16_S16x1x1_0 : S16.BroadcastsInDim S16x1x1 (![0] : Fin 1 → Fin S16x1x1.rank)
  bcast_S1024_S1x1024x1_1 : S1024.BroadcastsInDim S1x1024x1 (![1] : Fin 1 → Fin S1x1024x1.rank)
  bcast_S4096_S1x1x4096_2 : S4096.BroadcastsInDim S1x1x4096 (![2] : Fin 1 → Fin S1x1x4096.rank)
  bcast_S1x1x4096_S16x1024x4096_0_1_2 : S1x1x4096.BroadcastsInDim S16x1024x4096 (![0, 1, 2] : Fin 3 → Fin S16x1024x4096.rank)
  bcast_S_S16x1024x33 : S_.BroadcastsInDim S16x1024x33 (![] : Fin 0 → Fin S16x1024x33.rank)
  bcast_S_S16x1x1 : S_.BroadcastsInDim S16x1x1 (![] : Fin 0 → Fin S16x1x1.rank)
  bcast_S_S1x1024x1 : S_.BroadcastsInDim S1x1024x1 (![] : Fin 0 → Fin S1x1024x1.rank)
  bcast_S16x1x1_S16x1024x4096_0_1_2 : S16x1x1.BroadcastsInDim S16x1024x4096 (![0, 1, 2] : Fin 3 → Fin S16x1024x4096.rank)
  bcast_S1x1024x1_S16x1024x4096_0_1_2 : S1x1024x1.BroadcastsInDim S16x1024x4096 (![0, 1, 2] : Fin 3 → Fin S16x1024x4096.rank)
  bcast_S16x1024x4096_S16x1024x4096x1_0_1_2 : S16x1024x4096.BroadcastsInDim S16x1024x4096x1 (![0, 1, 2] : Fin 3 → Fin S16x1024x4096x1.rank)
  concatenates_S16x1024x4096x1_S16x1024x4096x1_S16x1024x4096x1_S16x1024x4096x3_d3 : Shape.Concatenates [S16x1024x4096x1, S16x1024x4096x1, S16x1024x4096x1] S16x1024x4096x3 3
  slices_S16x1024x33_S16x1024x32_0_0_0 : S16x1024x33.Slices ![0, 0, 0] S16x1024x32
  bcast_S32_S1x1x32_2 : S32.BroadcastsInDim S1x1x32 (![2] : Fin 1 → Fin S1x1x32.rank)
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S1x1x32_S16x1024x32_0_1_2 : S1x1x32.BroadcastsInDim S16x1024x32 (![0, 1, 2] : Fin 3 → Fin S16x1024x32.rank)
  bcast_S16x1024x1_S16x1024x32_0_1_2 : S16x1024x1.BroadcastsInDim S16x1024x32 (![0, 1, 2] : Fin 3 → Fin S16x1024x32.rank)
  slices_S16x1024x32_S16x1024x1_0_0_0 : S16x1024x32.Slices ![0, 0, 0] S16x1024x1
  bcast_S_S16x1024x32 : S_.BroadcastsInDim S16x1024x32 (![] : Fin 0 → Fin S16x1024x32.rank)
  bcast_S16x1024x32_S16x1024x32x1_0_1_2 : S16x1024x32.BroadcastsInDim S16x1024x32x1 (![0, 1, 2] : Fin 3 → Fin S16x1024x32x1.rank)
  transposes_S16x1024x32x3_S16x3x1024x32_0_3_1_2 : S16x1024x32x3.Transposes [0, 3, 1, 2] S16x3x1024x32
  transposes_S16x1024x3_S16x3x1024_0_2_1 : S16x1024x3.Transposes [0, 2, 1] S16x3x1024
  bcast_S16x3x1024_S16x3x1024x1_0_1_2 : S16x3x1024.BroadcastsInDim S16x3x1024x1 (![0, 1, 2] : Fin 3 → Fin S16x3x1024x1.rank)
  bcast_S16x3x1024x1_S16x3x1024x32_0_1_2_3 : S16x3x1024x1.BroadcastsInDim S16x3x1024x32 (![0, 1, 2, 3] : Fin 4 → Fin S16x3x1024x32.rank)
  concatenates_S16x3x1024x32_S16x64x1024x32_S16x67x1024x32_d1 : Shape.Concatenates [S16x3x1024x32, S16x64x1024x32] S16x67x1024x32 1
  scatter_S16x1024x33_S16x1024x4096x3_S16x1024x4096_n_012_012_3_wf : ScatterDims.WF S16x1024x33 S16x1024x4096x3 S16x1024x4096 [] [0, 1, 2] [0, 1, 2] 3
  gather_S16x4096x3_S16x1024x32x1_S16x1024x32x3_3_1_0_0_1_3_113_wf : GatherDims.WF S16x4096x3 S16x1024x32x1 S16x1024x32x3 [3] [1] [0] [1] [0] 3 ![1, 1, 3]
  gather_S16x64x4096_S16x1024x32x1_S16x64x1024x32_1_2_0_0_2_3_1641_wf : GatherDims.WF S16x64x4096 S16x1024x32x1 S16x64x1024x32 [1] [2] [0] [2] [0] 3 ![1, 64, 1]

variable [Facts₀]

def scatter_S16x1024x33_S16x1024x4096x3_S16x1024x4096_n_012_012_3 : ScatterDims S16x1024x33 S16x1024x4096x3 S16x1024x4096 where
  updateWindowDims := []
  insertedWindowDims := [0, 1, 2]
  scatterDimsToOperandDims := [0, 1, 2]
  indexVectorDim := 3
  wf := scatter_S16x1024x33_S16x1024x4096x3_S16x1024x4096_n_012_012_3_wf
def gather_S16x4096x3_S16x1024x32x1_S16x1024x32x3_3_1_0_0_1_3_113 : GatherDims S16x4096x3 S16x1024x32x1 S16x1024x32x3 where
  offsetDims := [3]
  collapsedSliceDims := [1]
  operandBatchingDims := [0]
  startIndicesBatchingDims := [0]
  startIndexMap := [1]
  indexVectorDim := 3
  sliceSizes := ![1, 1, 3]
  wf := gather_S16x4096x3_S16x1024x32x1_S16x1024x32x3_3_1_0_0_1_3_113_wf
def gather_S16x64x4096_S16x1024x32x1_S16x64x1024x32_1_2_0_0_2_3_1641 : GatherDims S16x64x4096 S16x1024x32x1 S16x64x1024x32 where
  offsetDims := [1]
  collapsedSliceDims := [2]
  operandBatchingDims := [0]
  startIndicesBatchingDims := [0]
  startIndexMap := [2]
  indexVectorDim := 3
  sliceSizes := ![1, 64, 1]
  wf := gather_S16x64x4096_S16x1024x32x1_S16x64x1024x32_1_2_0_0_2_3_1641_wf

class Facts : Prop extends Facts₀ where

variable [Facts]
-- ==== Proof.KFrameKit.lean ====
/- The frame of the kernel program, first part: the buffer contents on a core when the one region is entered
   (the launch memory after the host operations before it), @main as those operations, the region, and the one
   operation after it; that no host operation writes an argument array; each window's block at a grid point;
   that an input window's staging buffer holds its block at every point; and the frame claim's post from a
   run of the pipeline's proof data. -/
import proofs.«141127_j52785148067965_2_alg».proof.Proof.Gen.Kernel.Launch
import proofs.«141127_j52785148067965_2_alg».proof.Proof.Gen.Kernel.Skeleton
import proofs.«141127_j52785148067965_2_alg».proof.Proof.Gen.Kernel.Loops
import proofs.«141127_j52785148067965_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: the launch memory after the
    seven stretches of host operations before the region. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host operations before it, the region, the host operation after it; it reduces to
    the region continued by the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operation after the region touches the pipeline's arrays and the bypassing buffers only: its buffers are
    unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline (it writes only its own result buffer, which is no window's array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents (`hA`) and whose body leaves the block in place (`hafter`): where the
    window is not fetched its block index has not moved, so the block of the point before is this point's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents (`hA`) and whose body leaves the block in place (`hafter`): where the
    window is not fetched its block index has not moved, so the block of the point before is this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents (`hA`) and whose body leaves the block in place (`hafter`): where the
    window is not fetched its block index has not moved, so the block of the point before is this point's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents (`hA`) and whose body leaves the block in place (`hafter`): where the
    window is not fetched its block index has not moved, so the block of the point before is this point's. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data, a run to the pipeline's frame post, read at the three argument
    arrays — none is a window's array, so each ends at what the operation after the region leaves of the region-entry
    contents, which is the launch contents — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c)⟩) h

/-! ## The kernel body on any staging memrefs -/

/-- One staging buffer of output window 4, through which its contents are stated (the choice does not matter:
    a covering list of writes reads the same through any view of the shape). -/
abbrev VO0_4 : View sig .tc .vmem S1x67x4096 .f32 := (Memref.whole cc0_stg4_0 : Memref sig .tc .vmem S1x67x4096 .f32).view
/-- Each window's current staging memref at point `t`, as the pipeline passes it to the body, and its wholeness. -/
abbrev ms0_0 (t : Fin cfg0.N) : Memref sig .tc .vmem S16x32768 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x67x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x67x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x67x4096 .f32 := win0_4.stage (cfg0.slots t 4)
abbrev hs0_4 (t : Fin cfg0.N) : (ms0_4 t).IsWhole := hstage0_4 ((cfg0.slots t 4).cast nbuf0_4)

end Cert.Kernel.Hand

end
-- ==== Proof.KFrameRun.lean ====
/- The frame of the kernel program, second part: the kernel body run once on whole staging memrefs. The two whole
   loads and the sixteen trips of the counted loop leave the four input buffers as they were and the output buffer
   at the pieces the trips stored, written over whatever it held. -/
import proofs.«141127_j52785148067965_2_alg».proof.Proof.KFrameKit

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: closing the definition walks it past the default budget)
set_option maxHeartbeats 1000000 in
/-- What the body's stores leave in the output window's staging memref, as pieces (last first), with the proof
    that on whole staging memrefs — the inputs' at their contents `x0 … x3`, the output's at anything — the body
    runs to the continuation holding the inputs' as they were and the output's buffer with the pieces written over
    what it held: the pieces are the counted loop's, all sixteen trips of it. -/
noncomputable def kernelRun0_A (c : Dev nD) (i : grid0.Coords) (arg2 : Memref sig .tc .vmem S16x32768 .i32) (harg2 : arg2.IsWhole) (arg3 : Memref sig .tc .vmem S1x67x4096 .bf16) (harg3 : arg3.IsWhole) (arg4 : Memref sig .tc .vmem S1x67x4096 .bf16) (harg4 : arg4.IsWhole) (arg5 : Memref sig .tc .vmem S1x8x4096 .f32) (harg5 : arg5.IsWhole) (arg6 : Memref sig .tc .vmem S1x67x4096 .f32) (harg6 : arg6.IsWhole)
    (x0 : Vec F S16x32768 .i32) (x1 : Vec F S1x67x4096 .bf16) (x2 : Vec F S1x67x4096 .bf16) (x3 : Vec F S1x8x4096 .f32) :
    { L4 : List (View.Piece (Elt F) S1x67x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__gather_kernel i arg2 harg2 arg3 harg3 arg4 harg4 arg5 harg5 arg6 harg6) K } := by
  refine ⟨?_, fun E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.KFrame.lean ====
/- The frame of the kernel program, last part: the pieces the body's run leaves in the output window's staging
   buffer cover it; what that buffer holds after the body at each grid point; the pipeline's proof data (every input
   window's buffer at its block, the output's at the run's pieces read back); the body obligation at a generic
   point; the run of @main around the region; and the frame claim: the three argument arrays end as launched. -/
import proofs.«141127_j52785148067965_2_alg».proof.Proof.KFrameRun

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output window 4 are of two sizes (per trip of the loop one store of eight rows and one of
    fifty-nine rows, each 256 columns wide, at the trip's columns): cut into blocks of one row by 256 columns they tile
    its block of 67 rows by 4096 columns, so they cover it. -/
theorem cover0_A_4 (c : Dev nD) (i : grid0.Coords) (arg2 : Memref sig .tc .vmem S16x32768 .i32) (harg2 : arg2.IsWhole) (arg3 : Memref sig .tc .vmem S1x67x4096 .bf16) (harg3 : arg3.IsWhole) (arg4 : Memref sig .tc .vmem S1x67x4096 .bf16) (harg4 : arg4.IsWhole) (arg5 : Memref sig .tc .vmem S1x8x4096 .f32) (harg5 : arg5.IsWhole) (arg6 : Memref sig .tc .vmem S1x67x4096 .f32) (harg6 : arg6.IsWhole)
    (x0 : Vec F S16x32768 .i32) (x1 : Vec F S1x67x4096 .bf16) (x2 : Vec F S1x67x4096 .bf16) (x3 : Vec F S1x8x4096 .f32) (y : S1x67x4096.Idx) :
    ∃ pc ∈ (kernelRun0_A c i arg2 harg2 arg3 harg3 arg4 harg4 arg5 harg5 arg6 harg6 x0 x1 x2 x3).1, y ∈ pc.1.set :=
  View.cover_of_tiledBy (kernelRun0_A c i arg2 harg2 arg3 harg3 arg4 harg4 arg5 harg5 arg6 harg6 x0 x1 x2 x3).1 ![1, 1, 256] (by sl_kernel_rfl) y

/-- What the run leaves in output window 4's staging buffer: its pieces read back over junk. -/
def out0_A_4 (c : Dev nD) (i : grid0.Coords) (arg2 : Memref sig .tc .vmem S16x32768 .i32) (harg2 : arg2.IsWhole) (arg3 : Memref sig .tc .vmem S1x67x4096 .bf16) (harg3 : arg3.IsWhole) (arg4 : Memref sig .tc .vmem S1x67x4096 .bf16) (harg4 : arg4.IsWhole) (arg5 : Memref sig .tc .vmem S1x8x4096 .f32) (harg5 : arg5.IsWhole) (arg6 : Memref sig .tc .vmem S1x67x4096 .f32) (harg6 : arg6.IsWhole)
    (x0 : Vec F S16x32768 .i32) (x1 : Vec F S1x67x4096 .bf16) (x2 : Vec F S1x67x4096 .bf16) (x3 : Vec F S1x8x4096 .f32) : Vec F S1x67x4096 .f32 :=
  VO0_4.read (Elt F) (VO0_4.writes (Elt F) VO0_4.junk (kernelRun0_A c i arg2 harg2 arg3 harg3 arg4 harg4 arg5 harg5 arg6 harg6 x0 x1 x2 x3).1)

/-! ## What the output holds after each point -/

/-- What the output's staging buffer holds after the body at point `t`: the run's contents at the point's memrefs
    and input blocks. -/
def outsAt0 (c : Dev nD) (t : Fin cfg0.N) : Vec F S1x67x4096 .f32 :=
  out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t)

/-! ## The pipeline's proof data -/

/-- The proof data of the one pipeline on core `c`: the arrays as the region finds them (`V`); after the body at
    point `t` each input's buffer at its block and the output's at `outsAt0`; the invariant is the scoped rest
    and the random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents: the definition projected, so that `V` — a fold over the
    long host prefix — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks, so the run applies; the invariant passes through
    unread; the core owes nothing throughout; the output's buffer reads what its covering pieces read over junk. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outsAt0
  unfold out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the implicit arguments of the run theorem are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what its proof data give and
    every other unscoped buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- The frame: every weakly fair execution of @main terminates without a fault, and the three argument arrays end as
    launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KIFrameKit.lean ====
/- The frame of the kernel program, first part: the buffer contents on a core when the one region is entered
   (the launch memory after the host operations before it), @main as those operations, the region, and the one
   operation after it; that no host operation writes an argument array; each window's block at a grid point;
   that an input window's staging buffer holds its block at every point; and the frame claim's post from a
   run of the pipeline's proof data. -/
import proofs.«141127_j52785148067965_2_alg».proof.Proof.Gen.KernelIdeal.Launch
import proofs.«141127_j52785148067965_2_alg».proof.Proof.Gen.KernelIdeal.Skeleton
import proofs.«141127_j52785148067965_2_alg».proof.Proof.Gen.KernelIdeal.Loops
import proofs.«141127_j52785148067965_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: the launch memory after the
    seven stretches of host operations before the region. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host operations before it, the region, the host operation after it; it reduces to
    the region continued by the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operation after the region touches the pipeline's arrays and the bypassing buffers only: its buffers are
    unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline (it writes only its own result buffer, which is no window's array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents (`hA`) and whose body leaves the block in place (`hafter`): where the
    window is not fetched its block index has not moved, so the block of the point before is this point's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents (`hA`) and whose body leaves the block in place (`hafter`): where the
    window is not fetched its block index has not moved, so the block of the point before is this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents (`hA`) and whose body leaves the block in place (`hafter`): where the
    window is not fetched its block index has not moved, so the block of the point before is this point's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents (`hA`) and whose body leaves the block in place (`hafter`): where the
    window is not fetched its block index has not moved, so the block of the point before is this point's. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data, a run to the pipeline's frame post, read at the three argument
    arrays — none is a window's array, so each ends at what the operation after the region leaves of the region-entry
    contents, which is the launch contents — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c)⟩) h

/-! ## The kernel body on any staging memrefs -/

/-- One staging buffer of output window 4, through which its contents are stated (the choice does not matter:
    a covering list of writes reads the same through any view of the shape). -/
abbrev VO0_4 : View sig .tc .vmem S1x67x4096 .f32 := (Memref.whole cc0_stg4_0 : Memref sig .tc .vmem S1x67x4096 .f32).view
/-- Each window's current staging memref at point `t`, as the pipeline passes it to the body, and its wholeness. -/
abbrev ms0_0 (t : Fin cfg0.N) : Memref sig .tc .vmem S16x32768 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x67x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x67x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x67x4096 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KIFrameRun.lean ====
/- The frame of the kernel program, second part: the kernel body run once on whole staging memrefs. The two whole
   loads and the sixteen trips of the counted loop leave the four input buffers as they were and the output buffer
   at the pieces the trips stored, written over whatever it held. -/
import proofs.«141127_j52785148067965_2_alg».proof.Proof.KIFrameKit

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: closing the definition walks it past the default budget)
set_option maxHeartbeats 1000000 in
/-- What the body's stores leave in the output window's staging memref, as pieces (last first), with the proof
    that on whole staging memrefs — the inputs' at their contents `x0 … x3`, the output's at anything — the body
    runs to the continuation holding the inputs' as they were and the output's buffer with the pieces written over
    what it held: the pieces are the counted loop's, all sixteen trips of it. -/
noncomputable def kernelRun0_A (c : Dev nD) (i : grid0.Coords) (arg2 : Memref sig .tc .vmem S16x32768 .i32) (harg2 : arg2.IsWhole) (arg3 : Memref sig .tc .vmem S1x67x4096 .bf16) (harg3 : arg3.IsWhole) (arg4 : Memref sig .tc .vmem S1x67x4096 .bf16) (harg4 : arg4.IsWhole) (arg5 : Memref sig .tc .vmem S1x8x4096 .f32) (harg5 : arg5.IsWhole) (arg6 : Memref sig .tc .vmem S1x67x4096 .f32) (harg6 : arg6.IsWhole)
    (x0 : Vec F S16x32768 .i32) (x1 : Vec F S1x67x4096 .bf16) (x2 : Vec F S1x67x4096 .bf16) (x3 : Vec F S1x8x4096 .f32) :
    { L4 : List (View.Piece (Elt F) S1x67x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__gather_kernel i arg2 harg2 arg3 harg3 arg4 harg4 arg5 harg5 arg6 harg6) K } := by
  refine ⟨?_, fun E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KIFrame.lean ====
/- The frame of the kernel program, last part: the pieces the body's run leaves in the output window's staging
   buffer cover it; what that buffer holds after the body at each grid point; the pipeline's proof data (every input
   window's buffer at its block, the output's at the run's pieces read back); the body obligation at a generic
   point; the run of @main around the region; and the frame claim: the three argument arrays end as launched. -/
import proofs.«141127_j52785148067965_2_alg».proof.Proof.KIFrameRun

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output window 4 are of two sizes (per trip of the loop one store of eight rows and one of
    fifty-nine rows, each 256 columns wide, at the trip's columns): cut into blocks of one row by 256 columns they tile
    its block of 67 rows by 4096 columns, so they cover it. -/
theorem cover0_A_4 (c : Dev nD) (i : grid0.Coords) (arg2 : Memref sig .tc .vmem S16x32768 .i32) (harg2 : arg2.IsWhole) (arg3 : Memref sig .tc .vmem S1x67x4096 .bf16) (harg3 : arg3.IsWhole) (arg4 : Memref sig .tc .vmem S1x67x4096 .bf16) (harg4 : arg4.IsWhole) (arg5 : Memref sig .tc .vmem S1x8x4096 .f32) (harg5 : arg5.IsWhole) (arg6 : Memref sig .tc .vmem S1x67x4096 .f32) (harg6 : arg6.IsWhole)
    (x0 : Vec F S16x32768 .i32) (x1 : Vec F S1x67x4096 .bf16) (x2 : Vec F S1x67x4096 .bf16) (x3 : Vec F S1x8x4096 .f32) (y : S1x67x4096.Idx) :
    ∃ pc ∈ (kernelRun0_A c i arg2 harg2 arg3 harg3 arg4 harg4 arg5 harg5 arg6 harg6 x0 x1 x2 x3).1, y ∈ pc.1.set :=
  View.cover_of_tiledBy (kernelRun0_A c i arg2 harg2 arg3 harg3 arg4 harg4 arg5 harg5 arg6 harg6 x0 x1 x2 x3).1 ![1, 1, 256] (by sl_kernel_rfl) y

/-- What the run leaves in output window 4's staging buffer: its pieces read back over junk. -/
def out0_A_4 (c : Dev nD) (i : grid0.Coords) (arg2 : Memref sig .tc .vmem S16x32768 .i32) (harg2 : arg2.IsWhole) (arg3 : Memref sig .tc .vmem S1x67x4096 .bf16) (harg3 : arg3.IsWhole) (arg4 : Memref sig .tc .vmem S1x67x4096 .bf16) (harg4 : arg4.IsWhole) (arg5 : Memref sig .tc .vmem S1x8x4096 .f32) (harg5 : arg5.IsWhole) (arg6 : Memref sig .tc .vmem S1x67x4096 .f32) (harg6 : arg6.IsWhole)
    (x0 : Vec F S16x32768 .i32) (x1 : Vec F S1x67x4096 .bf16) (x2 : Vec F S1x67x4096 .bf16) (x3 : Vec F S1x8x4096 .f32) : Vec F S1x67x4096 .f32 :=
  VO0_4.read (Elt F) (VO0_4.writes (Elt F) VO0_4.junk (kernelRun0_A c i arg2 harg2 arg3 harg3 arg4 harg4 arg5 harg5 arg6 harg6 x0 x1 x2 x3).1)

/-! ## What the output holds after each point -/

/-- What the output's staging buffer holds after the body at point `t`: the run's contents at the point's memrefs
    and input blocks. -/
def outsAt0 (c : Dev nD) (t : Fin cfg0.N) : Vec F S1x67x4096 .f32 :=
  out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t)

/-! ## The pipeline's proof data -/

/-- The proof data of the one pipeline on core `c`: the arrays as the region finds them (`V`); after the body at
    point `t` each input's buffer at its block and the output's at `outsAt0`; the invariant is the scoped rest
    and the random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents: the definition projected, so that `V` — a fold over the
    long host prefix — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks, so the run applies; the invariant passes through
    unread; the core owes nothing throughout; the output's buffer reads what its covering pieces read over junk. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outsAt0
  unfold out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the implicit arguments of the run theorem are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what its proof data give and
    every other unscoped buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The frame: every weakly fair execution of @main terminates without a fault, and the three argument arrays end as
    launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.LibOneHotSelect.lean ====
/-
  Selecting a table row by a one-hot product, and by a gather, read at an index.

  A word `w` compared for equality with each lane number `k`, the one-bit answer widened and converted to a float,
  is the weight `1` at the lane `k = w` and `0` at every other lane. On the extended reals `0 * x = 0` for every `x`
  (infinite ones too) and `1 * x = x`, so the sum over the lanes of weight times entry is the entry at lane `w`,
  whenever `w` is one of the lanes. The same entry is what a gather of whole rows reads when the start index,
  read signed and clamped into the table, is `w`.

  Also here: a word clipped into `[0, hi]` by signed maximum and minimum is a small natural number, and the two
  layout steps that spread an `[a, b]` array of words along a new last axis.
-/
import Idealize.ShloMosaic.Lib.Pipeline.Value
import Idealize.ShloMosaic.Lib.ValueIdx
import Idealize.ShloMosaic.PureOps.Ideal.Laws

namespace Cert.Lib.OneHotSelect

open Idealize.ShloMosaic Idealize.ShloMosaic.ValueIdx

/-! ## The one-hot weight -/

/-- The weight lane `k` gets from the word `w`: the comparison `w = k` as one bit, widened to 32 bits without
    sign, converted to a float. -/
noncomputable def hot (w : BitVec 32) (k : Nat) : EReal :=
  FloatOps.sitofp (F := Ideal) .f32 ((IntOp.cmpi .eq w (BitVec.ofNat 32 k)).setWidth 32)

/-- It is `1` at the lane whose number is the word and `0` elsewhere. -/
theorem hot_eq (w : BitVec 32) (k : Nat) (hk : k < 2 ^ 32) : hot w k = if w.toNat = k then (1 : EReal) else 0 := by
  have e : (w == BitVec.ofNat 32 k) = decide (w.toNat = k) := by
    by_cases h : w.toNat = k
    · have hw : w = BitVec.ofNat 32 k := BitVec.eq_of_toNat_eq (by rw [BitVec.toNat_ofNat, Nat.mod_eq_of_lt hk]; exact h)
      rw [decide_eq_true h, hw]; exact beq_self_eq_true _
    · have hw : w ≠ BitVec.ofNat 32 k := fun hw => h (by rw [hw, BitVec.toNat_ofNat, Nat.mod_eq_of_lt hk])
      rw [decide_eq_false h]; exact beq_false_of_ne hw
  show (((BitVec.setWidth 32 (BitVec.ofBool (w == BitVec.ofNat 32 k))).toInt : ℝ) : EReal) = _
  rw [e]
  by_cases h : w.toNat = k
  · rw [if_pos h, decide_eq_true h]
    show (((1 : ℤ) : ℝ) : EReal) = 1
    simp
  · rw [if_neg h, decide_eq_false h]
    show (((0 : ℤ) : ℝ) : EReal) = 0
    simp

/-- The one-hot product: the sum over the lanes of weight times entry is the entry at the word's lane. No
    finiteness is needed: `0 * x = 0` on the extended reals whatever `x` is. -/
theorem sum_hot_mul {n : Nat} (hn : n ≤ 2 ^ 32) (w : BitVec 32) (hw : w.toNat < n) (f : Fin n → EReal) :
    ∑ k : Fin n, hot w k.val * f k = f ⟨w.toNat, hw⟩ := by
  rw [Finset.sum_eq_single (⟨w.toNat, hw⟩ : Fin n)]
  · rw [hot_eq _ _ (by omega), if_pos rfl, one_mul]
  · intro b _ hb
    rw [hot_eq _ _ (by have := b.isLt; omega), if_neg (fun h => hb (Fin.ext h.symm)), zero_mul]
  · intro h; exact absurd (Finset.mem_univ _) h

/-- Against entries that are all zero the one-hot product is zero. -/
theorem sum_hot_mul_zero {n : Nat} (w : BitVec 32) (f : Fin n → EReal) (hf : ∀ k, f k = 0) :
    ∑ k : Fin n, hot w k.val * f k = 0 :=
  Finset.sum_eq_zero fun k _ => by rw [hf k, mul_zero]

/-! ## A word clipped into a range -/

/-- A word clipped from below at `0` and from above at `hi` (signed maximum, then signed minimum) is, read signed,
    the natural number it is read unsigned, and that number is at most `hi`. -/
theorem clip_range (hi v : BitVec 32) (hhi : hi.toNat < 2 ^ 31) :
    (IntOp.minsi hi (IntOp.maxsi 0#32 v)).toNat ≤ hi.toNat
      ∧ (IntOp.minsi hi (IntOp.maxsi 0#32 v)).toInt = ((IntOp.minsi hi (IntOp.maxsi 0#32 v)).toNat : ℤ) := by
  unfold IntOp.minsi IntOp.maxsi
  simp only [BitVec.slt, decide_eq_true_eq]
  have h0 : (0#32 : BitVec 32).toInt = 0 := by decide
  have hhiI : hi.toInt = (hi.toNat : ℤ) := by rw [BitVec.toInt_eq_toNat_cond]; rw [if_pos (by omega)]
  by_cases hv : v.toInt < (0#32 : BitVec 32).toInt
  · rw [if_pos hv]
    by_cases h2 : hi.toInt < (0#32 : BitVec 32).toInt
    · rw [if_pos h2]; exact ⟨le_refl _, hhiI⟩
    · rw [if_neg h2]; exact ⟨by show 0 ≤ _; omega, by decide⟩
  · rw [if_neg hv]
    have hvI : v.toInt = (v.toNat : ℤ) := by
      rw [BitVec.toInt_eq_toNat_cond] at hv ⊢
      split at hv
      · rename_i hlt; rw [if_pos hlt]
      · rw [h0] at hv; have := v.isLt; omega
    by_cases h2 : hi.toInt < v.toInt
    · rw [if_pos h2]; exact ⟨le_refl _, hhiI⟩
    · rw [if_neg h2]; exact ⟨by rw [hhiI, hvI] at h2; omega, hvI⟩

/-! ## Spreading an array of words along a new last axis -/

variable {α : Type}

/-- An `[a, b]` array cast to `[a, b, 1]` reads, at `(i, k, u)`, the operand at `(i, k)`: both have row-major
    position `i * b + k`, the unit coordinate `u` being `0`. -/
theorem shapeCast_ab_ab1_apply {a b : ℕ} (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An `[a, b, 1]` array broadcast to `[a, b, c]` reads, at `(i, k, j)`, the operand at `(i, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ v h (ix3 i k j) = v (ix3 i k (0 : Fin 1)) := by
  refine broadcastTo_apply v h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-! ## A gather of whole rows at an `[A, B, 1]` array of start indices -/

/-- The dimension numbers of `table[idx]` for a table `[N, D]` and an index array `[A, B]` (carried as
    `[A, B, 1]`): the row axis collapsed and addressed by the one component of the start index, the column axis kept
    whole as the result's last axis. -/
abbrev rowsDims (N D A B : Nat)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

/-- The gather read at `(p, l, e)`: the table at column `e` of the row whose number is the start index
    `idx[p, l, 0]`, read signed and clamped into `[0, N - 1]`. -/
theorem gather_rows3_apply {N D A B w : Nat} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (p : Fin A) (l : Fin B) (e : Fin D) :
    Host.gather (rowsDims N D A B wf) x idx (ix3 p l e)
      = x (ix2 (⟨min (idx (ix3 p l (0 : Fin 1))).toInt.toNat (N - 1), by omega⟩ : Fin N) e) := by
  unfold Host.gather
  refine congrArg x (funext fun a => Fin.ext ?_)
  match a with
  | ⟨0, _⟩ =>
    show (rowsDims N D A B wf).start (ix3 p l e) idx 0 + (rowsDims N D A B wf).batchCoord (ix3 p l e) 0
      + (rowsDims N D A B wf).offCoord (ix3 p l e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D A B wf).startIndexMap from List.mem_singleton.mpr rfl)]
    have hsi : (rowsDims N D A B wf).siIdx (ix3 p l e) ⟨List.idxOf (0 : Fin 2) (rowsDims N D A B wf).startIndexMap,
        List.idxOf_lt_length_iff.2 (List.mem_singleton.mpr rfl)⟩ = ix3 p l (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N D A B wf).start (ix3 p l e) idx 1 + (rowsDims N D A B wf).batchCoord (ix3 p l e) 1
      + (rowsDims N D A B wf).offCoord (ix3 p l e) 1 = e.val
    rw [GatherDims.batchCoord_eq_zero _ _ _ List.not_mem_nil]
    have hst : (rowsDims N D A B wf).start (ix3 p l e) idx 1 = 0 := by
      unfold GatherDims.start
      rw [dif_neg (show (1 : Fin 2) ∉ ([0] : List (Fin 2)) by decide)]
    rw [hst]
    simp only [Nat.add_zero, Nat.zero_add]
    rfl

end Cert.Lib.OneHotSelect
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.Payload.lean ====
/-
  The body's arithmetic at an index, at the ideal instance.

  One trip of the body reads a row of 256 index words, builds for each word w the column of weights
  [n = w] over the 4096 table positions n, and multiplies the two table halves (each 67 x 4096) by that
  67 x 4096 times 4096 x 256 product, adding the two products. A weight is 1 at the position the word names and 0
  elsewhere, and on the extended reals 0 * x = 0 and 1 * x = x for every x, so a product's entry (r, j) is the
  table's entry at row r and position w_j as soon as w_j is one of the 4096 positions. When the second table half
  is zero throughout, the sum is the first half's entry.
-/
import proofs.«141127_j52785148067965_2_alg».proof.Proof.Gen.KernelIdeal.Skeleton
import proofs.«141127_j52785148067965_2_alg».proof.Proof.LibOneHotSelect
import proofs.«141127_j52785148067965_2_alg».proof.Proof.LibSplitContraction
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen Cert.Lib.OneHotSelect

/-- Equality of words does not depend on the order of the two words. -/
theorem cmpi_eq_comm (a b : BitVec 32) : IntOp.cmpi .eq a b = IntOp.cmpi .eq b a := by
  show BitVec.ofBool (a == b) = BitVec.ofBool (b == a)
  rw [BEq.comm]

/-- The weight matrix at (n, j): the weight position n gets from the j-th word of the row. -/
theorem weights_at (v14 : Vec Ideal S1x256 .i32) (n : Fin 4096) (j : Fin 256) :
    (truncf .bf16 (sitofp .f32 (extui 32 (cmpi .eq (iota .tc S4096x256 32 [0] iota_S4096x256_d0_w32)
        (broadcastTo S4096x256 (shapeCast S1x256 (shapeCast S256 v14 shapeCasts_S1x256_S256) shapeCasts_S256_S1x256)
          broadcasts_S1x256_S4096x256)) natLt_1_32) : FVec Ideal S4096x256 .f32) bitsLt_bf16_f32 : FVec Ideal S4096x256 .bf16) (ix2 n j)
      = hot (v14 (ix2 0 j)) n.val := by
  rw [shapeCast_shapeCast]
  show FloatOps.sitofp (F := Ideal) .f32 ((IntOp.cmpi .eq (iota .tc S4096x256 32 [0] iota_S4096x256_d0_w32 (ix2 n j))
      (broadcastTo S4096x256 v14 broadcasts_S1x256_S4096x256 (ix2 n j))).setWidth 32) = _
  rw [iota_single_apply, broadcastTo_1b_ab_apply, cmpi_eq_comm]
  rfl

/-- A table half times the weight matrix, into the zero accumulator, at (r, j): the sum over the 4096 positions
    of the table's entry times the weight. -/
theorem product_at (lhs : FVec Ideal S67x4096 .bf16) (rhs : FVec Ideal S4096x256 .bf16) (r : Fin 67) (j : Fin 256) :
    matmul dot_S67x4096_S4096x256_S67x256_1_0_0_1_n_n none lhs rhs (constant S67x256 .f32 0x00000000#32) (ix2 r j)
      = ∑ n : Fin 4096, lhs (ix2 r n) * rhs (ix2 n j) :=
  Cert.Lib.SplitContraction.matmul_zero_at dot_S67x4096_S4096x256_S67x256_1_0_0_1_n_n rfl rfl
    (fun _ _ => rfl)
    (fun j q => dot_S67x4096_S4096x256_S67x256_1_0_0_1_n_n.lhsIdx_val_of_single (cl := 1) rfl j q)
    (fun j q => dot_S67x4096_S4096x256_S67x256_1_0_0_1_n_n.rhsIdx_val_of_single (cr := 0) rfl j q)
    (fun _ _ => rfl) none lhs rhs r j

/-- The sum of the two products at (r, j): the first table half's entry at row r and the position the j-th word
    names, when that word is one of the 4096 positions and the second half is zero throughout. -/
theorem pay1_at (v0 v2 : Vec Ideal S1x67x4096 .bf16) (v14 : Vec Ideal S1x256 .i32) (r : Fin 67) (j : Fin 256)
    (hw : (v14 (ix2 0 j)).toNat < 4096) (hlo : ∀ (r : Fin 67) (n : Fin 4096), v2 (ix3 0 r n) = 0) :
    k0_pay1 v0 v2 v14 (ix2 r j) = v0 (ix3 0 r ⟨(v14 (ix2 0 j)).toNat, hw⟩) := by
  unfold k0_pay1
  dsimp only
  rw [addf_apply, product_at, product_at]
  have e1 : ∀ n : Fin 4096, shapeCast S67x4096 v0 shapeCasts_S1x67x4096_S67x4096 (ix2 r n)
      * (truncf .bf16 (sitofp .f32 (extui 32 (cmpi .eq (iota .tc S4096x256 32 [0] iota_S4096x256_d0_w32)
        (broadcastTo S4096x256 (shapeCast S1x256 (shapeCast S256 v14 shapeCasts_S1x256_S256) shapeCasts_S256_S1x256)
          broadcasts_S1x256_S4096x256)) natLt_1_32) : FVec Ideal S4096x256 .f32) bitsLt_bf16_f32 : FVec Ideal S4096x256 .bf16) (ix2 n j)
      = hot (v14 (ix2 0 j)) n.val * v0 (ix3 0 r n) := fun n => by
    rw [weights_at, shapeCast_1ab_ab_apply, mul_comm]
  have e2 : ∀ n : Fin 4096, shapeCast S67x4096 v2 shapeCasts_S1x67x4096_S67x4096 (ix2 r n)
      * (truncf .bf16 (sitofp .f32 (extui 32 (cmpi .eq (iota .tc S4096x256 32 [0] iota_S4096x256_d0_w32)
        (broadcastTo S4096x256 (shapeCast S1x256 (shapeCast S256 v14 shapeCasts_S1x256_S256) shapeCasts_S256_S1x256)
          broadcasts_S1x256_S4096x256)) natLt_1_32) : FVec Ideal S4096x256 .f32) bitsLt_bf16_f32 : FVec Ideal S4096x256 .bf16) (ix2 n j)
      = hot (v14 (ix2 0 j)) n.val * v2 (ix3 0 r n) := fun n => by
    rw [weights_at, shapeCast_1ab_ab_apply, mul_comm]
  rw [Finset.sum_congr rfl (fun n _ => e1 n), Finset.sum_congr rfl (fun n _ => e2 n),
    sum_hot_mul (by norm_num) _ hw, sum_hot_mul_zero _ _ (fun n => hlo r n), add_zero]

/-- What a trip stores into rows 0..8 of its 256 columns, at (r, j): the gathered entry less the centre's. -/
theorem pay2_at (v0 v2 : Vec Ideal S1x67x4096 .bf16) (v14 : Vec Ideal S1x256 .i32) (v26 : Vec Ideal S1x8x256 .f32)
    (r : Fin 8) (j : Fin 256) (hw : (v14 (ix2 0 j)).toNat < 4096) (hlo : ∀ (r : Fin 67) (n : Fin 4096), v2 (ix3 0 r n) = 0) :
    k0_pay2 v0 v2 v14 v26 (ix3 0 r j)
      = v0 (ix3 0 ⟨r.val, by omega⟩ ⟨(v14 (ix2 0 j)).toNat, hw⟩) - v26 (ix3 0 r j) := by
  unfold k0_pay2
  rw [shapeCast_ab_1ab_apply, subf_apply, shapeCast_1ab_ab_apply,
    slice2_axis0_apply 0 _ _ r j ⟨r.val, by omega⟩ (by simp), pay1_at v0 v2 v14 _ j hw hlo]

/-- What a trip stores into rows 8..67 of its 256 columns, at (r, j): the gathered entry of row 8 + r. -/
theorem pay3_at (v0 v2 : Vec Ideal S1x67x4096 .bf16) (v14 : Vec Ideal S1x256 .i32)
    (r : Fin 59) (j : Fin 256) (hw : (v14 (ix2 0 j)).toNat < 4096) (hlo : ∀ (r : Fin 67) (n : Fin 4096), v2 (ix3 0 r n) = 0) :
    k0_pay3 v0 v2 v14 (ix3 0 r j) = v0 (ix3 0 ⟨8 + r.val, by omega⟩ ⟨(v14 (ix2 0 j)).toNat, hw⟩) := by
  unfold k0_pay3
  rw [shapeCast_ab_1ab_apply, slice2_axis0_apply 8 _ _ r j ⟨8 + r.val, by omega⟩ rfl, pay1_at v0 v2 v14 _ j hw hlo]

/-- The same two facts with the word named. -/
theorem pay2_word (v0 v2 : Vec Ideal S1x67x4096 .bf16) (v14 : Vec Ideal S1x256 .i32) (v26 : Vec Ideal S1x8x256 .f32)
    (r : Fin 8) (j : Fin 256) (w : BitVec 32) (hwv : v14 (ix2 0 j) = w) (hw : w.toNat < 4096)
    (hlo : ∀ (r : Fin 67) (n : Fin 4096), v2 (ix3 0 r n) = 0) :
    k0_pay2 v0 v2 v14 v26 (ix3 0 r j) = v0 (ix3 0 ⟨r.val, by omega⟩ ⟨w.toNat, hw⟩) - v26 (ix3 0 r j) := by
  subst hwv; exact pay2_at v0 v2 v14 v26 r j hw hlo

theorem pay3_word (v0 v2 : Vec Ideal S1x67x4096 .bf16) (v14 : Vec Ideal S1x256 .i32)
    (r : Fin 59) (j : Fin 256) (w : BitVec 32) (hwv : v14 (ix2 0 j) = w) (hw : w.toNat < 4096)
    (hlo : ∀ (r : Fin 67) (n : Fin 4096), v2 (ix3 0 r n) = 0) :
    k0_pay3 v0 v2 v14 (ix3 0 r j) = v0 (ix3 0 ⟨8 + r.val, by omega⟩ ⟨w.toNat, hw⟩) := by
  subst hwv; exact pay3_at v0 v2 v14 r j hw hlo

end Cert.KernelIdeal.Hand

end
-- ==== Proof.TripValue.lean ====
/-
  What the sixteen trips of the body leave in the output block, as one function of the block's index.

  Trip k reads the 256 words of the index row at columns 256k .. 256k+255 of the point's 4096-column stretch, and
  writes columns 256k .. 256k+255 of the output block: rows 0..8 as the gathered table entries less the centres'
  block, rows 8..67 as the gathered table entries. Every store is therefore the restriction of ONE function of the
  block index (row f, column col): the first table half's entry at row f and the position named by the word of
  column col, less the centre's entry when f < 8. The trips' pieces, however many and in whatever order, then read
  back as that function wherever they cover.
-/
import proofs.«141127_j52785148067965_2_alg».proof.Proof.Gen.KernelIdeal.Loops
import proofs.«141127_j52785148067965_2_alg».proof.Proof.Payload
import Idealize.ShloMosaic.Lib.Pipeline.FrameBody
import Idealize.ShloMosaic.Lib.Pipeline.Value

noncomputable section

namespace Cert.KernelIdeal.Hand

open Idealize.ShloMosaic Idealize.ShloMosaic.TcCoe Idealize.ShloMosaic.ValueIdx Idealize.SL.Sem
open Cert.KernelIdeal Cert.KernelIdeal.Gen

/-- The number of trips. -/
theorem trips_lt (k : Fin k0_t1_loop.trips) : k.val < 16 := Nat.lt_of_lt_of_le k.isLt k0_t1_abs.2.1

/-- The function the output block ends as: at row f and column col, the table's entry at row f and the position the
    word of column col names, less the centre's entry on the first eight rows. -/
def blockG (b : Fin 16) (p8 : Fin 8) (x0 : Vec Ideal S16x32768 .i32) (hx0 : ∀ q, (x0 q).toNat < 4096)
    (x1 : Vec Ideal S1x67x4096 .bf16) (x3 : Vec Ideal S1x8x4096 .f32) (f : Fin 67) (col : Fin 4096) : EReal :=
  if h : f.val < 8 then
    x1 (ix3 0 f ⟨(x0 (ix2 b ⟨4096 * p8.val + col.val, by omega⟩)).toNat, hx0 _⟩) - x3 (ix3 0 ⟨f.val, h⟩ col)
  else x1 (ix3 0 f ⟨(x0 (ix2 b ⟨4096 * p8.val + col.val, by omega⟩)).toNat, hx0 _⟩)

section Centre

variable (arg5 : Memref sig .tc .vmem S1x8x4096 .f32) (harg5 : arg5.IsWhole) (x3 : Vec Ideal S1x8x4096 .f32)

/-- The centre's entries trip k reads. -/
abbrev centreOf (k : Fin k0_t1_loop.trips) : Vec Ideal S1x8x256 .f32 :=
  View.readAt (Elt Ideal) arg5.view (Rect.unit (s := S1x8x4096) (k0_off2 k) S1x8x256.size (k0_off2_inb k)).toLoadRect (harg5.unread x3)

/-- The centre's entry trip k reads at (r, j) is the centre block's at row r and column 256 k + j. -/
theorem centreOf_at (k : Fin k0_t1_loop.trips) (r : Fin 8) (j : Fin 256) :
    centreOf arg5 harg5 x3 k (ix3 0 r j) = x3 (ix3 0 r ⟨256 * k.val + j.val, by have := trips_lt k; omega⟩) := by
  unfold centreOf
  rw [View.readAt_eq_ld, harg5.read_unread]
  refine congrArg x3 (funext fun a => Fin.ext ?_)
  have e := k0_off2_eq k
  match a with
  | ⟨0, _⟩ => show k0_off2 k 0 + 1 * 0 = 0; rw [e]; rfl
  | ⟨1, _⟩ => show k0_off2 k 1 + 1 * r.val = r.val; rw [e]; show 0 + 1 * r.val = r.val; omega
  | ⟨2, _⟩ => show k0_off2 k 2 + 1 * j.val = 256 * k.val + j.val; rw [e]; show 256 * k.val + 1 * j.val = _; omega

end Centre

section Trip

variable (𝒱 : Variants) (c : Dev nD) (bd : Option 𝒱.V) (i : grid0.Coords) (b : Fin 16) (p8 : Fin 8)
  (hb : (i 0).val = b.val) (hp : (i 1).val = p8.val)
  (arg2 : Memref sig .tc .vmem S16x32768 .i32) (harg2 : arg2.IsWhole) (arg3 : Memref sig .tc .vmem S1x67x4096 .bf16) (harg3 : arg3.IsWhole)
  (arg4 : Memref sig .tc .vmem S1x67x4096 .bf16) (harg4 : arg4.IsWhole) (arg5 : Memref sig .tc .vmem S1x8x4096 .f32) (harg5 : arg5.IsWhole)
  (arg6 : Memref sig .tc .vmem S1x67x4096 .f32) (harg6 : arg6.IsWhole)
  (v0 v2 : Vec Ideal S1x67x4096 .bf16) (x0 : Vec Ideal S16x32768 .i32) (x3 : Vec Ideal S1x8x4096 .f32)

/-- The words trip k reads. -/
abbrev wordsOf (k : Fin k0_t1_loop.trips) : Vec Ideal S1x256 .i32 :=
  View.readAt (Elt Ideal) arg2.view (Rect.unit (s := S16x32768) (k0_off1 i k) S1x256.size (k0_off1_inb i k)).toLoadRect (harg2.unread x0)
/-- Trip k's two stores, the later one first. -/
theorem tripL_eq (k : Fin k0_t1_loop.trips) :
    tripL_k0_t1 (F := Ideal) 𝒱 c bd i arg2 harg2 arg3 harg3 arg4 harg4 arg5 harg5 arg6 harg6 v0 v2 (harg2.unread x0) (harg5.unread x3) k
      = [⟨Rect.unit (s := S1x67x4096) (k0_off4 k) S1x59x256.size (k0_off4_inb k), k0_pay3 v0 v2 (wordsOf i arg2 harg2 x0 k)⟩,
         ⟨Rect.unit (s := S1x67x4096) (k0_off3 k) S1x8x256.size (k0_off3_inb k),
           k0_pay2 v0 v2 (wordsOf i arg2 harg2 x0 k) (centreOf arg5 harg5 x3 k)⟩] := by
  unfold tripL_k0_t1 trip_k0_t1
  rfl

include hb hp in
/-- The j-th word trip k reads is the index block's word at the point's row and column 4096 p8 + 256 k + j. -/
theorem wordsOf_at (k : Fin k0_t1_loop.trips) (j : Fin 256) :
    wordsOf i arg2 harg2 x0 k (ix2 0 j)
      = x0 (ix2 b ⟨4096 * p8.val + (256 * k.val + j.val), by have := trips_lt k; omega⟩) := by
  unfold wordsOf
  rw [View.readAt_eq_ld, harg2.read_unread]
  refine congrArg x0 (funext fun a => Fin.ext ?_)
  have e := k0_off1_eq i k
  match a with
  | ⟨0, _⟩ =>
    show k0_off1 i k 0 + 1 * 0 = b.val
    rw [e, ← hb]; rfl
  | ⟨1, _⟩ =>
    show k0_off1 i k 1 + 1 * j.val = 4096 * p8.val + (256 * k.val + j.val)
    rw [e, ← hp]; show 4096 * (i 1).val + 256 * k.val + 1 * j.val = _; omega

variable (hx0 : ∀ q, (x0 q).toNat < 4096) (hlo : ∀ (r : Fin 67) (n : Fin 4096), v2 (ix3 0 r n) = 0)

/-- The block function at an index of the block. -/
abbrev blockAt (y : S1x67x4096.Idx) : EReal := blockG b p8 x0 hx0 v0 x3 (y 1) (y 2)

include hb hp hlo in
/-- Each of trip k's two stores is the block function restricted to the store's rectangle. -/
theorem trip_pieces (k : Fin k0_t1_loop.trips) :
    ∀ p ∈ tripL_k0_t1 (F := Ideal) 𝒱 c bd i arg2 harg2 arg3 harg3 arg4 harg4 arg5 harg5 arg6 harg6 v0 v2 (harg2.unread x0) (harg5.unread x3) k,
      ∀ x : p.1.shape.Idx, p.2 x = blockAt b p8 v0 x0 x3 hx0 (p.1.emb x) := by
  rw [tripL_eq]
  intro p hp'
  have hk := trips_lt k
  simp only [List.mem_cons, List.mem_nil_iff, or_false] at hp'
  rcases hp' with rfl | rfl
  · intro x
    obtain ⟨u, r, j, rfl⟩ : ∃ (u : Fin 1) (r : Fin 59) (j : Fin 256), x = ix3 u r j := ⟨x 0, x 1, x 2, eq_ix3 x⟩
    obtain rfl : u = 0 := Subsingleton.elim _ _
    have e1 : ((Rect.unit (s := S1x67x4096) (k0_off4 k) S1x59x256.size (k0_off4_inb k)).emb (ix3 0 r j)) 1
        = (⟨8 + r.val, by omega⟩ : Fin 67) :=
      Fin.ext (by show k0_off4 k 1 + 1 * r.val = 8 + r.val; rw [k0_off4_eq]; show 8 + 1 * r.val = _; omega)
    have e2 : ((Rect.unit (s := S1x67x4096) (k0_off4 k) S1x59x256.size (k0_off4_inb k)).emb (ix3 0 r j)) 2
        = (⟨256 * k.val + j.val, by omega⟩ : Fin 4096) :=
      Fin.ext (by show k0_off4 k 2 + 1 * j.val = 256 * k.val + j.val; rw [k0_off4_eq]; show 256 * k.val + 1 * j.val = _; omega)
    show k0_pay3 v0 v2 (wordsOf i arg2 harg2 x0 k) (ix3 0 r j) = blockG b p8 x0 hx0 v0 x3 _ _
    rw [e1, e2, pay3_word v0 v2 _ r j _ (wordsOf_at i b p8 hb hp arg2 harg2 x0 k j) (hx0 _) hlo]
    unfold blockG
    rw [dif_neg (by show ¬ 8 + r.val < 8; omega)]
  · intro x
    obtain ⟨u, r, j, rfl⟩ : ∃ (u : Fin 1) (r : Fin 8) (j : Fin 256), x = ix3 u r j := ⟨x 0, x 1, x 2, eq_ix3 x⟩
    obtain rfl : u = 0 := Subsingleton.elim _ _
    have e1 : ((Rect.unit (s := S1x67x4096) (k0_off3 k) S1x8x256.size (k0_off3_inb k)).emb (ix3 0 r j)) 1
        = (⟨r.val, by omega⟩ : Fin 67) :=
      Fin.ext (by show k0_off3 k 1 + 1 * r.val = r.val; rw [k0_off3_eq]; show 0 + 1 * r.val = _; omega)
    have e2 : ((Rect.unit (s := S1x67x4096) (k0_off3 k) S1x8x256.size (k0_off3_inb k)).emb (ix3 0 r j)) 2
        = (⟨256 * k.val + j.val, by omega⟩ : Fin 4096) :=
      Fin.ext (by show k0_off3 k 2 + 1 * j.val = 256 * k.val + j.val; rw [k0_off3_eq]; show 256 * k.val + 1 * j.val = _; omega)
    show k0_pay2 v0 v2 (wordsOf i arg2 harg2 x0 k) (centreOf arg5 harg5 x3 k) (ix3 0 r j) = blockG b p8 x0 hx0 v0 x3 _ _
    rw [e1, e2, pay2_word v0 v2 _ _ r j _ (wordsOf_at i b p8 hb hp arg2 harg2 x0 k j) (hx0 _) hlo, centreOf_at arg5 harg5 x3 k r j]
    unfold blockG
    rw [dif_pos (by show r.val < 8; omega)]

include hb hp hlo in
/-- So are all the stores of the trips before the n-th, for every n up to the number of trips. -/
theorem pb_pieces : ∀ n, n ≤ k0_t1_loop.trips →
    ∀ p ∈ pb_k0_t1 (F := Ideal) 𝒱 c bd i arg2 harg2 arg3 harg3 arg4 harg4 arg5 harg5 arg6 harg6 v0 v2 (harg2.unread x0) (harg5.unread x3) n,
      ∀ x : p.1.shape.Idx, p.2 x = blockAt b p8 v0 x0 x3 hx0 (p.1.emb x)
  | 0, _ => fun p hp' => absurd hp' List.not_mem_nil
  | n + 1, hn => by
    intro p hp'
    rw [pb_k0_t1_succ 𝒱 c bd i arg2 harg2 arg3 harg3 arg4 harg4 arg5 harg5 arg6 harg6 v0 v2 (harg2.unread x0) (harg5.unread x3) ⟨n, hn⟩] at hp'
    rcases List.mem_append.mp hp' with h | h
    · exact trip_pieces 𝒱 c bd i b p8 hb hp arg2 harg2 arg3 harg3 arg4 harg4 arg5 harg5 arg6 harg6 v0 v2 x0 x3 hx0 hlo ⟨n, hn⟩ p h
    · exact pb_pieces n (Nat.le_of_succ_le hn) p h

end Trip

end Cert.KernelIdeal.Hand

end
-- ==== Proof.KIBlocks.lean ====
/-
  From the body's blocks to the region's output array, at the ideal instance.

  The grid has one point per (batch b, stretch p8) with b < 16 and p8 < 8. At that point the index window is the
  whole [16, 32768] array of words, the two table windows are batch b's [67, 4096] tables, the centre window and the
  output window are batch b's columns 4096 p8 .. 4096 p8 + 4095. The body leaves in the output block the function
  of TripValue; written back at its place, every point's block is the restriction of ONE function of the whole
  output array's index (b, f, C): the first table's entry at (b, f, word of (b, C)), less the centre's entry at
  (b, f, C) on the first eight rows. The 128 blocks tile the array, so the array ends as that function.
-/
import proofs.«141127_j52785148067965_2_alg».proof.Proof.KIFrame
import proofs.«141127_j52785148067965_2_alg».proof.Proof.TripValue
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

theorem hz3 : (![0, 0, 0] : Fin 3 → Nat) = fun _ => 0 := funext fun a => by fin_cases a <;> rfl

/-! ## The run's pieces are the loop's -/

section Pieces

variable {F : FTy → Type} [FloatOps F]

/-- A load of a whole buffer reads its contents. -/
theorem whole_load (arg : Memref sig .tc .vmem S1x67x4096 .bf16) (h : arg.IsWhole) (x : Vec F S1x67x4096 .bf16) :
    View.readAt (Elt F) arg.view (Rect.unit (s := S1x67x4096) ![0, 0, 0] S1x67x4096.size inb_S1x67x4096_S1x67x4096_0_0_0).toLoadRect (h.unread x) = x := by
  rw [View.readAt_eq_ld, h.read_unread, View.ld_unit_zero (S := S1x67x4096) hz3]

/-- The pieces the body's run ends with are the pieces of all the loop's trips, over the two tables as loaded. -/
theorem run_pieces (c : Dev nD) (i : grid0.Coords) (arg2 : Memref sig .tc .vmem S16x32768 .i32) (harg2 : arg2.IsWhole)
    (arg3 : Memref sig .tc .vmem S1x67x4096 .bf16) (harg3 : arg3.IsWhole) (arg4 : Memref sig .tc .vmem S1x67x4096 .bf16) (harg4 : arg4.IsWhole)
    (arg5 : Memref sig .tc .vmem S1x8x4096 .f32) (harg5 : arg5.IsWhole) (arg6 : Memref sig .tc .vmem S1x67x4096 .f32) (harg6 : arg6.IsWhole)
    (x0 : Vec F S16x32768 .i32) (x1 x2 : Vec F S1x67x4096 .bf16) (x3 : Vec F S1x8x4096 .f32) :
    (kernelRun0_A c i arg2 harg2 arg3 harg3 arg4 harg4 arg5 harg5 arg6 harg6 x0 x1 x2 x3).1
      = pb_k0_t1 (F := F) Variants.none c none i arg2 harg2 arg3 harg3 arg4 harg4 arg5 harg5 arg6 harg6 x1 x2
          (harg2.unread x0) (harg5.unread x3) k0_t1_loop.trips := by
  unfold kernelRun0_A
  dsimp only
  rw [whole_load arg3 harg3 x1, whole_load arg4 harg4 x2]

end Pieces

/-! ## The grid's points and the windows' block indices -/

/-- The printed index maps, decided over the grid. -/
theorem idx_facts : ∀ t : Fin cfg0.N,
    win0_0.index t (0 : Fin 2) = 0 ∧ win0_0.index t (1 : Fin 2) = 0
    ∧ win0_1.index t (0 : Fin 3) = (grid0.coords t 0).val ∧ win0_1.index t (1 : Fin 3) = 0 ∧ win0_1.index t (2 : Fin 3) = 0
    ∧ win0_2.index t (0 : Fin 3) = (grid0.coords t 0).val ∧ win0_2.index t (1 : Fin 3) = 0 ∧ win0_2.index t (2 : Fin 3) = 0
    ∧ win0_3.index t (0 : Fin 3) = (grid0.coords t 0).val ∧ win0_3.index t (1 : Fin 3) = 0 ∧ win0_3.index t (2 : Fin 3) = (grid0.coords t 1).val
    ∧ win0_4.index t (0 : Fin 3) = (grid0.coords t 0).val ∧ win0_4.index t (1 : Fin 3) = 0 ∧ win0_4.index t (2 : Fin 3) = (grid0.coords t 1).val :=
  (by decide +kernel : ∀ t : Fin grid0.N, _)

/-- Every (batch, stretch) is some point's. -/
theorem idx_onto : ∀ (q0 : Fin 16) (q1 : Fin 8), ∃ t : Fin cfg0.N, (grid0.coords t 0).val = q0.val ∧ (grid0.coords t 1).val = q1.val :=
  (by decide +kernel : ∀ (q0 : Fin 16) (q1 : Fin 8), ∃ t : Fin grid0.N, (grid0.coords t 0).val = q0.val ∧ (grid0.coords t 1).val = q1.val)

/-- The batch and the stretch of a point. -/
abbrev batchOf (t : Fin cfg0.N) : Fin 16 := ⟨(grid0.coords t 0).val, (grid0.coords t 0).isLt⟩
abbrev stretchOf (t : Fin cfg0.N) : Fin 8 := ⟨(grid0.coords t 1).val, (grid0.coords t 1).isLt⟩

variable (m : (ℓ : Loc nD τ sig) → Buf (Elt Ideal) ℓ) (ρ : Dev nD → PrngReg)

/-! ## Each input block, read off its array -/

theorem blk0_at (c : Dev nD) (t : Fin cfg0.N) (a : Fin 16) (C : Fin 32768) :
    (iblk m c 0 t : Vec Ideal S16x32768 .i32) (ix2 a C) = V m c main_v60 (ix2 a C) := by
  obtain ⟨e0, e1, -⟩ := idx_facts t
  show V m c main_v60 (((cfg0.win 0).blk t).view.emb (ix2 a C)) = V m c main_v60 (ix2 a C)
  refine congrArg (V m c main_v60) (funext fun ax => Fin.ext ?_)
  match ax with
  | ⟨0, _⟩ => show win0_0.index t (0 : Fin 2) * 16 + 1 * a.val = a.val; omega
  | ⟨1, _⟩ => show win0_0.index t (1 : Fin 2) * 32768 + 1 * C.val = C.val; omega

theorem blk1_at (c : Dev nD) (t : Fin cfg0.N) (f : Fin 67) (n : Fin 4096) :
    (iblk m c 1 t : Vec Ideal S1x67x4096 .bf16) (ix3 0 f n) = V m c main_v64 (ix3 (batchOf t) f n) := by
  obtain ⟨-, -, e0, e1, e2, -⟩ := idx_facts t
  show V m c main_v64 (((cfg0.win 1).blk t).view.emb (ix3 0 f n)) = V m c main_v64 (ix3 (batchOf t) f n)
  refine congrArg (V m c main_v64) (funext fun ax => Fin.ext ?_)
  match ax with
  | ⟨0, _⟩ => show win0_1.index t (0 : Fin 3) * 1 + 1 * 0 = (grid0.coords t 0).val; omega
  | ⟨1, _⟩ => show win0_1.index t (1 : Fin 3) * 67 + 1 * f.val = f.val; omega
  | ⟨2, _⟩ => show win0_1.index t (2 : Fin 3) * 4096 + 1 * n.val = n.val; omega

theorem blk2_at (c : Dev nD) (t : Fin cfg0.N) (f : Fin 67) (n : Fin 4096) :
    (iblk m c 2 t : Vec Ideal S1x67x4096 .bf16) (ix3 0 f n) = V m c main_v67 (ix3 (batchOf t) f n) := by
  obtain ⟨-, -, -, -, -, e0, e1, e2, -⟩ := idx_facts t
  show V m c main_v67 (((cfg0.win 2).blk t).view.emb (ix3 0 f n)) = V m c main_v67 (ix3 (batchOf t) f n)
  refine congrArg (V m c main_v67) (funext fun ax => Fin.ext ?_)
  match ax with
  | ⟨0, _⟩ => show win0_2.index t (0 : Fin 3) * 1 + 1 * 0 = (grid0.coords t 0).val; omega
  | ⟨1, _⟩ => show win0_2.index t (1 : Fin 3) * 67 + 1 * f.val = f.val; omega
  | ⟨2, _⟩ => show win0_2.index t (2 : Fin 3) * 4096 + 1 * n.val = n.val; omega

theorem blk3_at (c : Dev nD) (t : Fin cfg0.N) (r : Fin 8) (col : Fin 4096) :
    (iblk m c 3 t : Vec Ideal S1x8x4096 .f32) (ix3 0 r col)
      = V m c main_v71 (ix3 (batchOf t) r ⟨4096 * (stretchOf t).val + col.val, by omega⟩) := by
  obtain ⟨-, -, -, -, -, -, -, -, e0, e1, e2, -⟩ := idx_facts t
  show V m c main_v71 (((cfg0.win 3).blk t).view.emb (ix3 0 r col)) = V m c main_v71 (ix3 (batchOf t) r _)
  refine congrArg (V m c main_v71) (funext fun ax => Fin.ext ?_)
  match ax with
  | ⟨0, _⟩ => show win0_3.index t (0 : Fin 3) * 1 + 1 * 0 = (grid0.coords t 0).val; omega
  | ⟨1, _⟩ => show win0_3.index t (1 : Fin 3) * 8 + 1 * r.val = r.val; omega
  | ⟨2, _⟩ => show win0_3.index t (2 : Fin 3) * 4096 + 1 * col.val = 4096 * (grid0.coords t 1).val + col.val; omega

/-! ## The output array as one function -/

/-- The output array's entry at batch b, row f, column C: the first table's entry at row f and the position the word
    of column C names, less the centre's entry on the first eight rows. -/
def G72at (V60 : IVec S16x32768 32) (hx0 : ∀ q, (V60 q).toNat < 4096) (V64 : FVec Ideal S16x67x4096 .bf16)
    (V71 : FVec Ideal S16x8x32768 .f32) (b : Fin 16) (f : Fin 67) (C : Fin 32768) : EReal :=
  if h : f.val < 8 then V64 (ix3 b f ⟨(V60 (ix2 b C)).toNat, hx0 _⟩) - V71 (ix3 b ⟨f.val, h⟩ C)
  else V64 (ix3 b f ⟨(V60 (ix2 b C)).toNat, hx0 _⟩)

def G72 (V60 : IVec S16x32768 32) (hx0 : ∀ q, (V60 q).toNat < 4096) (V64 : FVec Ideal S16x67x4096 .bf16)
    (V71 : FVec Ideal S16x8x32768 .f32) : S16x67x32768.Idx → EReal :=
  fun q => G72at V60 hx0 V64 V71 (q 0) (q 1) (q 2)

variable (hx0 : ∀ c q, (V m c main_v60 q : BitVec 32).toNat < 4096)
  (hlo : ∀ c (b : Fin 16) (f : Fin 67) (n : Fin 4096), (V m c main_v67 : FVec Ideal S16x67x4096 .bf16) (ix3 b f n) = (0 : EReal))

include hlo in
/-- WHAT POINT t WRITES BACK is block t of that function of the arrays as the region finds them. -/
theorem flushed_eq (c : Dev nD) (t : Fin cfg0.N) :
    (dats m 0 c).flushed 4 t
      = ((cfg0.win 4).blk t).view.read (Elt Ideal) (G72 (V m c main_v60) (hx0 c) (V m c main_v64) (V m c main_v71)) := by
  have hx0' : ∀ q : S16x32768.Idx, ((iblk m c 0 t : Vec Ideal S16x32768 .i32) q).toNat < 4096 := fun q => by
    have e : q = (ix2 (⟨(q 0).val, (q 0).isLt⟩ : Fin 16) (⟨(q 1).val, (q 1).isLt⟩ : Fin 32768) : S16x32768.Idx) := by
      funext a
      match a with
      | ⟨0, _⟩ => rfl
      | ⟨1, _⟩ => rfl
    rw [e, blk0_at]; exact hx0 c _
  have hlo' : ∀ (r : Fin 67) (n : Fin 4096), (iblk m c 2 t : Vec Ideal S1x67x4096 .bf16) (ix3 0 r n) = (0 : EReal) := fun r n => by
    rw [blk2_at]; exact hlo c _ r n
  show (cfg0.win 4).cut (grid0.coords t) ((dats m 0 c).after 4 t) = _
  rw [after0_4]
  unfold outsAt0 out0_A_4
  rw [View.read_writes_eq_canon _ _ _ (cover0_A_4 c (grid0.coords t) (ms0_0 t) (hs0_0 t) (ms0_1 t) (hs0_1 t) (ms0_2 t) (hs0_2 t)
    (ms0_3 t) (hs0_3 t) (ms0_4 t) (hs0_4 t) (iblk m c 0 t) (iblk m c 1 t) (iblk m c 2 t) (iblk m c 3 t))]
  funext y
  have hcov := cover0_A_4 c (grid0.coords t) (ms0_0 t) (hs0_0 t) (ms0_1 t) (hs0_1 t) (ms0_2 t) (hs0_2 t)
    (ms0_3 t) (hs0_3 t) (ms0_4 t) (hs0_4 t) (iblk m c 0 t) (iblk m c 1 t) (iblk m c 2 t) (iblk m c 3 t) y
  have hpc := pb_pieces Variants.none c none (grid0.coords t) (batchOf t) (stretchOf t) rfl rfl (ms0_0 t) (hs0_0 t) (ms0_1 t) (hs0_1 t)
    (ms0_2 t) (hs0_2 t) (ms0_3 t) (hs0_3 t) (ms0_4 t) (hs0_4 t) (iblk m c 1 t) (iblk m c 2 t) (iblk m c 0 t) (iblk m c 3 t) hx0' hlo'
    k0_t1_loop.trips (le_refl _)
  rw [run_pieces] at hcov ⊢
  refine (View.canon_apply_of_pieces _ _ hpc y hcov).trans ?_
  obtain ⟨u, f, col, rfl⟩ : ∃ (u : Fin 1) (f : Fin 67) (col : Fin 4096), y = ix3 u f col := ⟨y 0, y 1, y 2, eq_ix3 y⟩
  obtain rfl : u = 0 := Subsingleton.elim _ _
  obtain ⟨-, -, -, -, -, -, -, -, -, -, -, e0, e1, e2⟩ := idx_facts t
  have hemb : ((cfg0.win 4).blk t).view.emb (ix3 0 f col)
      = (ix3 (batchOf t) f ⟨4096 * (stretchOf t).val + col.val, by omega⟩ : S16x67x32768.Idx) := by
    funext ax; apply Fin.ext
    match ax with
    | ⟨0, _⟩ => show win0_4.index t (0 : Fin 3) * 1 + 1 * 0 = (grid0.coords t 0).val; omega
    | ⟨1, _⟩ => show win0_4.index t (1 : Fin 3) * 67 + 1 * f.val = f.val; omega
    | ⟨2, _⟩ => show win0_4.index t (2 : Fin 3) * 4096 + 1 * col.val = 4096 * (grid0.coords t 1).val + col.val; omega
  show blockG (batchOf t) (stretchOf t) (iblk m c 0 t) hx0' (iblk m c 1 t) (iblk m c 3 t) f col
    = G72 (V m c main_v60) (hx0 c) (V m c main_v64) (V m c main_v71) (((cfg0.win 4).blk t).view.emb (ix3 0 f col))
  rw [hemb]
  show _ = G72at (V m c main_v60) (hx0 c) (V m c main_v64) (V m c main_v71) (batchOf t) f ⟨4096 * (stretchOf t).val + col.val, by omega⟩
  unfold blockG G72at
  have hw : (iblk m c 0 t : Vec Ideal S16x32768 .i32) (ix2 (batchOf t) ⟨4096 * (stretchOf t).val + col.val, by omega⟩)
      = V m c main_v60 (ix2 (batchOf t) ⟨4096 * (stretchOf t).val + col.val, by omega⟩) := blk0_at m c t _ _
  by_cases h : f.val < 8
  · rw [dif_pos h, dif_pos h, blk1_at, blk3_at]
    simp only [hw]
  · rw [dif_neg h, dif_neg h, blk1_at]
    simp only [hw]

/-- Every index of the output array is in some point's block: the point of its batch and of its column's stretch. -/
theorem covered (i : S16x67x32768.Idx) :
    ∃ t : Fin cfg0.N, (cfg0.win 4).flush t = true ∧ i ∈ ((cfg0.win 4).blk t).view.set := by
  have h0 : (i 0).val < 16 := (i 0).isLt
  have h1 : (i 1).val < 67 := (i 1).isLt
  have h2 : (i 2).val < 32768 := (i 2).isLt
  obtain ⟨t, ht0, ht1⟩ := idx_onto ⟨(i 0).val, h0⟩ ⟨(i 2).val / 4096, by omega⟩
  obtain ⟨-, -, -, -, -, -, -, -, -, -, -, e0, e1, e2⟩ := idx_facts t
  refine ⟨t, flush0_4 t, ?_⟩
  show i ∈ ((View.whole main_v72).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    have : (grid0.coords t 0).val = (i 0).val := ht0
    omega
  | ⟨1, _⟩ =>
    show win0_4.index t (1 : Fin 3) * 67 ≤ (i 1).val ∧ (i 1).val < win0_4.index t (1 : Fin 3) * 67 + 67
    omega
  | ⟨2, _⟩ =>
    show win0_4.index t (2 : Fin 3) * 4096 ≤ (i 2).val ∧ (i 2).val < win0_4.index t (2 : Fin 3) * 4096 + 4096
    have : (grid0.coords t 1).val = (i 2).val / 4096 := ht1
    omega

include hlo in
/-- THE OUTPUT ARRAY after the run. -/
theorem final72 (c : Dev nD) :
    (dats m 0 c).arrAt 4 cfg0.N = G72 (V m c main_v60) (hx0 c) (V m c main_v64) (V m c main_v71) :=
  (dats m 0 c).arrAt_eq_of_cover 4 _ (fun t _ => flushed_eq m hx0 hlo c t) covered

end Cert.KernelIdeal.Hand

end
-- ==== Proof.KIArrays.lean ====
/-
  The arrays the region finds, and the host line after it, read at indices.

  Before the region the host program reshapes the neighbour table [16, 1024, 32] to [16, 32768] (entry (b, C) is the
  table's (b, C / 32, C mod 32)); stacks the points' coordinates, transposed, on the 64 feature rows into one
  [16, 67, 4096] table, of which the kernel takes the first half as it is and as second half the table less itself —
  zero, the entries being real numbers; and spreads the centres' coordinates, padded with five zero rows, over the 32
  slots of each centre: [16, 8, 32768], entry (b, r, C) the centre C / 32's coordinate r, or zero for r ≥ 3. After the
  region the output [16, 67, 32768] is reshaped to [16, 67, 1024, 32]: entry (b, f, p, s) is the output's (b, f, 32 p + s).
-/
import proofs.«141127_j52785148067965_2_alg».proof.Proof.KIFrame
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen

section Terms

variable {F : FTy → Type} [FloatOps F]
variable (m : (ℓ : Loc nD τ sig) → Buf (Elt F) ℓ)

/-- The contents after two lines run one after the other. -/
theorem after_append' (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- The contents before the last stretch of host lines in front of the region. -/
abbrev W0 (c : Dev nD) : Valuation τ sig (Elt F) :=
  StableHlo.after (List.flatten [hostOps0, hostOps0_1, hostOps0_2, hostOps0_3, hostOps0_4, hostOps0_5]) (fun b => m (c, b))

theorem V0_split (c : Dev nD) : V0 m c = StableHlo.after hostOps0_6 (W0 m c) := by
  show StableHlo.after (List.flatten [hostOps0, hostOps0_1, hostOps0_2, hostOps0_3, hostOps0_4, hostOps0_5, hostOps0_6]) (fun b => m (c, b))
    = StableHlo.after hostOps0_6 (StableHlo.after (List.flatten [hostOps0, hostOps0_1, hostOps0_2, hostOps0_3, hostOps0_4, hostOps0_5]) (fun b => m (c, b)))
  rw [← after_append']
  refine congrArg (fun l => StableHlo.after l (fun b => m (c, b))) ?_
  simp only [List.flatten_cons, List.flatten_nil, List.append_nil, List.append_assoc]

/-- The earlier stretches write none of the three inputs. -/
theorem W0_arg (c : Dev nD) (r : Ref sig .tc) (hr : r = main_arg0 ∨ r = main_arg1 ∨ r = main_arg2) :
    W0 m c (Proc.devRef .tc r) = m ((c : Thread nD τ).loc r) := by
  rcases hr with rfl | rfl | rfl
  all_goals
    exact StableHlo.after_of_forall_not_mem (b := Proc.devRef .tc _) _ _ (List.forall_iff_forall_mem.mp (by
      simp only [hostOps0, hostOps0_1, hostOps0_2, hostOps0_3, hostOps0_4, hostOps0_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))

/-- The stacked table: the points' coordinates, transposed, above the features. -/
abbrev stacked (a0 : FVec F S16x4096x3 .f32) (a2 : FVec F S16x64x4096 .f32) : FVec F S16x67x4096 .f32 :=
  concatenate S16x67x4096 1 [⟨S16x3x4096, transpose S16x3x4096 [0, 2, 1] a0 transposes_S16x4096x3_S16x3x4096_0_2_1⟩, ⟨S16x64x4096, a2⟩]
    concatenates_S16x3x4096_S16x64x4096_S16x67x4096_d1

/-- The centres' coordinates, transposed, above five zero rows. -/
abbrev padded (a1 : FVec F S16x1024x3 .f32) : FVec F S16x8x1024 .f32 :=
  concatenate S16x8x1024 1 [⟨S16x3x1024, transpose S16x3x1024 [0, 2, 1] a1 transposes_S16x1024x3_S16x3x1024_0_2_1⟩,
      ⟨S16x5x1024, broadcastInDim S16x5x1024 ![] bcast_S_S16x5x1024 (constant S_ .f32 0x00000000#32)⟩]
    concatenates_S16x3x1024_S16x5x1024_S16x8x1024_d1

theorem V_v59_pre (c : Dev nD) : V m c main_v59 = W0 m c (Proc.devRef .tc main_v59) := by
  show V0 m c (Proc.devRef .tc main_v59) = _
  rw [V0_split]
  dsimp only [hostOps0_6]
  after_results

theorem V_v60 (c : Dev nD) :
    V m c main_v60 = fun i => (shapeCast S16x32768 (V m c main_v59) shapeCasts_S16x1024x32_S16x32768 : IVec S16x32768 32) i := by
  rw [V_v59_pre]
  show V0 m c (Proc.devRef .tc main_v60) = _
  rw [V0_split]
  dsimp only [hostOps0_6]
  after_results
  rfl

theorem V_v64 (c : Dev nD) :
    V m c main_v64 = truncf .bf16 (stacked (m ((c : Thread nD τ).loc main_arg0)) (m ((c : Thread nD τ).loc main_arg2))) bitsLt_bf16_f32 := by
  show V0 m c (Proc.devRef .tc main_v64) = _
  rw [V0_split]
  dsimp only [hostOps0_6]
  after_results
  rw [W0_arg m c main_arg0 (.inl rfl), W0_arg m c main_arg2 (.inr (.inr rfl))]

theorem V_v67 (c : Dev nD) :
    V m c main_v67 = truncf .bf16 (subf (stacked (m ((c : Thread nD τ).loc main_arg0)) (m ((c : Thread nD τ).loc main_arg2)))
      (extf .f32 (truncf .bf16 (stacked (m ((c : Thread nD τ).loc main_arg0)) (m ((c : Thread nD τ).loc main_arg2))) bitsLt_bf16_f32) bitsLt_bf16_f32)) bitsLt_bf16_f32 := by
  show V0 m c (Proc.devRef .tc main_v67) = _
  rw [V0_split]
  dsimp only [hostOps0_6]
  after_results
  rw [W0_arg m c main_arg0 (.inl rfl), W0_arg m c main_arg2 (.inr (.inr rfl))]

theorem V_v71 (c : Dev nD) :
    V m c main_v71 = fun i => (shapeCast S16x8x32768 (broadcastInDim S16x8x1024x32 ![0, 1, 2] bcast_S16x8x1024_S16x8x1024x32_0_1_2
      (padded (m ((c : Thread nD τ).loc main_arg1)))) shapeCasts_S16x8x1024x32_S16x8x32768 : FVec F S16x8x32768 .f32) i := by
  show V0 m c (Proc.devRef .tc main_v71) = _
  rw [V0_split]
  dsimp only [hostOps0_6]
  after_results
  rw [W0_arg m c main_arg1 (.inr (.inl rfl))]
  rfl

end Terms

/-! ## The arrays at indices, at the ideal instance -/

section AtIdeal

variable (m : (ℓ : Loc nD τ sig) → Buf (Elt Ideal) ℓ)

/-- The stacked table at (b, f, n): point n's coordinate f on the first three rows, feature f - 3 of point n below. -/
theorem stacked_at (a0 : FVec Ideal S16x4096x3 .f32) (a2 : FVec Ideal S16x64x4096 .f32) (b : Fin 16) (f : Fin 67) (n : Fin 4096) :
    stacked a0 a2 (ix3 b f n)
      = if h : f.val < 3 then a0 (ix3 b n ⟨f.val, h⟩) else a2 (ix3 b ⟨f.val - 3, by omega⟩ n) := by
  by_cases h : f.val < 3
  · rw [dif_pos h]
    refine (concatenate_pair_apply_left (t := S16x67x4096) (s₁ := S16x3x4096) (s₂ := S16x64x4096) (1 : Fin 3)
      (transpose S16x3x4096 [0, 2, 1] a0 transposes_S16x4096x3_S16x3x4096_0_2_1) a2
      concatenates_S16x3x4096_S16x64x4096_S16x67x4096_d1 (ix3 b f n) rfl
      (ix3 b (⟨f.val, h⟩ : Fin 3) n) (fun ax => by
        match ax with
        | ⟨0, _⟩ => rfl
        | ⟨1, _⟩ => rfl
        | ⟨2, _⟩ => rfl)).trans ?_
    exact transpose_ix3_021_apply a0 _ b ⟨f.val, h⟩ n
  · rw [dif_neg h]
    exact concatenate_pair_apply_right (t := S16x67x4096) (s₁ := S16x3x4096) (s₂ := S16x64x4096) (1 : Fin 3)
      (transpose S16x3x4096 [0, 2, 1] a0 transposes_S16x4096x3_S16x3x4096_0_2_1) a2
      concatenates_S16x3x4096_S16x64x4096_S16x67x4096_d1 (ix3 b f n) rfl rfl
      (ix3 b (⟨f.val - 3, by omega⟩ : Fin 64) n) (fun ax hax => by
        match ax with
        | ⟨0, _⟩ => rfl
        | ⟨1, _⟩ => exact absurd rfl hax
        | ⟨2, _⟩ => rfl) (by show f.val - 3 + 3 = f.val; omega)

/-- The padded centres at (b, r, p): centre p's coordinate r on the first three rows, zero below. -/
theorem padded_at (a1 : FVec Ideal S16x1024x3 .f32) (b : Fin 16) (r : Fin 8) (p : Fin 1024) :
    padded a1 (ix3 b r p) = if h : r.val < 3 then a1 (ix3 b p ⟨r.val, h⟩) else (0 : EReal) := by
  by_cases h : r.val < 3
  · rw [dif_pos h]
    refine (concatenate_pair_apply_left (t := S16x8x1024) (s₁ := S16x3x1024) (s₂ := S16x5x1024) (1 : Fin 3)
      (transpose S16x3x1024 [0, 2, 1] a1 transposes_S16x1024x3_S16x3x1024_0_2_1)
      (broadcastInDim S16x5x1024 ![] bcast_S_S16x5x1024 (constant (F := Ideal) S_ .f32 0x00000000#32))
      concatenates_S16x3x1024_S16x5x1024_S16x8x1024_d1 (ix3 b r p) rfl
      (ix3 b (⟨r.val, h⟩ : Fin 3) p) (fun ax => by
        match ax with
        | ⟨0, _⟩ => rfl
        | ⟨1, _⟩ => rfl
        | ⟨2, _⟩ => rfl)).trans ?_
    exact transpose_ix3_021_apply a1 _ b ⟨r.val, h⟩ p
  · rw [dif_neg h]
    refine (concatenate_pair_apply_right (t := S16x8x1024) (s₁ := S16x3x1024) (s₂ := S16x5x1024) (1 : Fin 3)
      (transpose S16x3x1024 [0, 2, 1] a1 transposes_S16x1024x3_S16x3x1024_0_2_1)
      (broadcastInDim S16x5x1024 ![] bcast_S_S16x5x1024 (constant (F := Ideal) S_ .f32 0x00000000#32))
      concatenates_S16x3x1024_S16x5x1024_S16x8x1024_d1 (ix3 b r p) rfl rfl
      (ix3 b (⟨r.val - 3, by omega⟩ : Fin 5) p) (fun ax hax => by
        match ax with
        | ⟨0, _⟩ => rfl
        | ⟨1, _⟩ => exact absurd rfl hax
        | ⟨2, _⟩ => rfl) (by show r.val - 3 + 3 = r.val; omega)).trans ?_
    rw [broadcastInDim_scalar_apply]
    exact Ideal.ofBits_zero_f32

theorem idx_at (c : Dev nD) (b : Fin 16) (C : Fin 32768) :
    (V m c main_v60 : IVec S16x32768 32) (ix2 b C)
      = (V m c main_v59 : IVec S16x1024x32 32) (ix3 b ⟨C.val / 32, by omega⟩ ⟨C.val % 32, Nat.mod_lt _ (by norm_num)⟩) := by
  rw [V_v60]
  refine shapeCast_apply _ _ _ _ ?_
  show ((⟨3, ![16, 1024, 32]⟩ : Shape).rowMajor (ix3 b (⟨C.val / 32, by omega⟩ : Fin 1024) (⟨C.val % 32, Nat.mod_lt _ (by norm_num)⟩ : Fin 32))).val
    = ((⟨2, ![16, 32768]⟩ : Shape).rowMajor (ix2 b C)).val
  rw [Shape.rowMajor_val_three, Shape.rowMajor_val_two]
  show (b.val * 1024 + C.val / 32) * 32 + C.val % 32 = b.val * 32768 + C.val
  omega

theorem hi_at (c : Dev nD) (b : Fin 16) (f : Fin 67) (n : Fin 4096) :
    (V m c main_v64 : FVec Ideal S16x67x4096 .bf16) (ix3 b f n)
      = if h : f.val < 3 then m ((c : Thread nD τ).loc main_arg0) (ix3 b n ⟨f.val, h⟩)
        else m ((c : Thread nD τ).loc main_arg2) (ix3 b ⟨f.val - 3, by omega⟩ n) := by
  rw [V_v64]
  exact stacked_at _ _ b f n

theorem lo_at (c : Dev nD) (hfin0 : ∀ i, ∃ r : ℝ, m ((c : Thread nD τ).loc main_arg0) i = (r : EReal))
    (hfin2 : ∀ i, ∃ r : ℝ, m ((c : Thread nD τ).loc main_arg2) i = (r : EReal)) (b : Fin 16) (f : Fin 67) (n : Fin 4096) :
    (V m c main_v67 : FVec Ideal S16x67x4096 .bf16) (ix3 b f n) = (0 : EReal) := by
  rw [V_v67]
  show stacked (F := Ideal) _ _ (ix3 b f n) - stacked (F := Ideal) _ _ (ix3 b f n) = (0 : EReal)
  rw [stacked_at]
  by_cases h : f.val < 3
  · rw [dif_pos h]
    obtain ⟨r, hr⟩ := hfin0 (ix3 b n ⟨f.val, h⟩)
    rw [hr, ← EReal.coe_sub, sub_self]; rfl
  · rw [dif_neg h]
    obtain ⟨r, hr⟩ := hfin2 (ix3 b ⟨f.val - 3, by omega⟩ n)
    rw [hr, ← EReal.coe_sub, sub_self]; rfl

theorem cent_at (c : Dev nD) (b : Fin 16) (r : Fin 8) (C : Fin 32768) :
    (V m c main_v71 : FVec Ideal S16x8x32768 .f32) (ix3 b r C)
      = if h : r.val < 3 then m ((c : Thread nD τ).loc main_arg1) (ix3 b ⟨C.val / 32, by omega⟩ ⟨r.val, h⟩) else (0 : EReal) := by
  rw [V_v71]
  refine (shapeCast_apply _ _ _ (ix4 b r (⟨C.val / 32, by omega⟩ : Fin 1024) (⟨C.val % 32, Nat.mod_lt _ (by norm_num)⟩ : Fin 32)) ?_).trans ?_
  · show ((⟨4, ![16, 8, 1024, 32]⟩ : Shape).rowMajor (ix4 b r (⟨C.val / 32, by omega⟩ : Fin 1024) (⟨C.val % 32, Nat.mod_lt _ (by norm_num)⟩ : Fin 32))).val
      = ((⟨3, ![16, 8, 32768]⟩ : Shape).rowMajor (ix3 b r C)).val
    rw [Shape.rowMajor_val_four, Shape.rowMajor_val_three]
    show ((b.val * 8 + r.val) * 1024 + C.val / 32) * 32 + C.val % 32 = (b.val * 8 + r.val) * 32768 + C.val
    omega
  · refine (broadcastInDim_apply _ _ _ _ (ix3 b r (⟨C.val / 32, by omega⟩ : Fin 1024)) (fun ax => by
      match ax with
      | ⟨0, _⟩ => rfl
      | ⟨1, _⟩ => rfl
      | ⟨2, _⟩ => rfl)).trans ?_
    exact padded_at _ b r _

end AtIdeal

end Cert.KernelIdeal.Hand

end
-- ==== Proof.KIIdx.lean ====
import proofs.«141127_j52785148067965_2_alg».proof.KernelIdeal

/-!
# The neighbour index table of the ball query, as a pure function

For every batch and centre, the host prelude computes the squared distances from the centre to all
4096 points, marks the points closer than the radius, ranks the marked points by a running count,
scatters each of the first 32 marked points' own number into the slot of its rank (every other point
into a 33rd, discarded, slot), drops that slot, and overwrites the slots past the number of marked
points with the first slot's entry.  Each definition below is one line, or a few, of that prelude:
the same pure operation applied to the earlier definitions, so that the whole table is a composition
whose last steps (scat, filled, idx59) can be read directly.
-/

noncomputable section

namespace Cert.KernelIdeal.Hand

open Cert.KernelIdeal Idealize.ShloMosaic

variable {F : FTy → Type} [FloatOps F]
variable [Facts]
open Facts₀ Facts

/-! ## Squared distances and the in-radius mask -/

/-- The coordinate differences centre minus point, over batch, centre, point and axis. -/
def diff (x0 : (⟨S16x4096x3, .f32⟩ : BufTy).Contents (Elt F)) (x1 : (⟨S16x1024x3, .f32⟩ : BufTy).Contents (Elt F)) : (⟨S16x1024x4096x3, .f32⟩ : BufTy).Contents (Elt F) :=
  subf
    (broadcastInDim S16x1024x4096x3 ![0, 1, 2, 3] bcast_S16x1024x1x3_S16x1024x4096x3_0_1_2_3
      (broadcastInDim S16x1024x1x3 ![0, 1, 3] bcast_S16x1024x3_S16x1024x1x3_0_1_3 x1))
    (broadcastInDim S16x1024x4096x3 ![0, 1, 2, 3] bcast_S16x1x4096x3_S16x1024x4096x3_0_1_2_3
      (broadcastInDim S16x1x4096x3 ![0, 2, 3] bcast_S16x4096x3_S16x1x4096x3_0_2_3 x0))

/-- The squared distance from each centre to each point: the squares summed over the axis. -/
def dist2 (x0 : (⟨S16x4096x3, .f32⟩ : BufTy).Contents (Elt F)) (x1 : (⟨S16x1024x3, .f32⟩ : BufTy).Contents (Elt F)) : (⟨S16x1024x4096, .f32⟩ : BufTy).Contents (Elt F) :=
  Host.reduceAdd (mulf (diff x0 x1) (diff x0 x1)) (constant S_ .f32 0x00000000#32)
    reducesTo_S16x1024x4096x3_S16x1024x4096_d3 h_S_

/-- The mask of the points strictly inside the ball (the literal is the squared radius). -/
def mask (x0 : (⟨S16x4096x3, .f32⟩ : BufTy).Contents (Elt F)) (x1 : (⟨S16x1024x3, .f32⟩ : BufTy).Contents (Elt F)) : (⟨S16x1024x4096, .i1⟩ : BufTy).Contents (Elt F) :=
  cmpf .olt (dist2 x0 x1)
    (broadcastInDim S16x1024x4096 ![] bcast_S_S16x1024x4096 (constant S_ .f32 0x3D23D70A#32))

/-- The running count of marked points along the point axis (a window sum over the 4096 entries
    ending at each point): the 1-based rank of a marked point among the marked ones. -/
def order (x0 : (⟨S16x4096x3, .f32⟩ : BufTy).Contents (Elt F)) (x1 : (⟨S16x1024x3, .f32⟩ : BufTy).Contents (Elt F)) : (⟨S16x1024x4096, .i32⟩ : BufTy).Contents (Elt F) :=
  Host.reduceWindow IntOp.addi ![1, 1, 4096] ![1, 1, 1] ![0, 0, 4095] ![0, 0, 0]
    (extui 32 (mask x0 x1) natLt_1_32)
    (broadcastInDim S_ ![] bcast_S_S_ (constantI S_ 32 0#32))
    reduceWindows_S16x1024x4096_S16x1024x4096_w1s1p0_0_w1s1p0_0_w4096s1p4095_0 h_S_

/-- The number of marked points of each centre: the running count at the last point. -/
def cnt (x0 : (⟨S16x4096x3, .f32⟩ : BufTy).Contents (Elt F)) (x1 : (⟨S16x1024x3, .f32⟩ : BufTy).Contents (Elt F)) : (⟨S16x1024, .i32⟩ : BufTy).Contents (Elt F) :=
  shapeCast S16x1024
    (extractStridedSlice S16x1024x1 ![0, 0, 4095] (order x0 x1) slices_S16x1024x4096_S16x1024x1_0_0_4095)
    shapeCasts_S16x1024x1_S16x1024

/-! ## The slot of each point -/

/-- The slot a point is scattered to: its rank minus one when it is marked and among the first 32
    marked points, the discarded slot 32 otherwise. -/
def slot (x0 : (⟨S16x4096x3, .f32⟩ : BufTy).Contents (Elt F)) (x1 : (⟨S16x1024x3, .f32⟩ : BufTy).Contents (Elt F)) : (⟨S16x1024x4096, .i32⟩ : BufTy).Contents (Elt F) :=
  select
    (andi (mask x0 x1) (cmpi .sle (order x0 x1) (broadcastInDim S16x1024x4096 ![] bcast_S_S16x1024x4096 (constantI S_ 32 32#32))))
    (subi (order x0 x1) (broadcastInDim S16x1024x4096 ![] bcast_S_S16x1024x4096 (constantI S_ 32 1#32)))
    (broadcastInDim S16x1024x4096 ![] bcast_S_S16x1024x4096 (id (constantI S_ 32 32#32)))

/-- The slot with a negative value wrapped by the axis length 33 (it never is negative; the wrap is
    how an index expression reads). -/
def slotN (x0 : (⟨S16x4096x3, .f32⟩ : BufTy).Contents (Elt F)) (x1 : (⟨S16x1024x3, .f32⟩ : BufTy).Contents (Elt F)) : (⟨S16x1024x4096, .i32⟩ : BufTy).Contents (Elt F) :=
  select (cmpi .slt (slot x0 x1) (broadcastInDim S16x1024x4096 ![] bcast_S_S16x1024x4096 (constantI S_ 32 0#32)))
    (addi (slot x0 x1) (broadcastInDim S16x1024x4096 ![] bcast_S_S16x1024x4096 (constantI S_ 32 33#32)))
    (slot x0 x1)

/-- The batch coordinate of a scatter index: the batch's own number (wrapped as above). -/
def bbN : IVec S16x1x1 32 :=
  select
    (cmpi .slt (broadcastInDim S16x1x1 ![0] bcast_S16_S16x1x1_0 (iotaInDim S16 32 0)) (broadcastInDim S16x1x1 ![] bcast_S_S16x1x1 (constantI S_ 32 0#32)))
    (addi (broadcastInDim S16x1x1 ![0] bcast_S16_S16x1x1_0 (iotaInDim S16 32 0)) (broadcastInDim S16x1x1 ![] bcast_S_S16x1x1 (constantI S_ 32 16#32)))
    (broadcastInDim S16x1x1 ![0] bcast_S16_S16x1x1_0 (iotaInDim S16 32 0))

/-- The centre coordinate of a scatter index: the centre's own number (wrapped as above). -/
def ppN : IVec S1x1024x1 32 :=
  select
    (cmpi .slt (broadcastInDim S1x1024x1 ![1] bcast_S1024_S1x1024x1_1 (iotaInDim S1024 32 0)) (broadcastInDim S1x1024x1 ![] bcast_S_S1x1024x1 (constantI S_ 32 0#32)))
    (addi (broadcastInDim S1x1024x1 ![1] bcast_S1024_S1x1024x1_1 (iotaInDim S1024 32 0)) (broadcastInDim S1x1024x1 ![] bcast_S_S1x1024x1 (constantI S_ 32 1024#32)))
    (broadcastInDim S1x1024x1 ![1] bcast_S1024_S1x1024x1_1 (iotaInDim S1024 32 0))

/-- The scatter indices: for each batch, centre and point the triple (batch, centre, slot). -/
def indices (x0 : (⟨S16x4096x3, .f32⟩ : BufTy).Contents (Elt F)) (x1 : (⟨S16x1024x3, .f32⟩ : BufTy).Contents (Elt F)) : (⟨S16x1024x4096x3, .i32⟩ : BufTy).Contents (Elt F) :=
  concatenate S16x1024x4096x3 3
    [⟨S16x1024x4096x1, broadcastInDim S16x1024x4096x1 ![0, 1, 2] bcast_S16x1024x4096_S16x1024x4096x1_0_1_2
        (broadcastInDim S16x1024x4096 ![0, 1, 2] bcast_S16x1x1_S16x1024x4096_0_1_2 bbN)⟩,
     ⟨S16x1024x4096x1, broadcastInDim S16x1024x4096x1 ![0, 1, 2] bcast_S16x1024x4096_S16x1024x4096x1_0_1_2
        (broadcastInDim S16x1024x4096 ![0, 1, 2] bcast_S1x1024x1_S16x1024x4096_0_1_2 ppN)⟩,
     ⟨S16x1024x4096x1, broadcastInDim S16x1024x4096x1 ![0, 1, 2] bcast_S16x1024x4096_S16x1024x4096x1_0_1_2
        (slotN x0 x1)⟩]
    concatenates_S16x1024x4096x1_S16x1024x4096x1_S16x1024x4096x1_S16x1024x4096x3_d3

/-! ## The scatter and the fill -/

/-- The table the scatter starts from: zero in all 33 slots. -/
def zeros33 : IVec S16x1024x33 32 :=
  broadcastInDim S16x1024x33 ![] bcast_S_S16x1024x33 (constantI S_ 32 0#32)

/-- The values scattered: each point's own number, for every batch and centre. -/
def nn : IVec S16x1024x4096 32 :=
  broadcastInDim S16x1024x4096 ![0, 1, 2] bcast_S1x1x4096_S16x1024x4096_0_1_2
    (broadcastInDim S1x1x4096 ![2] bcast_S4096_S1x1x4096_2 (iotaInDim S4096 32 0))

/-- The scattered table: each point's number written into its slot, the points taken in order. -/
def scat (x0 : (⟨S16x4096x3, .f32⟩ : BufTy).Contents (Elt F)) (x1 : (⟨S16x1024x3, .f32⟩ : BufTy).Contents (Elt F)) : (⟨S16x1024x33, .i32⟩ : BufTy).Contents (Elt F) :=
  Host.scatter scatter_S16x1024x33_S16x1024x4096x3_S16x1024x4096_n_012_012_3 (fun _ b => b)
    zeros33 (indices x0 x1) nn

/-- The table without the discarded slot. -/
def scat32 (x0 : (⟨S16x4096x3, .f32⟩ : BufTy).Contents (Elt F)) (x1 : (⟨S16x1024x3, .f32⟩ : BufTy).Contents (Elt F)) : (⟨S16x1024x32, .i32⟩ : BufTy).Contents (Elt F) :=
  extractStridedSlice S16x1024x32 ![0, 0, 0] (scat x0 x1) slices_S16x1024x33_S16x1024x32_0_0_0

/-- The mask of the slots that hold a marked point: slot number below the smaller of the count and 32. -/
def filled (x0 : (⟨S16x4096x3, .f32⟩ : BufTy).Contents (Elt F)) (x1 : (⟨S16x1024x3, .f32⟩ : BufTy).Contents (Elt F)) : (⟨S16x1024x32, .i1⟩ : BufTy).Contents (Elt F) :=
  cmpi .slt
    (broadcastInDim S16x1024x32 ![0, 1, 2] bcast_S1x1x32_S16x1024x32_0_1_2
      (broadcastInDim S1x1x32 ![2] bcast_S32_S1x1x32_2 (iotaInDim S32 32 0)))
    (broadcastInDim S16x1024x32 ![0, 1, 2] bcast_S16x1024x1_S16x1024x32_0_1_2
      (broadcastInDim S16x1024x1 ![0, 1] bcast_S16x1024_S16x1024x1_0_1
        (minsi (cnt x0 x1) (broadcastInDim S16x1024 ![] bcast_S_S16x1024 (constantI S_ 32 32#32)))))

/-- The neighbour table: a filled slot keeps its entry, an unfilled one takes slot 0's. -/
def idx59 (x0 : (⟨S16x4096x3, .f32⟩ : BufTy).Contents (Elt F)) (x1 : (⟨S16x1024x3, .f32⟩ : BufTy).Contents (Elt F)) : (⟨S16x1024x32, .i32⟩ : BufTy).Contents (Elt F) :=
  select (filled x0 x1) (scat32 x0 x1)
    (broadcastInDim S16x1024x32 ![0, 1, 2] bcast_S16x1024x1_S16x1024x32_0_1_2
      (extractStridedSlice S16x1024x1 ![0, 0, 0] (scat32 x0 x1) slices_S16x1024x32_S16x1024x1_0_0_0))

end Cert.KernelIdeal.Hand

end
-- ==== Proof.KIHost.lean ====
/- The neighbour index table as the kernel program's host operations compute it: the buffer the table lands in,
   when the region is entered, holds the pure composition of the table's stages applied to the first two argument
   arrays. The fold over the operations is read in two steps, cut at the one operation with three operands (the
   scatter indices, three coordinate arrays side by side): what the buffers hold when the three coordinate arrays
   have been written, and from those the table. -/
import proofs.«141127_j52785148067965_2_alg».proof.Proof.KIFrameKit
import proofs.«141127_j52785148067965_2_alg».proof.Proof.KIIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.StableHlo

variable {F : FTy → Type} [FloatOps F]

/-! ## The long stretch cut at the scatter indices -/

/-- The index coordinates, the table of zeros, the values scattered and the three coordinate arrays: the 35
    operations of the fifth stretch before the scatter indices. -/
abbrev hostOps0_4a : List (HloOp τ sig (Elt F)) :=
  [ StableHlo.nullary main_v19 (iotaInDim S16 32 0),
    StableHlo.unary main_v19 main_v20 (broadcastInDim S16x1x1 ![0] bcast_S16_S16x1x1_0 : (⟨S16, .i32⟩ : BufTy).Contents (Elt F) → (⟨S16x1x1, .i32⟩ : BufTy).Contents (Elt F)),
    StableHlo.nullary main_v21 (iotaInDim S1024 32 0),
    StableHlo.unary main_v21 main_v22 (broadcastInDim S1x1024x1 ![1] bcast_S1024_S1x1024x1_1 : (⟨S1024, .i32⟩ : BufTy).Contents (Elt F) → (⟨S1x1024x1, .i32⟩ : BufTy).Contents (Elt F)),
    StableHlo.nullary main_v23 (iotaInDim S4096 32 0),
    StableHlo.unary main_v23 main_v24 (broadcastInDim S1x1x4096 ![2] bcast_S4096_S1x1x4096_2 : (⟨S4096, .i32⟩ : BufTy).Contents (Elt F) → (⟨S1x1x4096, .i32⟩ : BufTy).Contents (Elt F)),
    StableHlo.unary main_v24 main_v25 (broadcastInDim S16x1024x4096 ![0, 1, 2] bcast_S1x1x4096_S16x1024x4096_0_1_2 : (⟨S1x1x4096, .i32⟩ : BufTy).Contents (Elt F) → (⟨S16x1024x4096, .i32⟩ : BufTy).Contents (Elt F)),
    StableHlo.nullary main_c_3 (constantI S_ 32 0#32),
    StableHlo.unary main_c_3 main_v26 (broadcastInDim S16x1024x33 ![] bcast_S_S16x1024x33 : (⟨S_, .i32⟩ : BufTy).Contents (Elt F) → (⟨S16x1024x33, .i32⟩ : BufTy).Contents (Elt F)),
    StableHlo.nullary main_c_4 (constantI S_ 32 0#32),
    StableHlo.unary main_c_4 main_v27 (broadcastInDim S16x1x1 ![] bcast_S_S16x1x1 : (⟨S_, .i32⟩ : BufTy).Contents (Elt F) → (⟨S16x1x1, .i32⟩ : BufTy).Contents (Elt F)),
    StableHlo.binary main_v20 main_v27 main_v28 (cmpi .slt : (⟨S16x1x1, .i32⟩ : BufTy).Contents (Elt F) → (⟨S16x1x1, .i32⟩ : BufTy).Contents (Elt F) → (⟨S16x1x1, .i1⟩ : BufTy).Contents (Elt F)),
    StableHlo.nullary main_c_5 (constantI S_ 32 16#32),
    StableHlo.unary main_c_5 main_v29 (broadcastInDim S16x1x1 ![] bcast_S_S16x1x1 : (⟨S_, .i32⟩ : BufTy).Contents (Elt F) → (⟨S16x1x1, .i32⟩ : BufTy).Contents (Elt F)),
    StableHlo.binary main_v20 main_v29 main_v30 (addi : (⟨S16x1x1, .i32⟩ : BufTy).Contents (Elt F) → (⟨S16x1x1, .i32⟩ : BufTy).Contents (Elt F) → (⟨S16x1x1, .i32⟩ : BufTy).Contents (Elt F)),
    StableHlo.ternary main_v28 main_v30 main_v20 main_v31 (select : (⟨S16x1x1, .i1⟩ : BufTy).Contents (Elt F) → (⟨S16x1x1, .i32⟩ : BufTy).Contents (Elt F) → (⟨S16x1x1, .i32⟩ : BufTy).Contents (Elt F) → (⟨S16x1x1, .i32⟩ : BufTy).Contents (Elt F)),
    StableHlo.nullary main_c_6 (constantI S_ 32 0#32),
    StableHlo.unary main_c_6 main_v32 (broadcastInDim S1x1024x1 ![] bcast_S_S1x1024x1 : (⟨S_, .i32⟩ : BufTy).Contents (Elt F) → (⟨S1x1024x1, .i32⟩ : BufTy).Contents (Elt F)),
    StableHlo.binary main_v22 main_v32 main_v33 (cmpi .slt : (⟨S1x1024x1, .i32⟩ : BufTy).Contents (Elt F) → (⟨S1x1024x1, .i32⟩ : BufTy).Contents (Elt F) → (⟨S1x1024x1, .i1⟩ : BufTy).Contents (Elt F)),
    StableHlo.nullary main_c_7 (constantI S_ 32 1024#32),
    StableHlo.unary main_c_7 main_v34 (broadcastInDim S1x1024x1 ![] bcast_S_S1x1024x1 : (⟨S_, .i32⟩ : BufTy).Contents (Elt F) → (⟨S1x1024x1, .i32⟩ : BufTy).Contents (Elt F)),
    StableHlo.binary main_v22 main_v34 main_v35 (addi : (⟨S1x1024x1, .i32⟩ : BufTy).Contents (Elt F) → (⟨S1x1024x1, .i32⟩ : BufTy).Contents (Elt F) → (⟨S1x1024x1, .i32⟩ : BufTy).Contents (Elt F)),
    StableHlo.ternary main_v33 main_v35 main_v22 main_v36 (select : (⟨S1x1024x1, .i1⟩ : BufTy).Contents (Elt F) → (⟨S1x1024x1, .i32⟩ : BufTy).Contents (Elt F) → (⟨S1x1024x1, .i32⟩ : BufTy).Contents (Elt F) → (⟨S1x1024x1, .i32⟩ : BufTy).Contents (Elt F)),
    StableHlo.nullary main_c_8 (constantI S_ 32 0#32),
    StableHlo.unary main_c_8 main_v37 (broadcastInDim S16x1024x4096 ![] bcast_S_S16x1024x4096 : (⟨S_, .i32⟩ : BufTy).Contents (Elt F) → (⟨S16x1024x4096, .i32⟩ : BufTy).Contents (Elt F)),
    StableHlo.binary main_v18 main_v37 main_v38 (cmpi .slt : (⟨S16x1024x4096, .i32⟩ : BufTy).Contents (Elt F) → (⟨S16x1024x4096, .i32⟩ : BufTy).Contents (Elt F) → (⟨S16x1024x4096, .i1⟩ : BufTy).Contents (Elt F)),
    StableHlo.nullary main_c_9 (constantI S_ 32 33#32),
    StableHlo.unary main_c_9 main_v39 (broadcastInDim S16x1024x4096 ![] bcast_S_S16x1024x4096 : (⟨S_, .i32⟩ : BufTy).Contents (Elt F) → (⟨S16x1024x4096, .i32⟩ : BufTy).Contents (Elt F)),
    StableHlo.binary main_v18 main_v39 main_v40 (addi : (⟨S16x1024x4096, .i32⟩ : BufTy).Contents (Elt F) → (⟨S16x1024x4096, .i32⟩ : BufTy).Contents (Elt F) → (⟨S16x1024x4096, .i32⟩ : BufTy).Contents (Elt F)),
    StableHlo.ternary main_v38 main_v40 main_v18 main_v41 (select : (⟨S16x1024x4096, .i1⟩ : BufTy).Contents (Elt F) → (⟨S16x1024x4096, .i32⟩ : BufTy).Contents (Elt F) → (⟨S16x1024x4096, .i32⟩ : BufTy).Contents (Elt F) → (⟨S16x1024x4096, .i32⟩ : BufTy).Contents (Elt F)),
    StableHlo.unary main_v31 main_v42 (broadcastInDim S16x1024x4096 ![0, 1, 2] bcast_S16x1x1_S16x1024x4096_0_1_2 : (⟨S16x1x1, .i32⟩ : BufTy).Contents (Elt F) → (⟨S16x1024x4096, .i32⟩ : BufTy).Contents (Elt F)),
    StableHlo.unary main_v36 main_v43 (broadcastInDim S16x1024x4096 ![0, 1, 2] bcast_S1x1024x1_S16x1024x4096_0_1_2 : (⟨S1x1024x1, .i32⟩ : BufTy).Contents (Elt F) → (⟨S16x1024x4096, .i32⟩ : BufTy).Contents (Elt F)),
    StableHlo.unary main_v42 main_v44 (broadcastInDim S16x1024x4096x1 ![0, 1, 2] bcast_S16x1024x4096_S16x1024x4096x1_0_1_2 : (⟨S16x1024x4096, .i32⟩ : BufTy).Contents (Elt F) → (⟨S16x1024x4096x1, .i32⟩ : BufTy).Contents (Elt F)),
    StableHlo.unary main_v43 main_v45 (broadcastInDim S16x1024x4096x1 ![0, 1, 2] bcast_S16x1024x4096_S16x1024x4096x1_0_1_2 : (⟨S16x1024x4096, .i32⟩ : BufTy).Contents (Elt F) → (⟨S16x1024x4096x1, .i32⟩ : BufTy).Contents (Elt F)),
    StableHlo.unary main_v41 main_v46 (broadcastInDim S16x1024x4096x1 ![0, 1, 2] bcast_S16x1024x4096_S16x1024x4096x1_0_1_2 : (⟨S16x1024x4096, .i32⟩ : BufTy).Contents (Elt F) → (⟨S16x1024x4096x1, .i32⟩ : BufTy).Contents (Elt F)) ]
/-- The scatter indices, the three coordinate arrays side by side: 1 operation. -/
abbrev hostOps0_4n : List (HloOp τ sig (Elt F)) :=
  [ StableHlo.nary ![main_v44, main_v45, main_v46] main_v47 (fun u => concatenate S16x1024x4096x3 3 [⟨S16x1024x4096x1, u 0⟩, ⟨S16x1024x4096x1, u 1⟩, ⟨S16x1024x4096x1, u 2⟩] concatenates_S16x1024x4096x1_S16x1024x4096x1_S16x1024x4096x1_S16x1024x4096x3_d3) ]
/-- The scatter, the cut to 32 slots, the mask of filled slots and slot 0: the 12 operations after. -/
abbrev hostOps0_4b : List (HloOp τ sig (Elt F)) :=
  [ StableHlo.ternary main_v26 main_v47 main_v25 main_v48 ((fun x i u => Host.scatter scatter_S16x1024x33_S16x1024x4096x3_S16x1024x4096_n_012_012_3 (fun _ b => b) x i u) : (⟨S16x1024x33, .i32⟩ : BufTy).Contents (Elt F) → (⟨S16x1024x4096x3, .i32⟩ : BufTy).Contents (Elt F) → (⟨S16x1024x4096, .i32⟩ : BufTy).Contents (Elt F) → (⟨S16x1024x33, .i32⟩ : BufTy).Contents (Elt F)),
    StableHlo.unary main_v48 main_v49 ((extractStridedSlice S16x1024x32 ![0, 0, 0] · slices_S16x1024x33_S16x1024x32_0_0_0) : (⟨S16x1024x33, .i32⟩ : BufTy).Contents (Elt F) → (⟨S16x1024x32, .i32⟩ : BufTy).Contents (Elt F)),
    StableHlo.nullary main_v50 (iotaInDim S32 32 0),
    StableHlo.unary main_v50 main_v51 (broadcastInDim S1x1x32 ![2] bcast_S32_S1x1x32_2 : (⟨S32, .i32⟩ : BufTy).Contents (Elt F) → (⟨S1x1x32, .i32⟩ : BufTy).Contents (Elt F)),
    StableHlo.nullary main_c_10 (constantI S_ 32 32#32),
    StableHlo.unary main_c_10 main_v52 (broadcastInDim S16x1024 ![] bcast_S_S16x1024 : (⟨S_, .i32⟩ : BufTy).Contents (Elt F) → (⟨S16x1024, .i32⟩ : BufTy).Contents (Elt F)),
    StableHlo.binary main_v12 main_v52 main_v53 (minsi : (⟨S16x1024, .i32⟩ : BufTy).Contents (Elt F) → (⟨S16x1024, .i32⟩ : BufTy).Contents (Elt F) → (⟨S16x1024, .i32⟩ : BufTy).Contents (Elt F)),
    StableHlo.unary main_v53 main_v54 (broadcastInDim S16x1024x1 ![0, 1] bcast_S16x1024_S16x1024x1_0_1 : (⟨S16x1024, .i32⟩ : BufTy).Contents (Elt F) → (⟨S16x1024x1, .i32⟩ : BufTy).Contents (Elt F)),
    StableHlo.unary main_v51 main_v55 (broadcastInDim S16x1024x32 ![0, 1, 2] bcast_S1x1x32_S16x1024x32_0_1_2 : (⟨S1x1x32, .i32⟩ : BufTy).Contents (Elt F) → (⟨S16x1024x32, .i32⟩ : BufTy).Contents (Elt F)),
    StableHlo.unary main_v54 main_v56 (broadcastInDim S16x1024x32 ![0, 1, 2] bcast_S16x1024x1_S16x1024x32_0_1_2 : (⟨S16x1024x1, .i32⟩ : BufTy).Contents (Elt F) → (⟨S16x1024x32, .i32⟩ : BufTy).Contents (Elt F)),
    StableHlo.binary main_v55 main_v56 main_v57 (cmpi .slt : (⟨S16x1024x32, .i32⟩ : BufTy).Contents (Elt F) → (⟨S16x1024x32, .i32⟩ : BufTy).Contents (Elt F) → (⟨S16x1024x32, .i1⟩ : BufTy).Contents (Elt F)),
    StableHlo.unary main_v49 main_v58 ((extractStridedSlice S16x1024x1 ![0, 0, 0] · slices_S16x1024x32_S16x1024x1_0_0_0) : (⟨S16x1024x32, .i32⟩ : BufTy).Contents (Elt F) → (⟨S16x1024x1, .i32⟩ : BufTy).Contents (Elt F)) ]

/-- The fifth stretch is the three pieces in a row. -/
theorem hostOps0_4_cut : (hostOps0_4 : List (HloOp τ sig (Elt F))) = hostOps0_4a ++ (hostOps0_4n ++ hostOps0_4b) := rfl

/-- The scatter indices' buffer after the concatenation of the three coordinate arrays: the concatenation of what
    the three buffers held. -/
theorem v47_result' (G : Valuation τ sig (Elt F)) :
    (StableHlo.nary ![main_v44, main_v45, main_v46] main_v47 (fun u => concatenate S16x1024x4096x3 3 [⟨S16x1024x4096x1, u 0⟩, ⟨S16x1024x4096x1, u 1⟩, ⟨S16x1024x4096x1, u 2⟩] concatenates_S16x1024x4096x1_S16x1024x4096x1_S16x1024x4096x1_S16x1024x4096x3_d3) : HloOp τ sig (Elt F)).result G (no_index (Proc.devRef .tc main_v47))
      = concatenate S16x1024x4096x3 3 [⟨S16x1024x4096x1, G (Proc.devRef .tc main_v44)⟩, ⟨S16x1024x4096x1, G (Proc.devRef .tc main_v45)⟩, ⟨S16x1024x4096x1, G (Proc.devRef .tc main_v46)⟩] concatenates_S16x1024x4096x1_S16x1024x4096x1_S16x1024x4096x1_S16x1024x4096x3_d3 :=
  nary_result _ _ _ _ _ G

/-- The fold of a literal list of operations read at a buffer, in one pass: each operation's result at its own
    buffer is its function of the operands' contents, at any other buffer what was there. -/
macro "host_results" : tactic =>
  `(tactic| (simp (disch := decide) only [StableHlo.after_cons, StableHlo.after_nil,
      StableHlo.nullary_result', StableHlo.unary_result', StableHlo.binary_result', StableHlo.ternary_result', StableHlo.reshape_result', v47_result', cast_eq,
      StableHlo.nullary_result_ne', StableHlo.unary_result_ne', StableHlo.binary_result_ne', StableHlo.ternary_result_ne', StableHlo.reshape_result_ne', StableHlo.nary_result_ne']))

/-! ## Up to the scatter indices -/

/-- The buffers' contents when the three coordinate arrays have been written, from the contents `M` at launch. -/
def Wa (M : Valuation τ sig (Elt F)) : Valuation τ sig (Elt F) :=
  after hostOps0_4a (after hostOps0_3 (after hostOps0_2 (after hostOps0_1 (after hostOps0 M))))

variable (M : Valuation τ sig (Elt F))

set_option maxHeartbeats 1000000 in
theorem wa_v12 : Wa M (Proc.devRef .tc main_v12) = cnt (M (Proc.devRef .tc main_arg0)) (M (Proc.devRef .tc main_arg1)) := by
  unfold Wa; simp only [hostOps0, hostOps0_1, hostOps0_2, hostOps0_3, hostOps0_4a]; host_results; rfl
set_option maxHeartbeats 1000000 in
theorem wa_v25 : Wa M (Proc.devRef .tc main_v25) = nn := by
  unfold Wa; simp only [hostOps0, hostOps0_1, hostOps0_2, hostOps0_3, hostOps0_4a]; host_results; rfl
set_option maxHeartbeats 1000000 in
theorem wa_v26 : Wa M (Proc.devRef .tc main_v26) = zeros33 := by
  unfold Wa; simp only [hostOps0, hostOps0_1, hostOps0_2, hostOps0_3, hostOps0_4a]; host_results; rfl
set_option maxHeartbeats 1000000 in
theorem wa_v44 : Wa M (Proc.devRef .tc main_v44) = broadcastInDim S16x1024x4096x1 ![0, 1, 2] bcast_S16x1024x4096_S16x1024x4096x1_0_1_2 (broadcastInDim S16x1024x4096 ![0, 1, 2] bcast_S16x1x1_S16x1024x4096_0_1_2 bbN) := by
  unfold Wa; simp only [hostOps0, hostOps0_1, hostOps0_2, hostOps0_3, hostOps0_4a]; host_results; rfl
set_option maxHeartbeats 1000000 in
theorem wa_v45 : Wa M (Proc.devRef .tc main_v45) = broadcastInDim S16x1024x4096x1 ![0, 1, 2] bcast_S16x1024x4096_S16x1024x4096x1_0_1_2 (broadcastInDim S16x1024x4096 ![0, 1, 2] bcast_S1x1024x1_S16x1024x4096_0_1_2 ppN) := by
  unfold Wa; simp only [hostOps0, hostOps0_1, hostOps0_2, hostOps0_3, hostOps0_4a]; host_results; rfl
set_option maxHeartbeats 1000000 in
theorem wa_v46 : Wa M (Proc.devRef .tc main_v46) = broadcastInDim S16x1024x4096x1 ![0, 1, 2] bcast_S16x1024x4096_S16x1024x4096x1_0_1_2 (slotN (M (Proc.devRef .tc main_arg0)) (M (Proc.devRef .tc main_arg1))) := by
  unfold Wa; simp only [hostOps0, hostOps0_1, hostOps0_2, hostOps0_3, hostOps0_4a]; host_results; rfl

/-! ## From there to the neighbour table -/

set_option maxHeartbeats 1000000 in
/-- From any contents holding the count per centre, the values scattered, the table of zeros and the three coordinate
    arrays, the scatter and the fill leave the neighbour table in its buffer. -/
theorem idx_of (W : Valuation τ sig (Elt F)) (x0 : (⟨S16x4096x3, .f32⟩ : BufTy).Contents (Elt F)) (x1 : (⟨S16x1024x3, .f32⟩ : BufTy).Contents (Elt F))
    (h12 : W (Proc.devRef .tc main_v12) = cnt x0 x1) (h25 : W (Proc.devRef .tc main_v25) = nn) (h26 : W (Proc.devRef .tc main_v26) = zeros33)
    (h44 : W (Proc.devRef .tc main_v44) = broadcastInDim S16x1024x4096x1 ![0, 1, 2] bcast_S16x1024x4096_S16x1024x4096x1_0_1_2 (broadcastInDim S16x1024x4096 ![0, 1, 2] bcast_S16x1x1_S16x1024x4096_0_1_2 bbN))
    (h45 : W (Proc.devRef .tc main_v45) = broadcastInDim S16x1024x4096x1 ![0, 1, 2] bcast_S16x1024x4096_S16x1024x4096x1_0_1_2 (broadcastInDim S16x1024x4096 ![0, 1, 2] bcast_S1x1024x1_S16x1024x4096_0_1_2 ppN))
    (h46 : W (Proc.devRef .tc main_v46) = broadcastInDim S16x1024x4096x1 ![0, 1, 2] bcast_S16x1024x4096_S16x1024x4096x1_0_1_2 (slotN x0 x1)) :
    after hostOps0_5 (after hostOps0_4b (after hostOps0_4n W)) (Proc.devRef .tc main_v59) = idx59 x0 x1 := by
  simp only [hostOps0_5, hostOps0_4b, hostOps0_4n]; host_results
  rw [h12, h25, h26, h44, h45, h46]
  rfl

/-- The last stretch before the region does not write the table's buffer. -/
theorem keep6_v59 (W : Valuation τ sig (Elt F)) : after hostOps0_6 W (Proc.devRef .tc main_v59) = W (Proc.devRef .tc main_v59) := by
  simp only [hostOps0_6]; host_results

/-! ## The table when the region is entered -/

variable (m : (ℓ : Loc nD τ sig) → Buf (Elt F) ℓ)

/-- The region-entry contents as the fold cut at the scatter indices. -/
theorem V0_cut (c : Dev nD) : V0 m c = after hostOps0_6 (after hostOps0_5 (after hostOps0_4b (after hostOps0_4n (Wa (fun b => m (c, b)))))) := by
  unfold Wa
  show after (List.flatten [hostOps0, hostOps0_1, hostOps0_2, hostOps0_3, hostOps0_4, hostOps0_5, hostOps0_6]) _ = _
  rw [hostOps0_4_cut]
  simp only [List.flatten_cons, List.flatten_nil, List.append_nil, StableHlo.after_append]

/-- When the region is entered, the table's buffer holds the neighbour table of the first two argument arrays as
    launched. -/
theorem V_v59 (c : Dev nD) : V m c main_v59 = idx59 (m ((c : Thread nD τ).loc main_arg0)) (m ((c : Thread nD τ).loc main_arg1)) := by
  show V0 m c (Proc.devRef .tc main_v59) = _
  rw [V0_cut, keep6_v59, idx_of _ _ _ (wa_v12 _) (wa_v25 _) (wa_v26 _) (wa_v44 _) (wa_v45 _) (wa_v46 _)]

end Cert.KernelIdeal.Hand

end
-- ==== Proof.KITail.lean ====
/- The host operation after the region: a reshape of the pipeline's output array, so the program's result buffer
   ends at the output array as the proof data leave it, regrouped from 32768 columns to 1024 by 32; read at an index,
   entry (b, f, p, s) of the result is entry (b, f, 32 p + s) of the output array. -/
import proofs.«141127_j52785148067965_2_alg».proof.Proof.KIFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable {F : FTy → Type} [FloatOps F]
variable (m : (ℓ : Loc nD τ sig) → Buf (Elt F) ℓ)

/-- After the operation that follows the region, the result buffer holds the output array, as the pipeline's proof
    data leave it after the last grid point, regrouped. -/
theorem tail_v73 (c : Dev nD) : Pipeline.afterTail₀ cfgs (dats m) 0 (V0 m) [hostOps1] c main_v73
    = fun q => (shapeCast S16x67x1024x32 ((dats m 0 c).arrAt 4 cfg0.N) shapeCasts_S16x67x32768_S16x67x1024x32 : FVec F S16x67x1024x32 .f32) q := by
  unfold Pipeline.afterTail₀
  show StableHlo.after hostOps1 _ (Proc.devRef .tc main_v73) = _
  dsimp only [hostOps1]
  after_results
  rw [Pipeline.withArrays_arr spec0 launch0.win.arr_inj c _ _ 4]
  rfl

/-- Read at an index: entry (b, f, p, s) of the result is entry (b, f, 32 p + s) of the output array. -/
theorem tail_v73_at (c : Dev nD) (b : Fin 16) (f : Fin 67) (p : Fin 1024) (s : Fin 32) :
    (Pipeline.afterTail₀ cfgs (dats m) 0 (V0 m) [hostOps1] c main_v73 : FVec F S16x67x1024x32 .f32) (ix4 b f p s)
      = ((dats m 0 c).arrAt 4 cfg0.N : FVec F S16x67x32768 .f32) (ix3 b f ⟨p.val * 32 + s.val, by omega⟩) := by
  rw [tail_v73]
  refine shapeCast_apply _ _ _ _ ?_
  show ((⟨3, ![16, 67, 32768]⟩ : Shape).rowMajor _).val = ((⟨4, ![16, 67, 1024, 32]⟩ : Shape).rowMajor _).val
  rw [Shape.rowMajor_val_three, Shape.rowMajor_val_four]
  show (b.val * 67 + f.val) * 32768 + (p.val * 32 + s.val) = ((b.val * 67 + f.val) * 1024 + p.val) * 32 + s.val
  omega

end Cert.KernelIdeal.Hand

end
-- ==== Proof.LibScatterRange.lean ====
/-
  A replacing scatter keeps every property that the operand's elements and the updates' elements share.

  A scatter that REPLACES (its body returns the update) leaves at each index either the operand's element or one of
  the updates' elements — whichever update landed there last, when several land on one index. So a property that
  holds of every element of the operand and of every update holds of every element of the result, whatever the
  indices are and however often they repeat.
-/
import Idealize.ShloMosaic.PureOps.ShapeOps

namespace Cert.Lib.ScatterRange

open Idealize.ShloMosaic

variable {α : Type} {s si u : Shape} {w : Nat}

/-- Every element of a replacing scatter's result has a property that every element of the operand and every update
    has. -/
theorem scatter_set_all (d : ScatterDims s si u) (x : s.Idx → α) (idx : IVec si w) (upd : u.Idx → α) (P : α → Prop)
    (hx : ∀ i, P (x i)) (hu : ∀ j, P (upd j)) : ∀ i, P (Host.scatter d (fun _ b => b) x idx upd i) := by
  unfold Host.scatter
  generalize List.finRange u.numel = L
  induction L generalizing x with
  | nil => exact hx
  | cons n L ih =>
    rw [List.foldl_cons]
    refine ih _ fun i => ?_
    generalize d.resultIdx? (u.rowMajor.symm n) idx = o
    cases o with
    | none => exact hx i
    | some i₀ =>
      show P (if i = i₀ then upd _ else x i)
      split
      · exact hu _
      · exact hx i

end Cert.Lib.ScatterRange
-- ==== Proof.IdxRange.lean ====
/-
  Every entry of the neighbour table is the number of one of the 4096 points.

  The table is a selection, entry by entry, between the scattered table and a broadcast of its first column; the
  scattered table starts from zeros and is overwritten with points' own numbers (an iota over 4096); so every
  entry is zero or a point's number, and both are below 4096 — whatever the scatter indices are, and however many
  points land on one slot.
-/
import proofs.«141127_j52785148067965_2_alg».proof.Proof.KIIdx
import proofs.«141127_j52785148067965_2_alg».proof.Proof.LibScatterRange

noncomputable section

namespace Cert.KernelIdeal.Hand

open Cert.KernelIdeal Idealize.ShloMosaic

variable {F : FTy → Type} [FloatOps F]
variable [Facts]
open Facts₀ Facts

/-- The scattered values are points' numbers. -/
theorem nn_lt (j : S16x1024x4096.Idx) : (nn j).toNat < 4096 := by
  unfold nn broadcastInDim iotaInDim
  dsimp only
  rw [BitVec.toNat_ofNat]
  refine Nat.lt_of_le_of_lt (Nat.mod_le _ _) ?_
  split
  · exact Nat.zero_lt_succ _
  · rename_i h
    exact Nat.lt_of_lt_of_le (Fin.isLt _) (le_of_eq rfl)

/-- Every entry of the scattered table is below 4096. -/
theorem scat_lt (x0 : (⟨S16x4096x3, .f32⟩ : BufTy).Contents (Elt F)) (x1 : (⟨S16x1024x3, .f32⟩ : BufTy).Contents (Elt F))
    (q : S16x1024x33.Idx) : (scat x0 x1 q : BitVec 32).toNat < 4096 :=
  Cert.Lib.ScatterRange.scatter_set_all _ zeros33 (indices x0 x1) nn (fun w : BitVec 32 => w.toNat < 4096)
    (fun _ => by show (0#32 : BitVec 32).toNat < 4096; decide) nn_lt q

/-- Every entry of the neighbour table is below 4096. -/
theorem idx59_lt (x0 : (⟨S16x4096x3, .f32⟩ : BufTy).Contents (Elt F)) (x1 : (⟨S16x1024x3, .f32⟩ : BufTy).Contents (Elt F))
    (q : S16x1024x32.Idx) : (idx59 x0 x1 q : BitVec 32).toNat < 4096 := by
  unfold idx59 select Scalar.select scat32 extractStridedSlice broadcastInDim
  dsimp only
  split
  · exact scat_lt x0 x1 _
  · exact scat_lt x0 x1 _

end Cert.KernelIdeal.Hand

end
-- ==== Proof.Spec.lean ====
/-
  What both programs compute, entry by entry.

  For batch b, centre p and slot s let w be the neighbour table's entry (b, p, s): the number of one of the 4096
  points. The grouped array's entry (b, f, p, s) is, on the three coordinate rows f < 3, point w's coordinate f
  less the centre's coordinate f; on the 64 feature rows f ≥ 3, feature f - 3 of point w.
-/
import proofs.«141127_j52785148067965_2_alg».proof.Proof.Gen.KernelIdeal
import proofs.«141127_j52785148067965_2_alg».proof.Proof.KIIdx
import proofs.«141127_j52785148067965_2_alg».proof.Proof.IdxRange
import Idealize.ShloMosaic.Lib.ValueIdx
import Idealize.ShloMosaic.PureOps.Ideal

noncomputable section

namespace Cert.KernelIdeal.Hand

open Idealize.ShloMosaic Idealize.ShloMosaic.ValueIdx Cert.KernelIdeal Cert.KernelIdeal.Gen

/-- The grouped array's entry at batch b, row f, centre p, slot s. -/
def groupGat (a0 : FVec Ideal S16x4096x3 .f32) (a1 : FVec Ideal S16x1024x3 .f32) (a2 : FVec Ideal S16x64x4096 .f32)
    (b : Fin 16) (f : Fin 67) (p : Fin 1024) (s : Fin 32) : EReal :=
  if h : f.val < 3 then
    a0 (ix3 b ⟨((idx59 (F := Ideal) a0 a1 (ix3 b p s) : BitVec 32)).toNat, idx59_lt (F := Ideal) a0 a1 (ix3 b p s)⟩ ⟨f.val, h⟩) - a1 (ix3 b p ⟨f.val, h⟩)
  else a2 (ix3 b ⟨f.val - 3, by omega⟩ ⟨((idx59 (F := Ideal) a0 a1 (ix3 b p s) : BitVec 32)).toNat, idx59_lt (F := Ideal) a0 a1 (ix3 b p s)⟩)

/-- The grouped array. -/
def groupG (a0 : FVec Ideal S16x4096x3 .f32) (a1 : FVec Ideal S16x1024x3 .f32) (a2 : FVec Ideal S16x64x4096 .f32) :
    S16x67x1024x32.Idx → EReal :=
  fun q => groupGat a0 a1 a2 (q 0) (q 1) (q 2) (q 3)

end Cert.KernelIdeal.Hand

end
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.Finite.lean ====
/-
  The precondition read back: every element of the three inputs is a real number.

  The precondition is the conjunction of three "all elements have absolute value below +∞" tests, one per input.
  A conjunction of one-bit words that is 1 has both words 1; a reduction by "and" over all axes that is 1 saw a 1 at
  every element; and an extended real whose absolute value compares below +∞ is a real number.
-/
import proofs.«141127_j52785148067965_2_alg».proof.Pre_finite_inputs
import proofs.«141127_j52785148067965_2_alg».proof.Proof.LibFiniteEReal
import Idealize.ShloMosaic.Lib.ReduceAll
import Idealize.ShloMosaic.Lib.ValueIdx

noncomputable section

namespace Cert.Pre_finite_inputs.Hand

open Idealize.ShloMosaic Idealize.ShloMosaic.ValueIdx Cert.Pre_finite_inputs Cert.Pre_finite_inputs.Facts

variable [Cert.Pre_finite_inputs.Facts]

instance : Subsingleton S_.Idx := ⟨fun a b => funext fun d => d.elim0⟩

/-- Under the precondition every element of every input is a real number. -/
theorem reals_of_pre (x0 : FVec Ideal S16x4096x3 .f32) (x1 : FVec Ideal S16x1024x3 .f32) (x2 : FVec Ideal S16x64x4096 .f32)
    (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [fn] at h0
  obtain ⟨h01, h2⟩ := IntOp.andi_eq_one.1 h0
  obtain ⟨h0', h1⟩ := IntOp.andi_eq_one.1 h01
  exact ⟨fun i => Cert.Lib.FiniteEReal.real_of_abs_lt (x0 i) (Host.reduce_andi_all _ _ reducesTo_S16x4096x3_S_d0_1_2 h_S_ ix0 h0' i),
    fun i => Cert.Lib.FiniteEReal.real_of_abs_lt (x1 i) (Host.reduce_andi_all _ _ reducesTo_S16x1024x3_S_d0_1_2 h_S_ ix0 h1 i),
    fun i => Cert.Lib.FiniteEReal.real_of_abs_lt (x2 i) (Host.reduce_andi_all _ _ reducesTo_S16x64x4096_S_d0_1_2 h_S_ ix0 h2 i)⟩

end Cert.Pre_finite_inputs.Hand

end
-- ==== Proof.KIValue.lean ====
/-
  The kernel program's result, at the ideal instance, is the grouped array.

  The region's output array is the function of KIBlocks over the arrays the region finds; those arrays are read at
  indices in KIArrays; the neighbour table is the pure index chain (KIHost) whose entries are points' numbers
  (IdxRange); and the second table half is zero because the inputs are real numbers (the precondition, Finite).
  Put together, entry (b, f, p, s) of the reshaped output is: for f < 3 the neighbour's coordinate f less the centre's;
  for 3 ≤ f < 8 the neighbour's feature f - 3 less zero; for f ≥ 8 the neighbour's feature f - 3.
-/
import proofs.«141127_j52785148067965_2_alg».proof.Proof.KIBlocks
import proofs.«141127_j52785148067965_2_alg».proof.Proof.KIArrays
import proofs.«141127_j52785148067965_2_alg».proof.Proof.KIHost
import proofs.«141127_j52785148067965_2_alg».proof.Proof.KITail
import proofs.«141127_j52785148067965_2_alg».proof.Proof.Spec
import proofs.«141127_j52785148067965_2_alg».proof.Proof.Finite
import proofs.«141127_j52785148067965_2_alg».proof.Defs

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Every word of the reshaped neighbour table is a point's number. -/
theorem v60_lt (c : Dev nD) (q : S16x32768.Idx) : ((V m c main_v60 : IVec S16x32768 32) q).toNat < 4096 := by
  have e : q = (ix2 (⟨(q 0).val, (q 0).isLt⟩ : Fin 16) (⟨(q 1).val, (q 1).isLt⟩ : Fin 32768) : S16x32768.Idx) := by
    funext a
    match a with
    | ⟨0, _⟩ => rfl
    | ⟨1, _⟩ => rfl
  rw [e, idx_at, V_v59]
  exact idx59_lt (F := Ideal) _ _ _

/-! ## The output array's function against the grouped array's, over abstract arrays -/

/-- The grouped array's entry over ANY neighbour table whose entries are points' numbers. -/
def groupGatT (T : IVec S16x1024x32 32) (hT : ∀ q, (T q).toNat < 4096)
    (a0 : FVec Ideal S16x4096x3 .f32) (a1 : FVec Ideal S16x1024x3 .f32) (a2 : FVec Ideal S16x64x4096 .f32)
    (b : Fin 16) (f : Fin 67) (p : Fin 1024) (s : Fin 32) : EReal :=
  if h : f.val < 3 then a0 (ix3 b ⟨(T (ix3 b p s)).toNat, hT _⟩ ⟨f.val, h⟩) - a1 (ix3 b p ⟨f.val, h⟩)
  else a2 (ix3 b ⟨f.val - 3, by omega⟩ ⟨(T (ix3 b p s)).toNat, hT _⟩)

theorem groupGat_eq_T (a0 : FVec Ideal S16x4096x3 .f32) (a1 : FVec Ideal S16x1024x3 .f32) (a2 : FVec Ideal S16x64x4096 .f32)
    (b : Fin 16) (f : Fin 67) (p : Fin 1024) (s : Fin 32) :
    groupGat a0 a1 a2 b f p s = groupGatT (idx59 (F := Ideal) a0 a1) (idx59_lt (F := Ideal) a0 a1) a0 a1 a2 b f p s := by
  unfold groupGat groupGatT
  rfl

theorem groupG_apply (a0 : FVec Ideal S16x4096x3 .f32) (a1 : FVec Ideal S16x1024x3 .f32) (a2 : FVec Ideal S16x64x4096 .f32)
    (b : Fin 16) (f : Fin 67) (p : Fin 1024) (s : Fin 32) :
    groupG a0 a1 a2 (ix4 b f p s) = groupGat a0 a1 a2 b f p s := rfl

theorem G72_apply (X60 : IVec S16x32768 32) (hX : ∀ q, (X60 q).toNat < 4096) (X64 : FVec Ideal S16x67x4096 .bf16)
    (X71 : FVec Ideal S16x8x32768 .f32) (b : Fin 16) (f : Fin 67) (C : Fin 32768) :
    G72 X60 hX X64 X71 (ix3 b f C) = G72at X60 hX X64 X71 b f C := rfl

/-- Entry (b, f, 32 p + s) of the output array's function is entry (b, f, p, s) of the grouped array, whenever the
    three arrays the region finds read as KIArrays says. -/
theorem G72at_eq (X60 : IVec S16x32768 32) (hX : ∀ q, (X60 q).toNat < 4096) (X64 : FVec Ideal S16x67x4096 .bf16)
    (X71 : FVec Ideal S16x8x32768 .f32) (T : IVec S16x1024x32 32) (hT : ∀ q, (T q).toNat < 4096)
    (a0 : FVec Ideal S16x4096x3 .f32) (a1 : FVec Ideal S16x1024x3 .f32) (a2 : FVec Ideal S16x64x4096 .f32)
    (e60 : ∀ (b : Fin 16) (C : Fin 32768), X60 (ix2 b C) = T (ix3 b ⟨C.val / 32, by omega⟩ ⟨C.val % 32, Nat.mod_lt _ (by norm_num)⟩))
    (e64 : ∀ (b : Fin 16) (f : Fin 67) (n : Fin 4096),
      X64 (ix3 b f n) = if h : f.val < 3 then a0 (ix3 b n ⟨f.val, h⟩) else a2 (ix3 b ⟨f.val - 3, by omega⟩ n))
    (e71 : ∀ (b : Fin 16) (r : Fin 8) (C : Fin 32768),
      X71 (ix3 b r C) = if h : r.val < 3 then a1 (ix3 b ⟨C.val / 32, by omega⟩ ⟨r.val, h⟩) else (0 : EReal))
    (b : Fin 16) (f : Fin 67) (p : Fin 1024) (s : Fin 32) :
    G72at X60 hX X64 X71 b f ⟨p.val * 32 + s.val, by omega⟩ = groupGatT T hT a0 a1 a2 b f p s := by
  have hC1 : (⟨(p.val * 32 + s.val) / 32, by omega⟩ : Fin 1024) = p := Fin.ext (by show (p.val * 32 + s.val) / 32 = p.val; omega)
  have hC2 : (⟨(p.val * 32 + s.val) % 32, Nat.mod_lt _ (by norm_num)⟩ : Fin 32) = s := Fin.ext (by show (p.val * 32 + s.val) % 32 = s.val; omega)
  have ew : X60 (ix2 b ⟨p.val * 32 + s.val, by omega⟩) = T (ix3 b p s) := by rw [e60, hC1, hC2]
  have eW : (⟨(X60 (ix2 b ⟨p.val * 32 + s.val, by omega⟩)).toNat, hX _⟩ : Fin 4096) = ⟨(T (ix3 b p s)).toNat, hT _⟩ :=
    Fin.ext (by show (X60 _).toNat = (T _).toNat; rw [ew])
  unfold G72at groupGatT
  rw [eW]
  by_cases h3 : f.val < 3
  · have h8 : f.val < 8 := by omega
    rw [dif_pos h8, dif_pos h3, e64, dif_pos h3, e71, dif_pos (show (⟨f.val, h8⟩ : Fin 8).val < 3 from h3), hC1]
  · by_cases h8 : f.val < 8
    · rw [dif_pos h8, dif_neg h3, e64, dif_neg h3, e71, dif_neg (show ¬ (⟨f.val, h8⟩ : Fin 8).val < 3 from h3), sub_zero]
    · rw [dif_neg h8, dif_neg h3, e64, dif_neg h3]

section

variable (hfin : ∀ c : Dev nD, (∀ i, ∃ r : ℝ, m ((c : Thread nD τ).loc main_arg0) i = (r : EReal))
  ∧ (∀ i, ∃ r : ℝ, m ((c : Thread nD τ).loc main_arg1) i = (r : EReal))
  ∧ (∀ i, ∃ r : ℝ, m ((c : Thread nD τ).loc main_arg2) i = (r : EReal)))

include hfin in
/-- The result buffer after the run: the grouped array of the three inputs. -/
theorem tail_value (c : Dev nD) :
    (Pipeline.afterTail₀ cfgs (dats m) 0 (V0 m) [hostOps1] c main_v73 : FVec Ideal S16x67x1024x32 .f32)
      = groupG (m ((c : Thread nD τ).loc main_arg0)) (m ((c : Thread nD τ).loc main_arg1)) (m ((c : Thread nD τ).loc main_arg2)) := by
  have hlo : ∀ c (b : Fin 16) (f : Fin 67) (n : Fin 4096), (V m c main_v67 : FVec Ideal S16x67x4096 .bf16) (ix3 b f n) = (0 : EReal) :=
    fun c b f n => lo_at m c (hfin c).1 (hfin c).2.2 b f n
  funext q
  obtain ⟨b, f, p, s, rfl⟩ : ∃ (b : Fin 16) (f : Fin 67) (p : Fin 1024) (s : Fin 32), q = ix4 b f p s := ⟨q 0, q 1, q 2, q 3, eq_ix4 q⟩
  rw [tail_v73_at, final72 m (v60_lt m) hlo c, G72_apply, groupG_apply, groupGat_eq_T]
  exact G72at_eq _ _ _ _ _ _ _ _ _ (fun b C => by rw [idx_at, V_v59]) (hi_at m c) (cent_at m c) b f p s

include hfin in
/-- THE RUN, READ: the result at the grouped array, the inputs unchanged. -/
theorem value_run : θ_run defs (onTc (τ := τ) (main (F := Ideal))) ⟨m, fun _ => 0, ρ⟩ (fun r => ∀ c : Dev nD,
      r.2.mem ((c.tc : Thread nD τ).loc main_v73)
        = groupG (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v73 (Pipeline.mem_restRefs_of main_v73 (by decide) (by decide))).trans (tail_value m hfin c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end

end Cert.KernelIdeal.Hand

end
-- ==== Proof.RefIdx.lean ====
import proofs.«141127_j52785148067965_2_alg».proof.ReferenceIdeal

/-!
# The neighbour index table of the ball query, as a pure function

For every batch and centre, the host prelude computes the squared distances from the centre to all
4096 points, marks the points closer than the radius, ranks the marked points by a running count,
scatters each of the first 32 marked points' own number into the slot of its rank (every other point
into a 33rd, discarded, slot), drops that slot, and overwrites the slots past the number of marked
points with the first slot's entry.  Each definition below is one line, or a few, of that prelude:
the same pure operation applied to the earlier definitions, so that the whole table is a composition
whose last steps (scat, filled, idx59) can be read directly.
-/

noncomputable section

namespace Cert.ReferenceIdeal.Hand

open Cert.ReferenceIdeal Idealize.ShloMosaic

variable {F : FTy → Type} [FloatOps F]
variable [Facts]
open Facts₀ Facts

/-! ## Squared distances and the in-radius mask -/

/-- The coordinate differences centre minus point, over batch, centre, point and axis. -/
def diff (x0 : (⟨S16x4096x3, .f32⟩ : BufTy).Contents (Elt F)) (x1 : (⟨S16x1024x3, .f32⟩ : BufTy).Contents (Elt F)) : (⟨S16x1024x4096x3, .f32⟩ : BufTy).Contents (Elt F) :=
  subf
    (broadcastInDim S16x1024x4096x3 ![0, 1, 2, 3] bcast_S16x1024x1x3_S16x1024x4096x3_0_1_2_3
      (broadcastInDim S16x1024x1x3 ![0, 1, 3] bcast_S16x1024x3_S16x1024x1x3_0_1_3 x1))
    (broadcastInDim S16x1024x4096x3 ![0, 1, 2, 3] bcast_S16x1x4096x3_S16x1024x4096x3_0_1_2_3
      (broadcastInDim S16x1x4096x3 ![0, 2, 3] bcast_S16x4096x3_S16x1x4096x3_0_2_3 x0))

/-- The squared distance from each centre to each point: the squares summed over the axis. -/
def dist2 (x0 : (⟨S16x4096x3, .f32⟩ : BufTy).Contents (Elt F)) (x1 : (⟨S16x1024x3, .f32⟩ : BufTy).Contents (Elt F)) : (⟨S16x1024x4096, .f32⟩ : BufTy).Contents (Elt F) :=
  Host.reduceAdd (mulf (diff x0 x1) (diff x0 x1)) (constant S_ .f32 0x00000000#32)
    reducesTo_S16x1024x4096x3_S16x1024x4096_d3 h_S_

/-- The mask of the points strictly inside the ball (the literal is the squared radius). -/
def mask (x0 : (⟨S16x4096x3, .f32⟩ : BufTy).Contents (Elt F)) (x1 : (⟨S16x1024x3, .f32⟩ : BufTy).Contents (Elt F)) : (⟨S16x1024x4096, .i1⟩ : BufTy).Contents (Elt F) :=
  cmpf .olt (dist2 x0 x1)
    (broadcastInDim S16x1024x4096 ![] bcast_S_S16x1024x4096 (constant S_ .f32 0x3D23D70A#32))

/-- The running count of marked points along the point axis (a window sum over the 4096 entries
    ending at each point): the 1-based rank of a marked point among the marked ones. -/
def order (x0 : (⟨S16x4096x3, .f32⟩ : BufTy).Contents (Elt F)) (x1 : (⟨S16x1024x3, .f32⟩ : BufTy).Contents (Elt F)) : (⟨S16x1024x4096, .i32⟩ : BufTy).Contents (Elt F) :=
  Host.reduceWindow IntOp.addi ![1, 1, 4096] ![1, 1, 1] ![0, 0, 4095] ![0, 0, 0]
    (extui 32 (mask x0 x1) natLt_1_32)
    (broadcastInDim S_ ![] bcast_S_S_ (constantI S_ 32 0#32))
    reduceWindows_S16x1024x4096_S16x1024x4096_w1s1p0_0_w1s1p0_0_w4096s1p4095_0 h_S_

/-- The number of marked points of each centre: the running count at the last point. -/
def cnt (x0 : (⟨S16x4096x3, .f32⟩ : BufTy).Contents (Elt F)) (x1 : (⟨S16x1024x3, .f32⟩ : BufTy).Contents (Elt F)) : (⟨S16x1024, .i32⟩ : BufTy).Contents (Elt F) :=
  shapeCast S16x1024
    (extractStridedSlice S16x1024x1 ![0, 0, 4095] (order x0 x1) slices_S16x1024x4096_S16x1024x1_0_0_4095)
    shapeCasts_S16x1024x1_S16x1024

/-! ## The slot of each point -/

/-- The slot a point is scattered to: its rank minus one when it is marked and among the first 32
    marked points, the discarded slot 32 otherwise. -/
def slot (x0 : (⟨S16x4096x3, .f32⟩ : BufTy).Contents (Elt F)) (x1 : (⟨S16x1024x3, .f32⟩ : BufTy).Contents (Elt F)) : (⟨S16x1024x4096, .i32⟩ : BufTy).Contents (Elt F) :=
  select
    (andi (mask x0 x1) (cmpi .sle (order x0 x1) (broadcastInDim S16x1024x4096 ![] bcast_S_S16x1024x4096 (constantI S_ 32 32#32))))
    (subi (order x0 x1) (broadcastInDim S16x1024x4096 ![] bcast_S_S16x1024x4096 (constantI S_ 32 1#32)))
    (broadcastInDim S16x1024x4096 ![] bcast_S_S16x1024x4096 (id (constantI S_ 32 32#32)))

/-- The slot with a negative value wrapped by the axis length 33 (it never is negative; the wrap is
    how an index expression reads). -/
def slotN (x0 : (⟨S16x4096x3, .f32⟩ : BufTy).Contents (Elt F)) (x1 : (⟨S16x1024x3, .f32⟩ : BufTy).Contents (Elt F)) : (⟨S16x1024x4096, .i32⟩ : BufTy).Contents (Elt F) :=
  select (cmpi .slt (slot x0 x1) (broadcastInDim S16x1024x4096 ![] bcast_S_S16x1024x4096 (constantI S_ 32 0#32)))
    (addi (slot x0 x1) (broadcastInDim S16x1024x4096 ![] bcast_S_S16x1024x4096 (constantI S_ 32 33#32)))
    (slot x0 x1)

/-- The batch coordinate of a scatter index: the batch's own number (wrapped as above). -/
def bbN : IVec S16x1x1 32 :=
  select
    (cmpi .slt (broadcastInDim S16x1x1 ![0] bcast_S16_S16x1x1_0 (iotaInDim S16 32 0)) (broadcastInDim S16x1x1 ![] bcast_S_S16x1x1 (constantI S_ 32 0#32)))
    (addi (broadcastInDim S16x1x1 ![0] bcast_S16_S16x1x1_0 (iotaInDim S16 32 0)) (broadcastInDim S16x1x1 ![] bcast_S_S16x1x1 (constantI S_ 32 16#32)))
    (broadcastInDim S16x1x1 ![0] bcast_S16_S16x1x1_0 (iotaInDim S16 32 0))

/-- The centre coordinate of a scatter index: the centre's own number (wrapped as above). -/
def ppN : IVec S1x1024x1 32 :=
  select
    (cmpi .slt (broadcastInDim S1x1024x1 ![1] bcast_S1024_S1x1024x1_1 (iotaInDim S1024 32 0)) (broadcastInDim S1x1024x1 ![] bcast_S_S1x1024x1 (constantI S_ 32 0#32)))
    (addi (broadcastInDim S1x1024x1 ![1] bcast_S1024_S1x1024x1_1 (iotaInDim S1024 32 0)) (broadcastInDim S1x1024x1 ![] bcast_S_S1x1024x1 (constantI S_ 32 1024#32)))
    (broadcastInDim S1x1024x1 ![1] bcast_S1024_S1x1024x1_1 (iotaInDim S1024 32 0))

/-- The scatter indices: for each batch, centre and point the triple (batch, centre, slot). -/
def indices (x0 : (⟨S16x4096x3, .f32⟩ : BufTy).Contents (Elt F)) (x1 : (⟨S16x1024x3, .f32⟩ : BufTy).Contents (Elt F)) : (⟨S16x1024x4096x3, .i32⟩ : BufTy).Contents (Elt F) :=
  concatenate S16x1024x4096x3 3
    [⟨S16x1024x4096x1, broadcastInDim S16x1024x4096x1 ![0, 1, 2] bcast_S16x1024x4096_S16x1024x4096x1_0_1_2
        (broadcastInDim S16x1024x4096 ![0, 1, 2] bcast_S16x1x1_S16x1024x4096_0_1_2 bbN)⟩,
     ⟨S16x1024x4096x1, broadcastInDim S16x1024x4096x1 ![0, 1, 2] bcast_S16x1024x4096_S16x1024x4096x1_0_1_2
        (broadcastInDim S16x1024x4096 ![0, 1, 2] bcast_S1x1024x1_S16x1024x4096_0_1_2 ppN)⟩,
     ⟨S16x1024x4096x1, broadcastInDim S16x1024x4096x1 ![0, 1, 2] bcast_S16x1024x4096_S16x1024x4096x1_0_1_2
        (slotN x0 x1)⟩]
    concatenates_S16x1024x4096x1_S16x1024x4096x1_S16x1024x4096x1_S16x1024x4096x3_d3

/-! ## The scatter and the fill -/

/-- The table the scatter starts from: zero in all 33 slots. -/
def zeros33 : IVec S16x1024x33 32 :=
  broadcastInDim S16x1024x33 ![] bcast_S_S16x1024x33 (constantI S_ 32 0#32)

/-- The values scattered: each point's own number, for every batch and centre. -/
def nn : IVec S16x1024x4096 32 :=
  broadcastInDim S16x1024x4096 ![0, 1, 2] bcast_S1x1x4096_S16x1024x4096_0_1_2
    (broadcastInDim S1x1x4096 ![2] bcast_S4096_S1x1x4096_2 (iotaInDim S4096 32 0))

/-- The scattered table: each point's number written into its slot, the points taken in order. -/
def scat (x0 : (⟨S16x4096x3, .f32⟩ : BufTy).Contents (Elt F)) (x1 : (⟨S16x1024x3, .f32⟩ : BufTy).Contents (Elt F)) : (⟨S16x1024x33, .i32⟩ : BufTy).Contents (Elt F) :=
  Host.scatter scatter_S16x1024x33_S16x1024x4096x3_S16x1024x4096_n_012_012_3 (fun _ b => b)
    zeros33 (indices x0 x1) nn

/-- The table without the discarded slot. -/
def scat32 (x0 : (⟨S16x4096x3, .f32⟩ : BufTy).Contents (Elt F)) (x1 : (⟨S16x1024x3, .f32⟩ : BufTy).Contents (Elt F)) : (⟨S16x1024x32, .i32⟩ : BufTy).Contents (Elt F) :=
  extractStridedSlice S16x1024x32 ![0, 0, 0] (scat x0 x1) slices_S16x1024x33_S16x1024x32_0_0_0

/-- The mask of the slots that hold a marked point: slot number below the smaller of the count and 32. -/
def filled (x0 : (⟨S16x4096x3, .f32⟩ : BufTy).Contents (Elt F)) (x1 : (⟨S16x1024x3, .f32⟩ : BufTy).Contents (Elt F)) : (⟨S16x1024x32, .i1⟩ : BufTy).Contents (Elt F) :=
  cmpi .slt
    (broadcastInDim S16x1024x32 ![0, 1, 2] bcast_S1x1x32_S16x1024x32_0_1_2
      (broadcastInDim S1x1x32 ![2] bcast_S32_S1x1x32_2 (iotaInDim S32 32 0)))
    (broadcastInDim S16x1024x32 ![0, 1, 2] bcast_S16x1024x1_S16x1024x32_0_1_2
      (broadcastInDim S16x1024x1 ![0, 1] bcast_S16x1024_S16x1024x1_0_1
        (minsi (cnt x0 x1) (broadcastInDim S16x1024 ![] bcast_S_S16x1024 (constantI S_ 32 32#32)))))

/-- The neighbour table: a filled slot keeps its entry, an unfilled one takes slot 0's. -/
def idx59 (x0 : (⟨S16x4096x3, .f32⟩ : BufTy).Contents (Elt F)) (x1 : (⟨S16x1024x3, .f32⟩ : BufTy).Contents (Elt F)) : (⟨S16x1024x32, .i32⟩ : BufTy).Contents (Elt F) :=
  select (filled x0 x1) (scat32 x0 x1)
    (broadcastInDim S16x1024x32 ![0, 1, 2] bcast_S16x1024x1_S16x1024x32_0_1_2
      (extractStridedSlice S16x1024x1 ![0, 0, 0] (scat32 x0 x1) slices_S16x1024x32_S16x1024x1_0_0_0))

end Cert.ReferenceIdeal.Hand

end
-- ==== Proof.RefRunDefs.lean ====
import proofs.«141127_j52785148067965_2_alg».proof.Proof.RefIdx

/-!
# The grouped result of the reference, as a pure function

The reference gathers, at the neighbour table, the points' coordinates (then moves the coordinate axis
forward and subtracts the centre's coordinates) and the points' feature columns, and concatenates the
two along the feature axis: 3 coordinate rows followed by 64 feature rows.
-/

noncomputable section

namespace Cert.ReferenceIdeal.Hand

open Cert.ReferenceIdeal Idealize.ShloMosaic

variable {F : FTy → Type} [FloatOps F]
variable [Facts]
open Facts₀ Facts

/-- A table entry read as an index into the 4096 points: a negative entry wrapped by 4096. -/
def normalize (i : (⟨S16x1024x32, .i32⟩ : BufTy).Contents (Elt F)) : (⟨S16x1024x32, .i32⟩ : BufTy).Contents (Elt F) :=
  select (cmpi .slt i (broadcastInDim S16x1024x32 ![] bcast_S_S16x1024x32 (constantI S_ 32 0#32)))
    (addi i (broadcastInDim S16x1024x32 ![] bcast_S_S16x1024x32 (constantI S_ 32 4096#32)))
    i

/-- The neighbours' coordinates minus the centre's, over batch, axis, centre and slot. -/
def groupedXyz (x0 : (⟨S16x4096x3, .f32⟩ : BufTy).Contents (Elt F)) (x1 : (⟨S16x1024x3, .f32⟩ : BufTy).Contents (Elt F)) (i : (⟨S16x1024x32, .i32⟩ : BufTy).Contents (Elt F)) : (⟨S16x3x1024x32, .f32⟩ : BufTy).Contents (Elt F) :=
  subf
    (transpose S16x3x1024x32 [0, 3, 1, 2]
      (Host.gather gather_S16x4096x3_S16x1024x32x1_S16x1024x32x3_3_1_0_0_1_3_113 x0
        (broadcastInDim S16x1024x32x1 ![0, 1, 2] bcast_S16x1024x32_S16x1024x32x1_0_1_2 (normalize i)))
      transposes_S16x1024x32x3_S16x3x1024x32_0_3_1_2)
    (broadcastInDim S16x3x1024x32 ![0, 1, 2, 3] bcast_S16x3x1024x1_S16x3x1024x32_0_1_2_3
      (broadcastInDim S16x3x1024x1 ![0, 1, 2] bcast_S16x3x1024_S16x3x1024x1_0_1_2
        (transpose S16x3x1024 [0, 2, 1] x1 transposes_S16x1024x3_S16x3x1024_0_2_1)))

/-- The neighbours' feature columns, over batch, feature, centre and slot. -/
def groupedPts (x2 : (⟨S16x64x4096, .f32⟩ : BufTy).Contents (Elt F)) (i : (⟨S16x1024x32, .i32⟩ : BufTy).Contents (Elt F)) : (⟨S16x64x1024x32, .f32⟩ : BufTy).Contents (Elt F) :=
  Host.gather gather_S16x64x4096_S16x1024x32x1_S16x64x1024x32_1_2_0_0_2_3_1641 x2
    (broadcastInDim S16x1024x32x1 ![0, 1, 2] bcast_S16x1024x32_S16x1024x32x1_0_1_2 (normalize i))

/-- The reference's tail over any index table: the coordinate rows, then the feature rows. -/
def groupAt (x0 : (⟨S16x4096x3, .f32⟩ : BufTy).Contents (Elt F)) (x1 : (⟨S16x1024x3, .f32⟩ : BufTy).Contents (Elt F)) (x2 : (⟨S16x64x4096, .f32⟩ : BufTy).Contents (Elt F)) (i : (⟨S16x1024x32, .i32⟩ : BufTy).Contents (Elt F)) : (⟨S16x67x1024x32, .f32⟩ : BufTy).Contents (Elt F) :=
  concatenate S16x67x1024x32 1 [⟨S16x3x1024x32, groupedXyz x0 x1 i⟩, ⟨S16x64x1024x32, groupedPts x2 i⟩]
    concatenates_S16x3x1024x32_S16x64x1024x32_S16x67x1024x32_d1

/-- The reference's result: the tail at the ball query's neighbour table. -/
def res79 (x0 : (⟨S16x4096x3, .f32⟩ : BufTy).Contents (Elt F)) (x1 : (⟨S16x1024x3, .f32⟩ : BufTy).Contents (Elt F)) (x2 : (⟨S16x64x4096, .f32⟩ : BufTy).Contents (Elt F)) : (⟨S16x67x1024x32, .f32⟩ : BufTy).Contents (Elt F) :=
  groupAt x0 x1 x2 (idx59 x0 x1)

end Cert.ReferenceIdeal.Hand

end
-- ==== Proof.RefRunOps.lean ====
import proofs.«141127_j52785148067965_2_alg».proof.Proof.RefRunDefs
import Idealize.ShloMosaic.Lib.StableHlo.Run
import Idealize.ShloMosaic.Lib.Pipeline.Regions

/-!
# The reference program as a list of operations, and its run as their fold

The program is a straight line of host operations (three outlined functions' bodies in their places).
It is listed here as nine stretches, cut where a function's body begins or ends, before and after the one
operation of three operands, and where the program's definition is in two parts; the program is the stretches
run in order, and every weakly fair execution terminates with each buffer at the fold of the operations over
the launch contents.
-/

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

/-! ## The operations, in order -/

/-- The squared distances, the in-radius mask and its 32-bit copy: 12 operations. -/
abbrev ops0 : List (HloOp τ sig (Elt F)) :=
  [ StableHlo.unary main_arg1 main_v0 (broadcastInDim S16x1024x1x3 ![0, 1, 3] bcast_S16x1024x3_S16x1024x1x3_0_1_3 : (⟨S16x1024x3, .f32⟩ : BufTy).Contents (Elt F) → (⟨S16x1024x1x3, .f32⟩ : BufTy).Contents (Elt F)),
    StableHlo.unary main_arg0 main_v1 (broadcastInDim S16x1x4096x3 ![0, 2, 3] bcast_S16x4096x3_S16x1x4096x3_0_2_3 : (⟨S16x4096x3, .f32⟩ : BufTy).Contents (Elt F) → (⟨S16x1x4096x3, .f32⟩ : BufTy).Contents (Elt F)),
    StableHlo.unary main_v0 main_v2 (broadcastInDim S16x1024x4096x3 ![0, 1, 2, 3] bcast_S16x1024x1x3_S16x1024x4096x3_0_1_2_3 : (⟨S16x1024x1x3, .f32⟩ : BufTy).Contents (Elt F) → (⟨S16x1024x4096x3, .f32⟩ : BufTy).Contents (Elt F)),
    StableHlo.unary main_v1 main_v3 (broadcastInDim S16x1024x4096x3 ![0, 1, 2, 3] bcast_S16x1x4096x3_S16x1024x4096x3_0_1_2_3 : (⟨S16x1x4096x3, .f32⟩ : BufTy).Contents (Elt F) → (⟨S16x1024x4096x3, .f32⟩ : BufTy).Contents (Elt F)),
    StableHlo.binary main_v2 main_v3 main_v4 (subf : (⟨S16x1024x4096x3, .f32⟩ : BufTy).Contents (Elt F) → (⟨S16x1024x4096x3, .f32⟩ : BufTy).Contents (Elt F) → (⟨S16x1024x4096x3, .f32⟩ : BufTy).Contents (Elt F)),
    StableHlo.binary main_v4 main_v4 main_v5 (mulf : (⟨S16x1024x4096x3, .f32⟩ : BufTy).Contents (Elt F) → (⟨S16x1024x4096x3, .f32⟩ : BufTy).Contents (Elt F) → (⟨S16x1024x4096x3, .f32⟩ : BufTy).Contents (Elt F)),
    StableHlo.nullary main_cst (constant S_ .f32 0x00000000#32),
    StableHlo.binary main_v5 main_cst main_v6 ((fun x v => Host.reduceAdd x v reducesTo_S16x1024x4096x3_S16x1024x4096_d3 h_S_) : (⟨S16x1024x4096x3, .f32⟩ : BufTy).Contents (Elt F) → (⟨S_, .f32⟩ : BufTy).Contents (Elt F) → (⟨S16x1024x4096, .f32⟩ : BufTy).Contents (Elt F)),
    StableHlo.nullary main_cst_0 (constant S_ .f32 0x3D23D70A#32),
    StableHlo.unary main_cst_0 main_v7 (broadcastInDim S16x1024x4096 ![] bcast_S_S16x1024x4096 : (⟨S_, .f32⟩ : BufTy).Contents (Elt F) → (⟨S16x1024x4096, .f32⟩ : BufTy).Contents (Elt F)),
    StableHlo.binary main_v6 main_v7 main_v8 (cmpf .olt : (⟨S16x1024x4096, .f32⟩ : BufTy).Contents (Elt F) → (⟨S16x1024x4096, .f32⟩ : BufTy).Contents (Elt F) → (⟨S16x1024x4096, .i1⟩ : BufTy).Contents (Elt F)),
    StableHlo.unary main_v8 main_v9 ((extui 32 · natLt_1_32) : (⟨S16x1024x4096, .i1⟩ : BufTy).Contents (Elt F) → (⟨S16x1024x4096, .i32⟩ : BufTy).Contents (Elt F)) ]
theorem ops0_sub : (ops0 : List (HloOp τ sig (Elt F))).Forall fun op => op.bufs ⊆ tcRefs τ sig :=
  ⟨unary_bufs_sub .., unary_bufs_sub .., unary_bufs_sub .., unary_bufs_sub .., binary_bufs_sub .., binary_bufs_sub .., nullary_bufs_sub .., binary_bufs_sub .., nullary_bufs_sub .., unary_bufs_sub .., binary_bufs_sub .., unary_bufs_sub ..⟩

/-- The running count of marked points (the outlined cumulative sum): 3 operations. -/
abbrev ops1 : List (HloOp τ sig (Elt F)) :=
  [ StableHlo.TRef.nullary main_call0.call0.c (constantI S_ 32 0#32),
    StableHlo.TRef.unary main_call0.call0.c main_call0.call0.v0 (broadcastInDim S_ ![] bcast_S_S_),
    StableHlo.TRef.binary (.of main_v9 : StableHlo.TRef sig ⟨S16x1024x4096, .i32⟩) main_call0.call0.v0 main_call0.call0.v1 (fun x v => Host.reduceWindow IntOp.addi ![1, 1, 4096] ![1, 1, 1] ![0, 0, 4095] ![0, 0, 0] x v reduceWindows_S16x1024x4096_S16x1024x4096_w1s1p0_0_w1s1p0_0_w4096s1p4095_0 h_S_) ]
theorem ops1_sub : (ops1 : List (HloOp τ sig (Elt F))).Forall fun op => op.bufs ⊆ tcRefs τ sig :=
  ⟨nullary_bufs_sub .., unary_bufs_sub .., binary_bufs_sub ..⟩

/-- The count per centre, the first-32 test and the rank minus one: 10 operations. -/
abbrev ops2 : List (HloOp τ sig (Elt F)) :=
  [ StableHlo.unary main_v10 main_v11 ((extractStridedSlice S16x1024x1 ![0, 0, 4095] · slices_S16x1024x4096_S16x1024x1_0_0_4095) : (⟨S16x1024x4096, .i32⟩ : BufTy).Contents (Elt F) → (⟨S16x1024x1, .i32⟩ : BufTy).Contents (Elt F)),
    StableHlo.reshape main_v11 main_v12 rfl shapeCasts_S16x1024x1_S16x1024,
    StableHlo.nullary main_c (constantI S_ 32 32#32),
    StableHlo.unary main_c main_v13 (broadcastInDim S16x1024x4096 ![] bcast_S_S16x1024x4096 : (⟨S_, .i32⟩ : BufTy).Contents (Elt F) → (⟨S16x1024x4096, .i32⟩ : BufTy).Contents (Elt F)),
    StableHlo.binary main_v10 main_v13 main_v14 (cmpi .sle : (⟨S16x1024x4096, .i32⟩ : BufTy).Contents (Elt F) → (⟨S16x1024x4096, .i32⟩ : BufTy).Contents (Elt F) → (⟨S16x1024x4096, .i1⟩ : BufTy).Contents (Elt F)),
    StableHlo.binary main_v8 main_v14 main_v15 (andi : (⟨S16x1024x4096, .i1⟩ : BufTy).Contents (Elt F) → (⟨S16x1024x4096, .i1⟩ : BufTy).Contents (Elt F) → (⟨S16x1024x4096, .i1⟩ : BufTy).Contents (Elt F)),
    StableHlo.nullary main_c_1 (constantI S_ 32 1#32),
    StableHlo.unary main_c_1 main_v16 (broadcastInDim S16x1024x4096 ![] bcast_S_S16x1024x4096 : (⟨S_, .i32⟩ : BufTy).Contents (Elt F) → (⟨S16x1024x4096, .i32⟩ : BufTy).Contents (Elt F)),
    StableHlo.binary main_v10 main_v16 main_v17 (subi : (⟨S16x1024x4096, .i32⟩ : BufTy).Contents (Elt F) → (⟨S16x1024x4096, .i32⟩ : BufTy).Contents (Elt F) → (⟨S16x1024x4096, .i32⟩ : BufTy).Contents (Elt F)),
    StableHlo.nullary main_c_2 (constantI S_ 32 32#32) ]
theorem ops2_sub : (ops2 : List (HloOp τ sig (Elt F))).Forall fun op => op.bufs ⊆ tcRefs τ sig :=
  ⟨unary_bufs_sub .., reshape_bufs_sub .., nullary_bufs_sub .., unary_bufs_sub .., binary_bufs_sub .., binary_bufs_sub .., nullary_bufs_sub .., unary_bufs_sub .., binary_bufs_sub .., nullary_bufs_sub ..⟩

/-- The slot of each point (the outlined choice between rank minus one and the discarded slot): 3 operations. -/
abbrev ops3 : List (HloOp τ sig (Elt F)) :=
  [ StableHlo.TRef.unary (.of main_c_2 : StableHlo.TRef sig ⟨S_, .i32⟩) main_call1.v0 id,
    StableHlo.TRef.unary main_call1.v0 main_call1.v1 (broadcastInDim S16x1024x4096 ![] bcast_S_S16x1024x4096),
    StableHlo.TRef.ternary (.of main_v15 : StableHlo.TRef sig ⟨S16x1024x4096, .i1⟩) (.of main_v17 : StableHlo.TRef sig ⟨S16x1024x4096, .i32⟩) main_call1.v1 main_call1.v2 select ]
theorem ops3_sub : (ops3 : List (HloOp τ sig (Elt F))).Forall fun op => op.bufs ⊆ tcRefs τ sig :=
  ⟨unary_bufs_sub .., unary_bufs_sub .., ternary_bufs_sub ..⟩

/-- The index coordinates, the table of zeros, the values scattered and the three coordinate arrays: 35 operations. -/
abbrev ops4 : List (HloOp τ sig (Elt F)) :=
  [ StableHlo.nullary main_v19 (iotaInDim S16 32 0),
    StableHlo.unary main_v19 main_v20 (broadcastInDim S16x1x1 ![0] bcast_S16_S16x1x1_0 : (⟨S16, .i32⟩ : BufTy).Contents (Elt F) → (⟨S16x1x1, .i32⟩ : BufTy).Contents (Elt F)),
    StableHlo.nullary main_v21 (iotaInDim S1024 32 0),
    StableHlo.unary main_v21 main_v22 (broadcastInDim S1x1024x1 ![1] bcast_S1024_S1x1024x1_1 : (⟨S1024, .i32⟩ : BufTy).Contents (Elt F) → (⟨S1x1024x1, .i32⟩ : BufTy).Contents (Elt F)),
    StableHlo.nullary main_v23 (iotaInDim S4096 32 0),
    StableHlo.unary main_v23 main_v24 (broadcastInDim S1x1x4096 ![2] bcast_S4096_S1x1x4096_2 : (⟨S4096, .i32⟩ : BufTy).Contents (Elt F) → (⟨S1x1x4096, .i32⟩ : BufTy).Contents (Elt F)),
    StableHlo.unary main_v24 main_v25 (broadcastInDim S16x1024x4096 ![0, 1, 2] bcast_S1x1x4096_S16x1024x4096_0_1_2 : (⟨S1x1x4096, .i32⟩ : BufTy).Contents (Elt F) → (⟨S16x1024x4096, .i32⟩ : BufTy).Contents (Elt F)),
    StableHlo.nullary main_c_3 (constantI S_ 32 0#32),
    StableHlo.unary main_c_3 main_v26 (broadcastInDim S16x1024x33 ![] bcast_S_S16x1024x33 : (⟨S_, .i32⟩ : BufTy).Contents (Elt F) → (⟨S16x1024x33, .i32⟩ : BufTy).Contents (Elt F)),
    StableHlo.nullary main_c_4 (constantI S_ 32 0#32),
    StableHlo.unary main_c_4 main_v27 (broadcastInDim S16x1x1 ![] bcast_S_S16x1x1 : (⟨S_, .i32⟩ : BufTy).Contents (Elt F) → (⟨S16x1x1, .i32⟩ : BufTy).Contents (Elt F)),
    StableHlo.binary main_v20 main_v27 main_v28 (cmpi .slt : (⟨S16x1x1, .i32⟩ : BufTy).Contents (Elt F) → (⟨S16x1x1, .i32⟩ : BufTy).Contents (Elt F) → (⟨S16x1x1, .i1⟩ : BufTy).Contents (Elt F)),
    StableHlo.nullary main_c_5 (constantI S_ 32 16#32),
    StableHlo.unary main_c_5 main_v29 (broadcastInDim S16x1x1 ![] bcast_S_S16x1x1 : (⟨S_, .i32⟩ : BufTy).Contents (Elt F) → (⟨S16x1x1, .i32⟩ : BufTy).Contents (Elt F)),
    StableHlo.binary main_v20 main_v29 main_v30 (addi : (⟨S16x1x1, .i32⟩ : BufTy).Contents (Elt F) → (⟨S16x1x1, .i32⟩ : BufTy).Contents (Elt F) → (⟨S16x1x1, .i32⟩ : BufTy).Contents (Elt F)),
    StableHlo.ternary main_v28 main_v30 main_v20 main_v31 (select : (⟨S16x1x1, .i1⟩ : BufTy).Contents (Elt F) → (⟨S16x1x1, .i32⟩ : BufTy).Contents (Elt F) → (⟨S16x1x1, .i32⟩ : BufTy).Contents (Elt F) → (⟨S16x1x1, .i32⟩ : BufTy).Contents (Elt F)),
    StableHlo.nullary main_c_6 (constantI S_ 32 0#32),
    StableHlo.unary main_c_6 main_v32 (broadcastInDim S1x1024x1 ![] bcast_S_S1x1024x1 : (⟨S_, .i32⟩ : BufTy).Contents (Elt F) → (⟨S1x1024x1, .i32⟩ : BufTy).Contents (Elt F)),
    StableHlo.binary main_v22 main_v32 main_v33 (cmpi .slt : (⟨S1x1024x1, .i32⟩ : BufTy).Contents (Elt F) → (⟨S1x1024x1, .i32⟩ : BufTy).Contents (Elt F) → (⟨S1x1024x1, .i1⟩ : BufTy).Contents (Elt F)),
    StableHlo.nullary main_c_7 (constantI S_ 32 1024#32),
    StableHlo.unary main_c_7 main_v34 (broadcastInDim S1x1024x1 ![] bcast_S_S1x1024x1 : (⟨S_, .i32⟩ : BufTy).Contents (Elt F) → (⟨S1x1024x1, .i32⟩ : BufTy).Contents (Elt F)),
    StableHlo.binary main_v22 main_v34 main_v35 (addi : (⟨S1x1024x1, .i32⟩ : BufTy).Contents (Elt F) → (⟨S1x1024x1, .i32⟩ : BufTy).Contents (Elt F) → (⟨S1x1024x1, .i32⟩ : BufTy).Contents (Elt F)),
    StableHlo.ternary main_v33 main_v35 main_v22 main_v36 (select : (⟨S1x1024x1, .i1⟩ : BufTy).Contents (Elt F) → (⟨S1x1024x1, .i32⟩ : BufTy).Contents (Elt F) → (⟨S1x1024x1, .i32⟩ : BufTy).Contents (Elt F) → (⟨S1x1024x1, .i32⟩ : BufTy).Contents (Elt F)),
    StableHlo.nullary main_c_8 (constantI S_ 32 0#32),
    StableHlo.unary main_c_8 main_v37 (broadcastInDim S16x1024x4096 ![] bcast_S_S16x1024x4096 : (⟨S_, .i32⟩ : BufTy).Contents (Elt F) → (⟨S16x1024x4096, .i32⟩ : BufTy).Contents (Elt F)),
    StableHlo.binary main_v18 main_v37 main_v38 (cmpi .slt : (⟨S16x1024x4096, .i32⟩ : BufTy).Contents (Elt F) → (⟨S16x1024x4096, .i32⟩ : BufTy).Contents (Elt F) → (⟨S16x1024x4096, .i1⟩ : BufTy).Contents (Elt F)),
    StableHlo.nullary main_c_9 (constantI S_ 32 33#32),
    StableHlo.unary main_c_9 main_v39 (broadcastInDim S16x1024x4096 ![] bcast_S_S16x1024x4096 : (⟨S_, .i32⟩ : BufTy).Contents (Elt F) → (⟨S16x1024x4096, .i32⟩ : BufTy).Contents (Elt F)),
    StableHlo.binary main_v18 main_v39 main_v40 (addi : (⟨S16x1024x4096, .i32⟩ : BufTy).Contents (Elt F) → (⟨S16x1024x4096, .i32⟩ : BufTy).Contents (Elt F) → (⟨S16x1024x4096, .i32⟩ : BufTy).Contents (Elt F)),
    StableHlo.ternary main_v38 main_v40 main_v18 main_v41 (select : (⟨S16x1024x4096, .i1⟩ : BufTy).Contents (Elt F) → (⟨S16x1024x4096, .i32⟩ : BufTy).Contents (Elt F) → (⟨S16x1024x4096, .i32⟩ : BufTy).Contents (Elt F) → (⟨S16x1024x4096, .i32⟩ : BufTy).Contents (Elt F)),
    StableHlo.unary main_v31 main_v42 (broadcastInDim S16x1024x4096 ![0, 1, 2] bcast_S16x1x1_S16x1024x4096_0_1_2 : (⟨S16x1x1, .i32⟩ : BufTy).Contents (Elt F) → (⟨S16x1024x4096, .i32⟩ : BufTy).Contents (Elt F)),
    StableHlo.unary main_v36 main_v43 (broadcastInDim S16x1024x4096 ![0, 1, 2] bcast_S1x1024x1_S16x1024x4096_0_1_2 : (⟨S1x1024x1, .i32⟩ : BufTy).Contents (Elt F) → (⟨S16x1024x4096, .i32⟩ : BufTy).Contents (Elt F)),
    StableHlo.unary main_v42 main_v44 (broadcastInDim S16x1024x4096x1 ![0, 1, 2] bcast_S16x1024x4096_S16x1024x4096x1_0_1_2 : (⟨S16x1024x4096, .i32⟩ : BufTy).Contents (Elt F) → (⟨S16x1024x4096x1, .i32⟩ : BufTy).Contents (Elt F)),
    StableHlo.unary main_v43 main_v45 (broadcastInDim S16x1024x4096x1 ![0, 1, 2] bcast_S16x1024x4096_S16x1024x4096x1_0_1_2 : (⟨S16x1024x4096, .i32⟩ : BufTy).Contents (Elt F) → (⟨S16x1024x4096x1, .i32⟩ : BufTy).Contents (Elt F)),
    StableHlo.unary main_v41 main_v46 (broadcastInDim S16x1024x4096x1 ![0, 1, 2] bcast_S16x1024x4096_S16x1024x4096x1_0_1_2 : (⟨S16x1024x4096, .i32⟩ : BufTy).Contents (Elt F) → (⟨S16x1024x4096x1, .i32⟩ : BufTy).Contents (Elt F)) ]
theorem ops4_sub : (ops4 : List (HloOp τ sig (Elt F))).Forall fun op => op.bufs ⊆ tcRefs τ sig :=
  ⟨nullary_bufs_sub .., unary_bufs_sub .., nullary_bufs_sub .., unary_bufs_sub .., nullary_bufs_sub .., unary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub ..⟩

/-- The scatter indices, the three coordinate arrays side by side: 1 operation. -/
abbrev ops4n : List (HloOp τ sig (Elt F)) :=
  [ StableHlo.nary ![main_v44, main_v45, main_v46] main_v47 (fun u => concatenate S16x1024x4096x3 3 [⟨S16x1024x4096x1, u 0⟩, ⟨S16x1024x4096x1, u 1⟩, ⟨S16x1024x4096x1, u 2⟩] concatenates_S16x1024x4096x1_S16x1024x4096x1_S16x1024x4096x1_S16x1024x4096x3_d3) ]
theorem ops4n_sub : (ops4n : List (HloOp τ sig (Elt F))).Forall fun op => op.bufs ⊆ tcRefs τ sig :=
  nary_bufs_sub ..

/-- The scatter, the cut to 32 slots, the mask of filled slots and slot 0: 12 operations. -/
abbrev ops5 : List (HloOp τ sig (Elt F)) :=
  [ StableHlo.ternary main_v26 main_v47 main_v25 main_v48 ((fun x i u => Host.scatter scatter_S16x1024x33_S16x1024x4096x3_S16x1024x4096_n_012_012_3 (fun _ b => b) x i u) : (⟨S16x1024x33, .i32⟩ : BufTy).Contents (Elt F) → (⟨S16x1024x4096x3, .i32⟩ : BufTy).Contents (Elt F) → (⟨S16x1024x4096, .i32⟩ : BufTy).Contents (Elt F) → (⟨S16x1024x33, .i32⟩ : BufTy).Contents (Elt F)),
    StableHlo.unary main_v48 main_v49 ((extractStridedSlice S16x1024x32 ![0, 0, 0] · slices_S16x1024x33_S16x1024x32_0_0_0) : (⟨S16x1024x33, .i32⟩ : BufTy).Contents (Elt F) → (⟨S16x1024x32, .i32⟩ : BufTy).Contents (Elt F)),
    StableHlo.nullary main_v50 (iotaInDim S32 32 0),
    StableHlo.unary main_v50 main_v51 (broadcastInDim S1x1x32 ![2] bcast_S32_S1x1x32_2 : (⟨S32, .i32⟩ : BufTy).Contents (Elt F) → (⟨S1x1x32, .i32⟩ : BufTy).Contents (Elt F)),
    StableHlo.nullary main_c_10 (constantI S_ 32 32#32),
    StableHlo.unary main_c_10 main_v52 (broadcastInDim S16x1024 ![] bcast_S_S16x1024 : (⟨S_, .i32⟩ : BufTy).Contents (Elt F) → (⟨S16x1024, .i32⟩ : BufTy).Contents (Elt F)),
    StableHlo.binary main_v12 main_v52 main_v53 (minsi : (⟨S16x1024, .i32⟩ : BufTy).Contents (Elt F) → (⟨S16x1024, .i32⟩ : BufTy).Contents (Elt F) → (⟨S16x1024, .i32⟩ : BufTy).Contents (Elt F)),
    StableHlo.unary main_v53 main_v54 (broadcastInDim S16x1024x1 ![0, 1] bcast_S16x1024_S16x1024x1_0_1 : (⟨S16x1024, .i32⟩ : BufTy).Contents (Elt F) → (⟨S16x1024x1, .i32⟩ : BufTy).Contents (Elt F)),
    StableHlo.unary main_v51 main_v55 (broadcastInDim S16x1024x32 ![0, 1, 2] bcast_S1x1x32_S16x1024x32_0_1_2 : (⟨S1x1x32, .i32⟩ : BufTy).Contents (Elt F) → (⟨S16x1024x32, .i32⟩ : BufTy).Contents (Elt F)),
    StableHlo.unary main_v54 main_v56 (broadcastInDim S16x1024x32 ![0, 1, 2] bcast_S16x1024x1_S16x1024x32_0_1_2 : (⟨S16x1024x1, .i32⟩ : BufTy).Contents (Elt F) → (⟨S16x1024x32, .i32⟩ : BufTy).Contents (Elt F)),
    StableHlo.binary main_v55 main_v56 main_v57 (cmpi .slt : (⟨S16x1024x32, .i32⟩ : BufTy).Contents (Elt F) → (⟨S16x1024x32, .i32⟩ : BufTy).Contents (Elt F) → (⟨S16x1024x32, .i1⟩ : BufTy).Contents (Elt F)),
    StableHlo.unary main_v49 main_v58 ((extractStridedSlice S16x1024x1 ![0, 0, 0] · slices_S16x1024x32_S16x1024x1_0_0_0) : (⟨S16x1024x32, .i32⟩ : BufTy).Contents (Elt F) → (⟨S16x1024x1, .i32⟩ : BufTy).Contents (Elt F)) ]
theorem ops5_sub : (ops5 : List (HloOp τ sig (Elt F))).Forall fun op => op.bufs ⊆ tcRefs τ sig :=
  ⟨ternary_bufs_sub .., unary_bufs_sub .., nullary_bufs_sub .., unary_bufs_sub .., nullary_bufs_sub .., unary_bufs_sub .., binary_bufs_sub .., unary_bufs_sub .., unary_bufs_sub .., unary_bufs_sub .., binary_bufs_sub .., unary_bufs_sub ..⟩

/-- The neighbour table (the outlined choice between a slot's entry and slot 0's): 2 operations. -/
abbrev ops6 : List (HloOp τ sig (Elt F)) :=
  [ StableHlo.TRef.unary (.of main_v58 : StableHlo.TRef sig ⟨S16x1024x1, .i32⟩) main_call2.v0 (broadcastInDim S16x1024x32 ![0, 1, 2] bcast_S16x1024x1_S16x1024x32_0_1_2),
    StableHlo.TRef.ternary (.of main_v57 : StableHlo.TRef sig ⟨S16x1024x32, .i1⟩) (.of main_v49 : StableHlo.TRef sig ⟨S16x1024x32, .i32⟩) main_call2.v0 main_call2.v1 select ]
theorem ops6_sub : (ops6 : List (HloOp τ sig (Elt F))).Forall fun op => op.bufs ⊆ tcRefs τ sig :=
  ⟨unary_bufs_sub .., ternary_bufs_sub ..⟩

/-- The two gathers at the neighbour table, the centroid subtraction and the concatenation: 24 operations. -/
abbrev ops7 : List (HloOp τ sig (Elt F)) :=
  [ StableHlo.nullary main_c_11 (constantI S_ 32 0#32),
    StableHlo.unary main_c_11 main_v60 (broadcastInDim S16x1024x32 ![] bcast_S_S16x1024x32 : (⟨S_, .i32⟩ : BufTy).Contents (Elt F) → (⟨S16x1024x32, .i32⟩ : BufTy).Contents (Elt F)),
    StableHlo.binary main_v59 main_v60 main_v61 (cmpi .slt : (⟨S16x1024x32, .i32⟩ : BufTy).Contents (Elt F) → (⟨S16x1024x32, .i32⟩ : BufTy).Contents (Elt F) → (⟨S16x1024x32, .i1⟩ : BufTy).Contents (Elt F)),
    StableHlo.nullary main_c_12 (constantI S_ 32 4096#32),
    StableHlo.unary main_c_12 main_v62 (broadcastInDim S16x1024x32 ![] bcast_S_S16x1024x32 : (⟨S_, .i32⟩ : BufTy).Contents (Elt F) → (⟨S16x1024x32, .i32⟩ : BufTy).Contents (Elt F)),
    StableHlo.binary main_v59 main_v62 main_v63 (addi : (⟨S16x1024x32, .i32⟩ : BufTy).Contents (Elt F) → (⟨S16x1024x32, .i32⟩ : BufTy).Contents (Elt F) → (⟨S16x1024x32, .i32⟩ : BufTy).Contents (Elt F)),
    StableHlo.ternary main_v61 main_v63 main_v59 main_v64 (select : (⟨S16x1024x32, .i1⟩ : BufTy).Contents (Elt F) → (⟨S16x1024x32, .i32⟩ : BufTy).Contents (Elt F) → (⟨S16x1024x32, .i32⟩ : BufTy).Contents (Elt F) → (⟨S16x1024x32, .i32⟩ : BufTy).Contents (Elt F)),
    StableHlo.unary main_v64 main_v65 (broadcastInDim S16x1024x32x1 ![0, 1, 2] bcast_S16x1024x32_S16x1024x32x1_0_1_2 : (⟨S16x1024x32, .i32⟩ : BufTy).Contents (Elt F) → (⟨S16x1024x32x1, .i32⟩ : BufTy).Contents (Elt F)),
    StableHlo.binary main_arg0 main_v65 main_v66 ((fun x i => Host.gather gather_S16x4096x3_S16x1024x32x1_S16x1024x32x3_3_1_0_0_1_3_113 x i) : (⟨S16x4096x3, .f32⟩ : BufTy).Contents (Elt F) → (⟨S16x1024x32x1, .i32⟩ : BufTy).Contents (Elt F) → (⟨S16x1024x32x3, .f32⟩ : BufTy).Contents (Elt F)),
    StableHlo.unary main_v66 main_v67 ((transpose S16x3x1024x32 [0, 3, 1, 2] · transposes_S16x1024x32x3_S16x3x1024x32_0_3_1_2) : (⟨S16x1024x32x3, .f32⟩ : BufTy).Contents (Elt F) → (⟨S16x3x1024x32, .f32⟩ : BufTy).Contents (Elt F)),
    StableHlo.unary main_arg1 main_v68 ((transpose S16x3x1024 [0, 2, 1] · transposes_S16x1024x3_S16x3x1024_0_2_1) : (⟨S16x1024x3, .f32⟩ : BufTy).Contents (Elt F) → (⟨S16x3x1024, .f32⟩ : BufTy).Contents (Elt F)),
    StableHlo.unary main_v68 main_v69 (broadcastInDim S16x3x1024x1 ![0, 1, 2] bcast_S16x3x1024_S16x3x1024x1_0_1_2 : (⟨S16x3x1024, .f32⟩ : BufTy).Contents (Elt F) → (⟨S16x3x1024x1, .f32⟩ : BufTy).Contents (Elt F)),
    StableHlo.unary main_v69 main_v70 (broadcastInDim S16x3x1024x32 ![0, 1, 2, 3] bcast_S16x3x1024x1_S16x3x1024x32_0_1_2_3 : (⟨S16x3x1024x1, .f32⟩ : BufTy).Contents (Elt F) → (⟨S16x3x1024x32, .f32⟩ : BufTy).Contents (Elt F)),
    StableHlo.binary main_v67 main_v70 main_v71 (subf : (⟨S16x3x1024x32, .f32⟩ : BufTy).Contents (Elt F) → (⟨S16x3x1024x32, .f32⟩ : BufTy).Contents (Elt F) → (⟨S16x3x1024x32, .f32⟩ : BufTy).Contents (Elt F)),
    StableHlo.nullary main_c_13 (constantI S_ 32 0#32),
    StableHlo.unary main_c_13 main_v72 (broadcastInDim S16x1024x32 ![] bcast_S_S16x1024x32 : (⟨S_, .i32⟩ : BufTy).Contents (Elt F) → (⟨S16x1024x32, .i32⟩ : BufTy).Contents (Elt F)),
    StableHlo.binary main_v59 main_v72 main_v73 (cmpi .slt : (⟨S16x1024x32, .i32⟩ : BufTy).Contents (Elt F) → (⟨S16x1024x32, .i32⟩ : BufTy).Contents (Elt F) → (⟨S16x1024x32, .i1⟩ : BufTy).Contents (Elt F)),
    StableHlo.nullary main_c_14 (constantI S_ 32 4096#32),
    StableHlo.unary main_c_14 main_v74 (broadcastInDim S16x1024x32 ![] bcast_S_S16x1024x32 : (⟨S_, .i32⟩ : BufTy).Contents (Elt F) → (⟨S16x1024x32, .i32⟩ : BufTy).Contents (Elt F)),
    StableHlo.binary main_v59 main_v74 main_v75 (addi : (⟨S16x1024x32, .i32⟩ : BufTy).Contents (Elt F) → (⟨S16x1024x32, .i32⟩ : BufTy).Contents (Elt F) → (⟨S16x1024x32, .i32⟩ : BufTy).Contents (Elt F)),
    StableHlo.ternary main_v73 main_v75 main_v59 main_v76 (select : (⟨S16x1024x32, .i1⟩ : BufTy).Contents (Elt F) → (⟨S16x1024x32, .i32⟩ : BufTy).Contents (Elt F) → (⟨S16x1024x32, .i32⟩ : BufTy).Contents (Elt F) → (⟨S16x1024x32, .i32⟩ : BufTy).Contents (Elt F)),
    StableHlo.unary main_v76 main_v77 (broadcastInDim S16x1024x32x1 ![0, 1, 2] bcast_S16x1024x32_S16x1024x32x1_0_1_2 : (⟨S16x1024x32, .i32⟩ : BufTy).Contents (Elt F) → (⟨S16x1024x32x1, .i32⟩ : BufTy).Contents (Elt F)),
    StableHlo.binary main_arg2 main_v77 main_v78 ((fun x i => Host.gather gather_S16x64x4096_S16x1024x32x1_S16x64x1024x32_1_2_0_0_2_3_1641 x i) : (⟨S16x64x4096, .f32⟩ : BufTy).Contents (Elt F) → (⟨S16x1024x32x1, .i32⟩ : BufTy).Contents (Elt F) → (⟨S16x64x1024x32, .f32⟩ : BufTy).Contents (Elt F)),
    StableHlo.binary main_v71 main_v78 main_v79 ((fun a b => concatenate S16x67x1024x32 1 [⟨S16x3x1024x32, a⟩, ⟨S16x64x1024x32, b⟩] concatenates_S16x3x1024x32_S16x64x1024x32_S16x67x1024x32_d1) : (⟨S16x3x1024x32, .f32⟩ : BufTy).Contents (Elt F) → (⟨S16x64x1024x32, .f32⟩ : BufTy).Contents (Elt F) → (⟨S16x67x1024x32, .f32⟩ : BufTy).Contents (Elt F)) ]
theorem ops7_sub : (ops7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- All 102 operations: the stretches one after the other. -/
abbrev ops : List (HloOp τ sig (Elt F)) := List.flatten [ops0, ops1, ops2, ops3, ops4, ops4n, ops5, ops6, ops7]

/-! ## The program is the operations run in order -/

/-- The program's first part is its six stretches, the last in tail position. -/
theorem main_part0_chain (c : Dev nD) : main_part0 (F := F) c = (Pipeline.chainK
  [ seq ops0, seq ops1, seq ops2, seq ops3, seq ops4 ]
  (seq ops4n) : Prog (TpuEff nD τ sig (Elt F) (Pipeline.Sig Λ₀ (Fin 0) fun p => (pcfgs (F := F) p).Adm) .tc) PUnit) := by
  chain_rfl

/-- The program's second part is its three stretches. -/
theorem main_part1_chain (c : Dev nD) : main_part1 (F := F) c = (Pipeline.chain
  [ seq ops5, seq ops6, seq ops7 ] : Prog (TpuEff nD τ sig (Elt F) (Pipeline.Sig Λ₀ (Fin 0) fun p => (pcfgs (F := F) p).Adm) .tc) PUnit) := by
  chain_rfl

/-- The program is the chain of the nine stretches. -/
theorem main_chain (c : Dev nD) : main (F := F) c = (Pipeline.chain
  [ seq ops0, seq ops1, seq ops2, seq ops3, seq ops4, seq ops4n, seq ops5, seq ops6, seq ops7 ] : Prog (TpuEff nD τ sig (Elt F) (Pipeline.Sig Λ₀ (Fin 0) fun p => (pcfgs (F := F) p).Adm) .tc) PUnit) := by
  show (main_part0 (F := F) c >>= fun _ => main_part1 (F := F) c) = _
  rewrite [main_part1_chain, main_part0_chain, Pipeline.chainK_bind_chain]
  chain_rfl

/-- A chain of straight lines is the one straight line of all their operations. -/
theorem chain_map_seq {nD : Nat} {τ : Topo} {sig : RefSig} {Val : EltTy → Type} {Λ : Labels} :
    ∀ ls : List (List (HloOp τ sig Val)),
      (Pipeline.chain (ls.map seq) : Prog (TpuEff nD τ sig Val Λ .tc) PUnit) = seq ls.flatten
  | [] => rfl
  | l :: ls => by
    rw [List.map_cons, Pipeline.chain_cons, List.flatten_cons, seq_append, chain_map_seq ls]

theorem main_eq (c : Dev nD) : main (F := F) c = seq ops := by
  rw [main_chain]
  exact chain_map_seq [ops0, ops1, ops2, ops3, ops4, ops4n, ops5, ops6, ops7]

theorem scopedRefs_eq : (Finset.univ.filter fun b : Ref sig .tc => b.isScoped) = ∅ := by decide
theorem scopedSems_eq : (Finset.univ.filter fun sm : SemLoc sig => sm.isScoped .tc) = ∅ := by decide

/-- A property of every element of every list holds of every element of their concatenation. -/
theorem forall_flatten {α : Type} {P : α → Prop} (ls : List (List α)) (h : ∀ l ∈ ls, l.Forall P) :
    ls.flatten.Forall P :=
  List.forall_iff_forall_mem.mpr fun a ha => by
    obtain ⟨l, hl, hal⟩ := List.mem_flatten.mp ha
    exact List.forall_iff_forall_mem.mp (h l hl) a hal

theorem ops_sub : (ops : List (HloOp τ sig (Elt F))).Forall fun op => op.bufs ⊆ tcRefs τ sig :=
  forall_flatten _ (List.forall_mem_cons.mpr ⟨ops0_sub, List.forall_mem_cons.mpr ⟨ops1_sub, List.forall_mem_cons.mpr ⟨ops2_sub, List.forall_mem_cons.mpr ⟨ops3_sub, List.forall_mem_cons.mpr ⟨ops4_sub, List.forall_mem_cons.mpr ⟨ops4n_sub, List.forall_mem_cons.mpr ⟨ops5_sub, List.forall_mem_cons.mpr ⟨ops6_sub, List.forall_mem_cons.mpr ⟨ops7_sub, fun _ h => nomatch h⟩⟩⟩⟩⟩⟩⟩⟩⟩)

theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops4_fresh : ∀ op ∈ (ops4 : List (HloOp τ sig (Elt F))), op.fresh = ∅ := by
  intro _ h; (repeat (cases h with | head => rfl | tail _ h => ?_)); exact nomatch h
theorem ops4n_fresh : ∀ op ∈ (ops4n : List (HloOp τ sig (Elt F))), op.fresh = ∅ := by
  intro _ h; (repeat (cases h with | head => rfl | tail _ h => ?_)); exact nomatch h
theorem ops5_fresh : ∀ op ∈ (ops5 : List (HloOp τ sig (Elt F))), op.fresh = ∅ := by
  intro _ h; (repeat (cases h with | head => rfl | tail _ h => ?_)); exact nomatch h
theorem ops6_fresh : ∀ op ∈ (ops6 : List (HloOp τ sig (Elt F))), op.fresh = ∅ := by
  intro _ h; (repeat (cases h with | head => rfl | tail _ h => ?_)); exact nomatch h
theorem ops7_fresh : ∀ op ∈ (ops7 : List (HloOp τ sig (Elt F))), op.fresh = ∅ := by
  intro _ h; (repeat (cases h with | head => rfl | tail _ h => ?_)); exact nomatch h

/-- Every operation determines what it writes. -/
theorem ops_fresh : ∀ op ∈ (ops : List (HloOp τ sig (Elt F))), op.fresh = ∅ := fun op hop => by
  obtain ⟨l, hl, hal⟩ := List.mem_flatten.mp hop
  simp only [List.mem_cons, List.mem_nil_iff, or_false] at hl
  rcases hl with rfl | rfl | rfl | rfl | rfl | rfl | rfl | rfl | rfl
  · exact ops0_fresh op hal
  · exact ops1_fresh op hal
  · exact ops2_fresh op hal
  · exact ops3_fresh op hal
  · exact ops4_fresh op hal
  · exact ops4n_fresh op hal
  · exact ops5_fresh op hal
  · exact ops6_fresh op hal
  · exact ops7_fresh op hal

/-- Every weakly fair execution terminates, each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.RefRun.lean ====
import proofs.«141127_j52785148067965_2_alg».proof.Proof.RefRunOps

/-!
# The reference's run: its result is the grouped result at the neighbour table

The fold of the operations is read in three steps: what the buffers hold when the scatter indices are put
together (the count per centre, the values scattered, the table of zeros, and the three coordinate arrays, each
the definition of it); from those the neighbour table; from the table and the three arguments the result.
-/

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

/-- The scatter indices' buffer after the concatenation of the three coordinate arrays: the concatenation of what
    the three buffers held. -/
theorem v47_result' (V : Valuation τ sig (Elt F)) :
    (StableHlo.nary ![main_v44, main_v45, main_v46] main_v47 (fun u => concatenate S16x1024x4096x3 3 [⟨S16x1024x4096x1, u 0⟩, ⟨S16x1024x4096x1, u 1⟩, ⟨S16x1024x4096x1, u 2⟩] concatenates_S16x1024x4096x1_S16x1024x4096x1_S16x1024x4096x1_S16x1024x4096x3_d3) : HloOp τ sig (Elt F)).result V (no_index (Proc.devRef .tc main_v47))
      = concatenate S16x1024x4096x3 3 [⟨S16x1024x4096x1, V (Proc.devRef .tc main_v44)⟩, ⟨S16x1024x4096x1, V (Proc.devRef .tc main_v45)⟩, ⟨S16x1024x4096x1, V (Proc.devRef .tc main_v46)⟩] concatenates_S16x1024x4096x1_S16x1024x4096x1_S16x1024x4096x1_S16x1024x4096x3_d3 :=
  nary_result _ _ _ _ _ V

/-- The fold of a literal list of operations read at a buffer, in one pass. -/
macro "fold_results" : tactic =>
  `(tactic| (simp (disch := decide) only [after_cons, after_nil,
      nullary_result', unary_result', binary_result', ternary_result', reshape_result', v47_result', cast_eq,
      nullary_result_ne', unary_result_ne', binary_result_ne', ternary_result_ne', reshape_result_ne', nary_result_ne']))

variable (V : Valuation τ sig (Elt F))

/-! ## Up to the scatter indices -/

/-- The buffers' contents when the three coordinate arrays have been written. -/
def W4 : Valuation τ sig (Elt F) := after ops4 (after ops3 (after ops2 (after ops1 (after ops0 V))))

theorem w4_v12 : W4 V (main_v12 : DevRef τ sig) = cnt (V (main_arg0 : DevRef τ sig)) (V (main_arg1 : DevRef τ sig)) := by
  unfold W4; fold_results; rfl
theorem w4_v25 : W4 V (main_v25 : DevRef τ sig) = nn := by
  unfold W4; fold_results; rfl
theorem w4_v26 : W4 V (main_v26 : DevRef τ sig) = zeros33 := by
  unfold W4; fold_results; rfl
theorem w4_v44 : W4 V (main_v44 : DevRef τ sig) = broadcastInDim S16x1024x4096x1 ![0, 1, 2] bcast_S16x1024x4096_S16x1024x4096x1_0_1_2 (broadcastInDim S16x1024x4096 ![0, 1, 2] bcast_S16x1x1_S16x1024x4096_0_1_2 bbN) := by
  unfold W4; fold_results; rfl
theorem w4_v45 : W4 V (main_v45 : DevRef τ sig) = broadcastInDim S16x1024x4096x1 ![0, 1, 2] bcast_S16x1024x4096_S16x1024x4096x1_0_1_2 (broadcastInDim S16x1024x4096 ![0, 1, 2] bcast_S1x1024x1_S16x1024x4096_0_1_2 ppN) := by
  unfold W4; fold_results; rfl
theorem w4_v46 : W4 V (main_v46 : DevRef τ sig) = broadcastInDim S16x1024x4096x1 ![0, 1, 2] bcast_S16x1024x4096_S16x1024x4096x1_0_1_2 (slotN (V (main_arg0 : DevRef τ sig)) (V (main_arg1 : DevRef τ sig))) := by
  unfold W4; fold_results; rfl
theorem w4_arg0 : W4 V (main_arg0 : DevRef τ sig) = V (main_arg0 : DevRef τ sig) := by
  unfold W4; fold_results
theorem w4_arg1 : W4 V (main_arg1 : DevRef τ sig) = V (main_arg1 : DevRef τ sig) := by
  unfold W4; fold_results
theorem w4_arg2 : W4 V (main_arg2 : DevRef τ sig) = V (main_arg2 : DevRef τ sig) := by
  unfold W4; fold_results

/-! ## From there to the neighbour table -/

theorem idx_of (W : Valuation τ sig (Elt F)) (x0 : (⟨S16x4096x3, .f32⟩ : BufTy).Contents (Elt F)) (x1 : (⟨S16x1024x3, .f32⟩ : BufTy).Contents (Elt F))
    (h12 : W (main_v12 : DevRef τ sig) = cnt x0 x1) (h25 : W (main_v25 : DevRef τ sig) = nn) (h26 : W (main_v26 : DevRef τ sig) = zeros33)
    (h44 : W (main_v44 : DevRef τ sig) = broadcastInDim S16x1024x4096x1 ![0, 1, 2] bcast_S16x1024x4096_S16x1024x4096x1_0_1_2 (broadcastInDim S16x1024x4096 ![0, 1, 2] bcast_S16x1x1_S16x1024x4096_0_1_2 bbN))
    (h45 : W (main_v45 : DevRef τ sig) = broadcastInDim S16x1024x4096x1 ![0, 1, 2] bcast_S16x1024x4096_S16x1024x4096x1_0_1_2 (broadcastInDim S16x1024x4096 ![0, 1, 2] bcast_S1x1024x1_S16x1024x4096_0_1_2 ppN))
    (h46 : W (main_v46 : DevRef τ sig) = broadcastInDim S16x1024x4096x1 ![0, 1, 2] bcast_S16x1024x4096_S16x1024x4096x1_0_1_2 (slotN x0 x1)) :
    after ops6 (after ops5 (after ops4n W)) (main_v59 : DevRef τ sig) = idx59 x0 x1 := by
  fold_results
  rw [h12, h25, h26, h44, h45, h46]
  rfl

theorem keep_arg0 (W : Valuation τ sig (Elt F)) : after ops6 (after ops5 (after ops4n W)) (main_arg0 : DevRef τ sig) = W (main_arg0 : DevRef τ sig) := by
  fold_results
theorem keep_arg1 (W : Valuation τ sig (Elt F)) : after ops6 (after ops5 (after ops4n W)) (main_arg1 : DevRef τ sig) = W (main_arg1 : DevRef τ sig) := by
  fold_results
theorem keep_arg2 (W : Valuation τ sig (Elt F)) : after ops6 (after ops5 (after ops4n W)) (main_arg2 : DevRef τ sig) = W (main_arg2 : DevRef τ sig) := by
  fold_results

/-! ## The result -/

theorem tail_eq (W : Valuation τ sig (Elt F)) :
    after ops7 W (main_v79 : DevRef τ sig) = groupAt (W (main_arg0 : DevRef τ sig)) (W (main_arg1 : DevRef τ sig)) (W (main_arg2 : DevRef τ sig)) (W (main_v59 : DevRef τ sig)) := by
  fold_results; rfl
theorem tail_arg0 (W : Valuation τ sig (Elt F)) : after ops7 W (main_arg0 : DevRef τ sig) = W (main_arg0 : DevRef τ sig) := by fold_results
theorem tail_arg1 (W : Valuation τ sig (Elt F)) : after ops7 W (main_arg1 : DevRef τ sig) = W (main_arg1 : DevRef τ sig) := by fold_results
theorem tail_arg2 (W : Valuation τ sig (Elt F)) : after ops7 W (main_arg2 : DevRef τ sig) = W (main_arg2 : DevRef τ sig) := by fold_results

/-- The fold over two lines in a row is the fold over the second from the fold over the first. -/
theorem after_app {τ : Topo} {sig : RefSig} {Val : EltTy → Type} :
    ∀ (l₁ l₂ : List (HloOp τ sig Val)) (W : Valuation τ sig Val), after (l₁ ++ l₂) W = after l₂ (after l₁ W)
  | [], _, _ => rfl
  | op :: l₁, l₂, W => by rw [List.cons_append, after_cons, after_cons, after_app l₁ l₂]

theorem after_ops : after ops V = after ops7 (after ops6 (after ops5 (after ops4n (W4 V)))) := by
  unfold W4
  simp only [ops, List.flatten_cons, List.flatten_nil, List.append_nil, after_app]

theorem idx_eq : after ops6 (after ops5 (after ops4n (W4 V))) (main_v59 : DevRef τ sig) = idx59 (V (main_arg0 : DevRef τ sig)) (V (main_arg1 : DevRef τ sig)) :=
  idx_of (W4 V) _ _ (w4_v12 V) (w4_v25 V) (w4_v26 V) (w4_v44 V) (w4_v45 V) (w4_v46 V)

theorem out_eq : after ops V (main_v79 : DevRef τ sig) = res79 (V (main_arg0 : DevRef τ sig)) (V (main_arg1 : DevRef τ sig)) (V (main_arg2 : DevRef τ sig)) := by
  rw [after_ops, tail_eq, idx_eq, keep_arg0, keep_arg1, keep_arg2, w4_arg0, w4_arg1, w4_arg2]
  rfl
theorem arg0_eq : after ops V (main_arg0 : DevRef τ sig) = V (main_arg0 : DevRef τ sig) := by
  rw [after_ops, tail_arg0, keep_arg0, w4_arg0]
theorem arg1_eq : after ops V (main_arg1 : DevRef τ sig) = V (main_arg1 : DevRef τ sig) := by
  rw [after_ops, tail_arg1, keep_arg1, w4_arg1]
theorem arg2_eq : after ops V (main_arg2 : DevRef τ sig) = V (main_arg2 : DevRef τ sig) := by
  rw [after_ops, tail_arg2, keep_arg2, w4_arg2]

/-- On every device, for any float values, from any memory with zero counters: every weakly fair execution of the
    reference terminates with the result buffer at the grouped result of the three arguments, and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v79) = res79 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v79).trans (out_eq (launchContents m c)),
      (h c main_arg0).trans (arg0_eq (launchContents m c)),
      (h c main_arg1).trans (arg1_eq (launchContents m c)),
      (h c main_arg2).trans (arg2_eq (launchContents m c))⟩)
    (run_main m ρ)

end Cert.ReferenceIdeal.Hand

end
-- ==== Proof.RefValue.lean ====
import proofs.«141127_j52785148067965_2_alg».proof.Proof.RefRunDefs
import Idealize.ShloMosaic.Lib.ValueIdx
import Idealize.ShloMosaic.Lib.Pipeline.Value
import Idealize.ShloMosaic.PureOps.Ideal

/-!
# The reference's result read at an index

At exact (extended-real) values: feature row f below 3 of the result, at batch b, centre p and slot s, is
coordinate f of the point the neighbour table names minus coordinate f of the centre; feature row f from 3
on is feature f - 3 of that point.  A gather reads its start index as a signed number and clamps it into the
axis; for a table entry below 4096 the wrap of negative entries does nothing and the clamp is the identity.
-/

noncomputable section

namespace Cert.ReferenceIdeal.Hand

open Cert.ReferenceIdeal Idealize.ShloMosaic Idealize.ShloMosaic.ValueIdx

variable [Facts]
open Facts₀ Facts

/-! ## Words below 4096 -/

/-- A 32-bit word below 4096 is not negative as a signed number. -/
theorem slt_zero_of_lt (w : BitVec 32) (h : w.toNat < 4096) : IntOp.cmpi .slt w 0#32 = 0#1 := by
  have hi : w.toInt = (w.toNat : Int) := BitVec.toInt_eq_toNat_of_lt (by omega)
  show BitVec.ofBool (w.slt 0#32) = 0#1
  have : w.slt 0#32 = false := by
    rw [BitVec.slt_eq_decide, hi]
    simp
  rw [this]; rfl

/-- A 32-bit word below 4096 read as a signed number, then as a natural number, is itself. -/
theorem toInt_toNat_of_lt (w : BitVec 32) (h : w.toNat < 4096) : w.toInt.toNat = w.toNat := by
  rw [BitVec.toInt_eq_toNat_of_lt (by omega)]
  exact Int.toNat_natCast _

/-- The wrap of negative entries leaves an entry below 4096 as it is. -/
theorem normalize_apply (i : IVec S16x1024x32 32) (k : S16x1024x32.Idx) (h : (i k).toNat < 4096) :
    normalize (F := Ideal) i k = i k := by
  show Scalar.select (IntOp.cmpi .slt (i k) 0#32) (IntOp.addi (i k) 4096#32) (i k) = i k
  rw [slt_zero_of_lt _ h, select_zero]

/-! ## The two gathers at an index -/

/-- The start-indices array of a gather: the table with a trailing unit axis. -/
theorem starts_apply (i : IVec S16x1024x32 32) (b : Fin 16) (p : Fin 1024) (s : Fin 32) :
    broadcastInDim S16x1024x32x1 ![0, 1, 2] bcast_S16x1024x32_S16x1024x32x1_0_1_2 i (ix4 b p s (0 : Fin 1)) = i (ix3 b p s) := by
  refine broadcastInDim_apply _ _ _ _ (ix3 b p s) fun a => ?_
  match a with
  | ⟨0, _⟩ => rfl
  | ⟨1, _⟩ => rfl
  | ⟨2, _⟩ => rfl

/-- The coordinate gather at batch b, centre p, slot s, axis f: the operand at the start index read signed and
    clamped into the 4096 points. -/
theorem gatherXyz_apply (x0 : (⟨S16x4096x3, .f32⟩ : BufTy).Contents (Elt Ideal)) (idx : IVec S16x1024x32x1 32)
    (b : Fin 16) (p : Fin 1024) (s : Fin 32) (f : Fin 3) :
    Host.gather gather_S16x4096x3_S16x1024x32x1_S16x1024x32x3_3_1_0_0_1_3_113 x0 idx (ix4 b p s f)
      = x0 (ix3 b ⟨min (idx (ix4 b p s (0 : Fin 1))).toInt.toNat 4095, by omega⟩ f) := by
  unfold Host.gather
  have hsi : gather_S16x4096x3_S16x1024x32x1_S16x1024x32x3_3_1_0_0_1_3_113.siIdx (ix4 b p s f) ⟨0, Nat.one_pos⟩ = ix4 b p s (0 : Fin 1) := by
    funext a; refine Fin.ext ?_
    match a with
    | ⟨0, _⟩ => rfl
    | ⟨1, _⟩ => rfl
    | ⟨2, _⟩ => rfl
    | ⟨3, _⟩ => rfl
  refine congrArg x0 (funext fun a => Fin.ext ?_)
  match a with
  | ⟨0, _⟩ =>
    show gather_S16x4096x3_S16x1024x32x1_S16x1024x32x3_3_1_0_0_1_3_113.start (ix4 b p s f) idx 0 + gather_S16x4096x3_S16x1024x32x1_S16x1024x32x3_3_1_0_0_1_3_113.batchCoord (ix4 b p s f) 0 + gather_S16x4096x3_S16x1024x32x1_S16x1024x32x3_3_1_0_0_1_3_113.offCoord (ix4 b p s f) 0 = b.val
    have h1 : gather_S16x4096x3_S16x1024x32x1_S16x1024x32x3_3_1_0_0_1_3_113.start (ix4 b p s f) idx 0 = 0 := rfl
    have h2 : gather_S16x4096x3_S16x1024x32x1_S16x1024x32x3_3_1_0_0_1_3_113.batchCoord (ix4 b p s f) 0 = b.val := rfl
    have h3 : gather_S16x4096x3_S16x1024x32x1_S16x1024x32x3_3_1_0_0_1_3_113.offCoord (ix4 b p s f) 0 = 0 := rfl
    omega
  | ⟨1, _⟩ =>
    show gather_S16x4096x3_S16x1024x32x1_S16x1024x32x3_3_1_0_0_1_3_113.start (ix4 b p s f) idx 1 + gather_S16x4096x3_S16x1024x32x1_S16x1024x32x3_3_1_0_0_1_3_113.batchCoord (ix4 b p s f) 1 + gather_S16x4096x3_S16x1024x32x1_S16x1024x32x3_3_1_0_0_1_3_113.offCoord (ix4 b p s f) 1 = min (idx (ix4 b p s (0 : Fin 1))).toInt.toNat 4095
    have h1 : gather_S16x4096x3_S16x1024x32x1_S16x1024x32x3_3_1_0_0_1_3_113.start (ix4 b p s f) idx 1 = min (idx (gather_S16x4096x3_S16x1024x32x1_S16x1024x32x3_3_1_0_0_1_3_113.siIdx (ix4 b p s f) ⟨0, Nat.one_pos⟩)).toInt.toNat 4095 := rfl
    have h2 : gather_S16x4096x3_S16x1024x32x1_S16x1024x32x3_3_1_0_0_1_3_113.batchCoord (ix4 b p s f) 1 = 0 := rfl
    have h3 : gather_S16x4096x3_S16x1024x32x1_S16x1024x32x3_3_1_0_0_1_3_113.offCoord (ix4 b p s f) 1 = 0 := rfl
    rw [h1, h2, h3, hsi]
    rfl
  | ⟨2, _⟩ =>
    show gather_S16x4096x3_S16x1024x32x1_S16x1024x32x3_3_1_0_0_1_3_113.start (ix4 b p s f) idx 2 + gather_S16x4096x3_S16x1024x32x1_S16x1024x32x3_3_1_0_0_1_3_113.batchCoord (ix4 b p s f) 2 + gather_S16x4096x3_S16x1024x32x1_S16x1024x32x3_3_1_0_0_1_3_113.offCoord (ix4 b p s f) 2 = f.val
    have h1 : gather_S16x4096x3_S16x1024x32x1_S16x1024x32x3_3_1_0_0_1_3_113.start (ix4 b p s f) idx 2 = 0 := rfl
    have h2 : gather_S16x4096x3_S16x1024x32x1_S16x1024x32x3_3_1_0_0_1_3_113.batchCoord (ix4 b p s f) 2 = 0 := rfl
    have h3 : gather_S16x4096x3_S16x1024x32x1_S16x1024x32x3_3_1_0_0_1_3_113.offCoord (ix4 b p s f) 2 = f.val := rfl
    omega

/-- The feature gather at batch b, feature c, centre p, slot s. -/
theorem gatherPts_apply (x2 : (⟨S16x64x4096, .f32⟩ : BufTy).Contents (Elt Ideal)) (idx : IVec S16x1024x32x1 32)
    (b : Fin 16) (c : Fin 64) (p : Fin 1024) (s : Fin 32) :
    Host.gather gather_S16x64x4096_S16x1024x32x1_S16x64x1024x32_1_2_0_0_2_3_1641 x2 idx (ix4 b c p s)
      = x2 (ix3 b c ⟨min (idx (ix4 b p s (0 : Fin 1))).toInt.toNat 4095, by omega⟩) := by
  unfold Host.gather
  have hsi : gather_S16x64x4096_S16x1024x32x1_S16x64x1024x32_1_2_0_0_2_3_1641.siIdx (ix4 b c p s) ⟨0, Nat.one_pos⟩ = ix4 b p s (0 : Fin 1) := by
    funext a; refine Fin.ext ?_
    match a with
    | ⟨0, _⟩ => rfl
    | ⟨1, _⟩ => rfl
    | ⟨2, _⟩ => rfl
    | ⟨3, _⟩ => rfl
  refine congrArg x2 (funext fun a => Fin.ext ?_)
  match a with
  | ⟨0, _⟩ =>
    show gather_S16x64x4096_S16x1024x32x1_S16x64x1024x32_1_2_0_0_2_3_1641.start (ix4 b c p s) idx 0 + gather_S16x64x4096_S16x1024x32x1_S16x64x1024x32_1_2_0_0_2_3_1641.batchCoord (ix4 b c p s) 0 + gather_S16x64x4096_S16x1024x32x1_S16x64x1024x32_1_2_0_0_2_3_1641.offCoord (ix4 b c p s) 0 = b.val
    have h1 : gather_S16x64x4096_S16x1024x32x1_S16x64x1024x32_1_2_0_0_2_3_1641.start (ix4 b c p s) idx 0 = 0 := rfl
    have h2 : gather_S16x64x4096_S16x1024x32x1_S16x64x1024x32_1_2_0_0_2_3_1641.batchCoord (ix4 b c p s) 0 = b.val := rfl
    have h3 : gather_S16x64x4096_S16x1024x32x1_S16x64x1024x32_1_2_0_0_2_3_1641.offCoord (ix4 b c p s) 0 = 0 := rfl
    omega
  | ⟨1, _⟩ =>
    show gather_S16x64x4096_S16x1024x32x1_S16x64x1024x32_1_2_0_0_2_3_1641.start (ix4 b c p s) idx 1 + gather_S16x64x4096_S16x1024x32x1_S16x64x1024x32_1_2_0_0_2_3_1641.batchCoord (ix4 b c p s) 1 + gather_S16x64x4096_S16x1024x32x1_S16x64x1024x32_1_2_0_0_2_3_1641.offCoord (ix4 b c p s) 1 = c.val
    have h1 : gather_S16x64x4096_S16x1024x32x1_S16x64x1024x32_1_2_0_0_2_3_1641.start (ix4 b c p s) idx 1 = 0 := rfl
    have h2 : gather_S16x64x4096_S16x1024x32x1_S16x64x1024x32_1_2_0_0_2_3_1641.batchCoord (ix4 b c p s) 1 = 0 := rfl
    have h3 : gather_S16x64x4096_S16x1024x32x1_S16x64x1024x32_1_2_0_0_2_3_1641.offCoord (ix4 b c p s) 1 = c.val := rfl
    omega
  | ⟨2, _⟩ =>
    show gather_S16x64x4096_S16x1024x32x1_S16x64x1024x32_1_2_0_0_2_3_1641.start (ix4 b c p s) idx 2 + gather_S16x64x4096_S16x1024x32x1_S16x64x1024x32_1_2_0_0_2_3_1641.batchCoord (ix4 b c p s) 2 + gather_S16x64x4096_S16x1024x32x1_S16x64x1024x32_1_2_0_0_2_3_1641.offCoord (ix4 b c p s) 2 = min (idx (ix4 b p s (0 : Fin 1))).toInt.toNat 4095
    have h1 : gather_S16x64x4096_S16x1024x32x1_S16x64x1024x32_1_2_0_0_2_3_1641.start (ix4 b c p s) idx 2 = min (idx (gather_S16x64x4096_S16x1024x32x1_S16x64x1024x32_1_2_0_0_2_3_1641.siIdx (ix4 b c p s) ⟨0, Nat.one_pos⟩)).toInt.toNat 4095 := rfl
    have h2 : gather_S16x64x4096_S16x1024x32x1_S16x64x1024x32_1_2_0_0_2_3_1641.batchCoord (ix4 b c p s) 2 = 0 := rfl
    have h3 : gather_S16x64x4096_S16x1024x32x1_S16x64x1024x32_1_2_0_0_2_3_1641.offCoord (ix4 b c p s) 2 = 0 := rfl
    rw [h1, h2, h3, hsi]
    rfl

/-- A gather's clamped start index, for a table entry below 4096, is the entry. -/
theorem start_of_lt (i : IVec S16x1024x32 32) (b : Fin 16) (p : Fin 1024) (s : Fin 32)
    (hr : (i (ix3 b p s)).toNat < 4096) :
    min ((broadcastInDim S16x1024x32x1 ![0, 1, 2] bcast_S16x1024x32_S16x1024x32x1_0_1_2 (normalize (F := Ideal) i))
      (ix4 b p s (0 : Fin 1))).toInt.toNat 4095 = (i (ix3 b p s)).toNat := by
  rw [starts_apply, normalize_apply i _ hr, toInt_toNat_of_lt _ hr]
  omega

/-! ## The coordinate rows and the feature rows -/

theorem groupedXyz_apply (x0 : (⟨S16x4096x3, .f32⟩ : BufTy).Contents (Elt Ideal)) (x1 : (⟨S16x1024x3, .f32⟩ : BufTy).Contents (Elt Ideal)) (i : IVec S16x1024x32 32)
    (b : Fin 16) (f : Fin 3) (p : Fin 1024) (s : Fin 32) (hr : (i (ix3 b p s)).toNat < 4096) :
    groupedXyz (F := Ideal) x0 x1 i (ix4 b f p s) = x0 (ix3 b ⟨(i (ix3 b p s)).toNat, hr⟩ f) - x1 (ix3 b p f) := by
  unfold groupedXyz
  rw [subf_apply]
  congr 1
  · rw [transpose_apply _ _ _ (ix4 b f p s) (ix4 b p s f) (fun a => by
      match a with
      | ⟨0, _⟩ => rfl
      | ⟨1, _⟩ => rfl
      | ⟨2, _⟩ => rfl
      | ⟨3, _⟩ => rfl)]
    rw [gatherXyz_apply]
    exact congrArg x0 (congrArg (fun n => ix3 b n f) (Fin.ext (start_of_lt i b p s hr)))
  · rw [broadcastInDim_apply _ _ _ (ix4 b f p s) (ix4 b f p (0 : Fin 1)) (fun a => by
      match a with
      | ⟨0, _⟩ => rfl
      | ⟨1, _⟩ => rfl
      | ⟨2, _⟩ => rfl
      | ⟨3, _⟩ => rfl)]
    rw [broadcastInDim_apply _ _ _ (ix4 b f p (0 : Fin 1)) (ix3 b f p) (fun a => by
      match a with
      | ⟨0, _⟩ => rfl
      | ⟨1, _⟩ => rfl
      | ⟨2, _⟩ => rfl)]
    exact transpose_apply _ _ _ (ix3 b f p) (ix3 b p f) (fun a => by
      match a with
      | ⟨0, _⟩ => rfl
      | ⟨1, _⟩ => rfl
      | ⟨2, _⟩ => rfl)

theorem groupedPts_apply (x2 : (⟨S16x64x4096, .f32⟩ : BufTy).Contents (Elt Ideal)) (i : IVec S16x1024x32 32)
    (b : Fin 16) (c : Fin 64) (p : Fin 1024) (s : Fin 32) (hr : (i (ix3 b p s)).toNat < 4096) :
    groupedPts (F := Ideal) x2 i (ix4 b c p s) = x2 (ix3 b c ⟨(i (ix3 b p s)).toNat, hr⟩) := by
  unfold groupedPts
  rw [gatherPts_apply]
  exact congrArg x2 (congrArg (fun n => ix3 b c n) (Fin.ext (start_of_lt i b p s hr)))

/-! ## The result -/

variable (x0 : (⟨S16x4096x3, .f32⟩ : BufTy).Contents (Elt Ideal)) (x1 : (⟨S16x1024x3, .f32⟩ : BufTy).Contents (Elt Ideal)) (x2 : (⟨S16x64x4096, .f32⟩ : BufTy).Contents (Elt Ideal))

/-- A coordinate row of the grouped result over any table whose entry there is below 4096: the named point's
    coordinate minus the centre's. -/
theorem groupAt_apply_xyz (i : IVec S16x1024x32 32) (b : Fin 16) (f : Fin 67) (p : Fin 1024) (s : Fin 32)
    (hr : (i (ix3 b p s)).toNat < 4096) (hf : f.val < 3) :
    groupAt (F := Ideal) x0 x1 x2 i (ix4 b f p s)
      = x0 (ix3 b ⟨(i (ix3 b p s)).toNat, hr⟩ ⟨f.val, hf⟩) - x1 (ix3 b p ⟨f.val, hf⟩) := by
  unfold groupAt
  refine (concatenate_pair_apply_left (t := S16x67x1024x32) (s₁ := S16x3x1024x32) (s₂ := S16x64x1024x32) (1 : Fin 4) _ _ _ (ix4 b f p s) rfl (ix4 b (⟨f.val, hf⟩ : Fin 3) p s) (fun a => by
    match a with
    | ⟨0, _⟩ => rfl
    | ⟨1, _⟩ => rfl
    | ⟨2, _⟩ => rfl
    | ⟨3, _⟩ => rfl)).trans ?_
  exact groupedXyz_apply x0 x1 i b ⟨f.val, hf⟩ p s hr

/-- A feature row of the grouped result over any table whose entry there is below 4096: the named point's feature. -/
theorem groupAt_apply_pts (i : IVec S16x1024x32 32) (b : Fin 16) (f : Fin 67) (p : Fin 1024) (s : Fin 32)
    (hr : (i (ix3 b p s)).toNat < 4096) (hf : 3 ≤ f.val) :
    groupAt (F := Ideal) x0 x1 x2 i (ix4 b f p s)
      = x2 (ix3 b ⟨f.val - 3, by omega⟩ ⟨(i (ix3 b p s)).toNat, hr⟩) := by
  unfold groupAt
  refine (concatenate_pair_apply_right (t := S16x67x1024x32) (s₁ := S16x3x1024x32) (s₂ := S16x64x1024x32) (1 : Fin 4) _ _ _ (ix4 b f p s) rfl rfl (ix4 b (⟨f.val - 3, by omega⟩ : Fin 64) p s)
    (fun a ha => by
      match a with
      | ⟨0, _⟩ => rfl
      | ⟨1, _⟩ => exact absurd rfl ha
      | ⟨2, _⟩ => rfl
      | ⟨3, _⟩ => rfl)
    (by show f.val - 3 + 3 = f.val; omega)).trans ?_
  exact groupedPts_apply x2 i b ⟨f.val - 3, by omega⟩ p s hr

/-- A coordinate row of the reference's result. -/
theorem res79_apply_xyz (b : Fin 16) (f : Fin 67) (p : Fin 1024) (s : Fin 32)
    (hr : (idx59 x0 x1 (ix3 b p s)).toNat < 4096) (hf : f.val < 3) :
    res79 (F := Ideal) x0 x1 x2 (ix4 b f p s)
      = x0 (ix3 b ⟨(idx59 x0 x1 (ix3 b p s)).toNat, hr⟩ ⟨f.val, hf⟩) - x1 (ix3 b p ⟨f.val, hf⟩) :=
  groupAt_apply_xyz x0 x1 x2 (idx59 x0 x1) b f p s hr hf

/-- A feature row of the reference's result. -/
theorem res79_apply_pts (b : Fin 16) (f : Fin 67) (p : Fin 1024) (s : Fin 32)
    (hr : (idx59 x0 x1 (ix3 b p s)).toNat < 4096) (hf : 3 ≤ f.val) :
    res79 (F := Ideal) x0 x1 x2 (ix4 b f p s)
      = x2 (ix3 b ⟨f.val - 3, by omega⟩ ⟨(idx59 x0 x1 (ix3 b p s)).toNat, hr⟩) :=
  groupAt_apply_pts x0 x1 x2 (idx59 x0 x1) b f p s hr hf

end Cert.ReferenceIdeal.Hand

end
-- ==== Proof.Bridge.lean ====
import proofs.«141127_j52785148067965_2_alg».proof.Proof.Gen.ReferenceIdeal
import proofs.«141127_j52785148067965_2_alg».proof.Proof.RefValue
import proofs.«141127_j52785148067965_2_alg».proof.Proof.Spec

/-!
# The reference's result is the grouped array

The neighbour table is written out twice, once over each program's shapes and side conditions: the two are the
same composition of the same operations, stage by stage.  With that, the reference's result read at an index
(a coordinate row: the named point's coordinate less the centre's; a feature row: the named point's feature) is
the grouped array's entry there, the table's entry being below 4096.
-/

noncomputable section

namespace Cert.Bridge

open Idealize.ShloMosaic Idealize.ShloMosaic.ValueIdx

/-! ## The two spellings of the neighbour table agree, stage by stage -/

theorem diff_eq (x0 : (⟨Cert.ReferenceIdeal.S16x4096x3, .f32⟩ : BufTy).Contents (Elt Ideal)) (x1 : (⟨Cert.ReferenceIdeal.S16x1024x3, .f32⟩ : BufTy).Contents (Elt Ideal)) :
    Cert.ReferenceIdeal.Hand.diff (F := Ideal) x0 x1 = Cert.KernelIdeal.Hand.diff (F := Ideal) x0 x1 := rfl

theorem dist2_eq (x0 : (⟨Cert.ReferenceIdeal.S16x4096x3, .f32⟩ : BufTy).Contents (Elt Ideal)) (x1 : (⟨Cert.ReferenceIdeal.S16x1024x3, .f32⟩ : BufTy).Contents (Elt Ideal)) :
    Cert.ReferenceIdeal.Hand.dist2 (F := Ideal) x0 x1 = Cert.KernelIdeal.Hand.dist2 (F := Ideal) x0 x1 := by
  unfold Cert.ReferenceIdeal.Hand.dist2 Cert.KernelIdeal.Hand.dist2
  rw [diff_eq x0 x1]

theorem mask_eq (x0 : (⟨Cert.ReferenceIdeal.S16x4096x3, .f32⟩ : BufTy).Contents (Elt Ideal)) (x1 : (⟨Cert.ReferenceIdeal.S16x1024x3, .f32⟩ : BufTy).Contents (Elt Ideal)) :
    Cert.ReferenceIdeal.Hand.mask (F := Ideal) x0 x1 = Cert.KernelIdeal.Hand.mask (F := Ideal) x0 x1 := by
  unfold Cert.ReferenceIdeal.Hand.mask Cert.KernelIdeal.Hand.mask
  rw [dist2_eq x0 x1]

theorem order_eq (x0 : (⟨Cert.ReferenceIdeal.S16x4096x3, .f32⟩ : BufTy).Contents (Elt Ideal)) (x1 : (⟨Cert.ReferenceIdeal.S16x1024x3, .f32⟩ : BufTy).Contents (Elt Ideal)) :
    Cert.ReferenceIdeal.Hand.order (F := Ideal) x0 x1 = Cert.KernelIdeal.Hand.order (F := Ideal) x0 x1 := by
  unfold Cert.ReferenceIdeal.Hand.order Cert.KernelIdeal.Hand.order
  rw [mask_eq x0 x1]

theorem cnt_eq (x0 : (⟨Cert.ReferenceIdeal.S16x4096x3, .f32⟩ : BufTy).Contents (Elt Ideal)) (x1 : (⟨Cert.ReferenceIdeal.S16x1024x3, .f32⟩ : BufTy).Contents (Elt Ideal)) :
    Cert.ReferenceIdeal.Hand.cnt (F := Ideal) x0 x1 = Cert.KernelIdeal.Hand.cnt (F := Ideal) x0 x1 := by
  unfold Cert.ReferenceIdeal.Hand.cnt Cert.KernelIdeal.Hand.cnt
  rw [order_eq x0 x1]

theorem slot_eq (x0 : (⟨Cert.ReferenceIdeal.S16x4096x3, .f32⟩ : BufTy).Contents (Elt Ideal)) (x1 : (⟨Cert.ReferenceIdeal.S16x1024x3, .f32⟩ : BufTy).Contents (Elt Ideal)) :
    Cert.ReferenceIdeal.Hand.slot (F := Ideal) x0 x1 = Cert.KernelIdeal.Hand.slot (F := Ideal) x0 x1 := by
  unfold Cert.ReferenceIdeal.Hand.slot Cert.KernelIdeal.Hand.slot
  rw [mask_eq x0 x1, order_eq x0 x1]

theorem slotN_eq (x0 : (⟨Cert.ReferenceIdeal.S16x4096x3, .f32⟩ : BufTy).Contents (Elt Ideal)) (x1 : (⟨Cert.ReferenceIdeal.S16x1024x3, .f32⟩ : BufTy).Contents (Elt Ideal)) :
    Cert.ReferenceIdeal.Hand.slotN (F := Ideal) x0 x1 = Cert.KernelIdeal.Hand.slotN (F := Ideal) x0 x1 := by
  unfold Cert.ReferenceIdeal.Hand.slotN Cert.KernelIdeal.Hand.slotN
  rw [slot_eq x0 x1]

theorem bbN_eq :
    Cert.ReferenceIdeal.Hand.bbN = Cert.KernelIdeal.Hand.bbN := rfl

theorem ppN_eq :
    Cert.ReferenceIdeal.Hand.ppN = Cert.KernelIdeal.Hand.ppN := rfl

theorem indices_eq (x0 : (⟨Cert.ReferenceIdeal.S16x4096x3, .f32⟩ : BufTy).Contents (Elt Ideal)) (x1 : (⟨Cert.ReferenceIdeal.S16x1024x3, .f32⟩ : BufTy).Contents (Elt Ideal)) :
    Cert.ReferenceIdeal.Hand.indices (F := Ideal) x0 x1 = Cert.KernelIdeal.Hand.indices (F := Ideal) x0 x1 := by
  unfold Cert.ReferenceIdeal.Hand.indices Cert.KernelIdeal.Hand.indices
  rw [bbN_eq, ppN_eq, slotN_eq x0 x1]

theorem zeros33_eq :
    Cert.ReferenceIdeal.Hand.zeros33 = Cert.KernelIdeal.Hand.zeros33 := rfl

theorem nn_eq :
    Cert.ReferenceIdeal.Hand.nn = Cert.KernelIdeal.Hand.nn := rfl

theorem scat_eq (x0 : (⟨Cert.ReferenceIdeal.S16x4096x3, .f32⟩ : BufTy).Contents (Elt Ideal)) (x1 : (⟨Cert.ReferenceIdeal.S16x1024x3, .f32⟩ : BufTy).Contents (Elt Ideal)) :
    Cert.ReferenceIdeal.Hand.scat (F := Ideal) x0 x1 = Cert.KernelIdeal.Hand.scat (F := Ideal) x0 x1 := by
  unfold Cert.ReferenceIdeal.Hand.scat Cert.KernelIdeal.Hand.scat
  rw [zeros33_eq, indices_eq x0 x1, nn_eq]
  rfl

theorem scat32_eq (x0 : (⟨Cert.ReferenceIdeal.S16x4096x3, .f32⟩ : BufTy).Contents (Elt Ideal)) (x1 : (⟨Cert.ReferenceIdeal.S16x1024x3, .f32⟩ : BufTy).Contents (Elt Ideal)) :
    Cert.ReferenceIdeal.Hand.scat32 (F := Ideal) x0 x1 = Cert.KernelIdeal.Hand.scat32 (F := Ideal) x0 x1 := by
  unfold Cert.ReferenceIdeal.Hand.scat32 Cert.KernelIdeal.Hand.scat32
  rw [scat_eq x0 x1]

theorem filled_eq (x0 : (⟨Cert.ReferenceIdeal.S16x4096x3, .f32⟩ : BufTy).Contents (Elt Ideal)) (x1 : (⟨Cert.ReferenceIdeal.S16x1024x3, .f32⟩ : BufTy).Contents (Elt Ideal)) :
    Cert.ReferenceIdeal.Hand.filled (F := Ideal) x0 x1 = Cert.KernelIdeal.Hand.filled (F := Ideal) x0 x1 := by
  unfold Cert.ReferenceIdeal.Hand.filled Cert.KernelIdeal.Hand.filled
  rw [cnt_eq x0 x1]

theorem idx59_eq (x0 : (⟨Cert.ReferenceIdeal.S16x4096x3, .f32⟩ : BufTy).Contents (Elt Ideal)) (x1 : (⟨Cert.ReferenceIdeal.S16x1024x3, .f32⟩ : BufTy).Contents (Elt Ideal)) :
    Cert.ReferenceIdeal.Hand.idx59 (F := Ideal) x0 x1 = Cert.KernelIdeal.Hand.idx59 (F := Ideal) x0 x1 := by
  unfold Cert.ReferenceIdeal.Hand.idx59 Cert.KernelIdeal.Hand.idx59
  rw [filled_eq x0 x1, scat32_eq x0 x1]

/-- The neighbour table of the reference is the neighbour table of the kernel's prelude. -/
theorem idx_eq (x0 : (⟨Cert.ReferenceIdeal.S16x4096x3, .f32⟩ : BufTy).Contents (Elt Ideal)) (x1 : (⟨Cert.ReferenceIdeal.S16x1024x3, .f32⟩ : BufTy).Contents (Elt Ideal)) :
    Cert.ReferenceIdeal.Hand.idx59 (F := Ideal) x0 x1 = Cert.KernelIdeal.Hand.idx59 (F := Ideal) x0 x1 :=
  idx59_eq x0 x1

/-! ## The reference's result, entry by entry -/

/-- The reference's result at batch b, row f, centre p, slot s is the grouped array's entry there. -/
theorem res79_at (x0 : (⟨Cert.ReferenceIdeal.S16x4096x3, .f32⟩ : BufTy).Contents (Elt Ideal)) (x1 : (⟨Cert.ReferenceIdeal.S16x1024x3, .f32⟩ : BufTy).Contents (Elt Ideal)) (x2 : (⟨Cert.ReferenceIdeal.S16x64x4096, .f32⟩ : BufTy).Contents (Elt Ideal)) (b : Fin 16) (f : Fin 67) (p : Fin 1024) (s : Fin 32) :
    Cert.ReferenceIdeal.Hand.res79 (F := Ideal) x0 x1 x2 (ix4 b f p s) = Cert.KernelIdeal.Hand.groupGat x0 x1 x2 b f p s := by
  show Cert.ReferenceIdeal.Hand.groupAt (F := Ideal) x0 x1 x2 (Cert.ReferenceIdeal.Hand.idx59 (F := Ideal) x0 x1) (ix4 b f p s) = _
  rw [idx_eq x0 x1]
  unfold Cert.KernelIdeal.Hand.groupGat
  by_cases hf : f.val < 3
  · rw [dif_pos hf]
    exact Cert.ReferenceIdeal.Hand.groupAt_apply_xyz x0 x1 x2 (Cert.KernelIdeal.Hand.idx59 (F := Ideal) x0 x1) b f p s
      (Cert.KernelIdeal.Hand.idx59_lt (F := Ideal) x0 x1 (ix3 b p s)) hf
  · rw [dif_neg hf]
    exact Cert.ReferenceIdeal.Hand.groupAt_apply_pts x0 x1 x2 (Cert.KernelIdeal.Hand.idx59 (F := Ideal) x0 x1) b f p s
      (Cert.KernelIdeal.Hand.idx59_lt (F := Ideal) x0 x1 (ix3 b p s)) (by omega)

/-- The reference's result is the grouped array. -/
theorem res79_eq (x0 : (⟨Cert.ReferenceIdeal.S16x4096x3, .f32⟩ : BufTy).Contents (Elt Ideal)) (x1 : (⟨Cert.ReferenceIdeal.S16x1024x3, .f32⟩ : BufTy).Contents (Elt Ideal)) (x2 : (⟨Cert.ReferenceIdeal.S16x64x4096, .f32⟩ : BufTy).Contents (Elt Ideal)) :
    Cert.ReferenceIdeal.Hand.res79 (F := Ideal) x0 x1 x2 = Cert.KernelIdeal.Hand.groupG x0 x1 x2 := by
  funext q
  rw [eq_ix4 q]
  exact res79_at x0 x1 x2 (q 0) (q 1) (q 2) (q 3)

end Cert.Bridge

end
-- ==== Proof.lean ====
/-
  The certificate of the grouping kernel against its reference.

  Both programs compute the same neighbour table idx[b, p, s] — for each batch and centre the numbers of the first 32
  points inside the ball, in index order, padded with the first — by the same host operations. The reference then
  gathers, for every (b, p, s), point idx[b, p, s]'s three coordinates less the centre's, and its 64 features. The
  kernel stacks coordinates and features into one table per batch and gathers inside a pipelined region: for each
  stretch of 256 slots it multiplies the table by the matrix of weights [n = idx] (one 1 per column), which on the
  extended reals picks the table's column idx exactly, because every entry of idx is a point's number; the table's
  second half (table minus table) is zero because the inputs are real numbers; the centres' coordinates, padded with
  zero rows, are subtracted from the first eight rows. So every entry of the two results is the same extended real.

  Frames: the two kernel programs' by the frame run of their one region between the host lines (KFrame, KIFrame);
  the reference's by its run with the result dropped. The idealization rewrote nothing.
-/
import proofs.«141127_j52785148067965_2_alg».proof.Defs
import proofs.«141127_j52785148067965_2_alg».proof.Proof.Gen.Kernel
import proofs.«141127_j52785148067965_2_alg».proof.Proof.Gen.KernelIdeal
import proofs.«141127_j52785148067965_2_alg».proof.Proof.Gen.ReferenceIdeal
import proofs.«141127_j52785148067965_2_alg».proof.Proof.Gen.Pre_finite_inputs
import proofs.«141127_j52785148067965_2_alg».proof.Proof.KFrame
import proofs.«141127_j52785148067965_2_alg».proof.Proof.KIFrame
import proofs.«141127_j52785148067965_2_alg».proof.Proof.KIValue
import proofs.«141127_j52785148067965_2_alg».proof.Proof.RefRun
import proofs.«141127_j52785148067965_2_alg».proof.Proof.Bridge
import proofs.«141127_j52785148067965_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- At the ideal instance the kernel's result buffer ends at the grouped array of its inputs (KIValue, under the
    precondition: the inputs are real numbers) and the reference's at its own gathers of inputs that agree — the same
    array (Bridge). -/
theorem algebraic : Cert.algebraic_KernelIdeal_ReferenceIdeal := by
  intro m ρ m' ρ' hpre hagree
  have hfin : ∀ c : Dev Cert.KernelIdeal.nD,
      (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal)) :=
    fun c => Cert.Pre_finite_inputs.Hand.reals_of_pre _ _ _ (hpre c)
  refine ⟨fun c => Cert.KernelIdeal.Hand.groupG
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.value_run m ρ hfin, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  exact Cert.Bridge.res79_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
